-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x32x32x512 : Shape := ⟨5, ![8, 16, 32, 32, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S_ : Shape := ⟨0, ![]⟩

class Facts : Prop where
  bcast_S_S8x16x32x32x512 : S_.BroadcastsInDim S8x16x32x32x512 (![] : Fin 0 → Fin S8x16x32x32x512.rank)
  reducesTo_S8x16x32x32x512_S_d0_1_2_3_4 : S8x16x32x32x512.ReducesTo [0, 1, 2, 3, 4] S_
  h_S_ : 0 < S_.numel
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_

variable [Facts]

def fn_part4 {F : FTy → Type} [FloatOps F] (main_arg14 : FVec F S512 .f32) (main_arg15 : FVec F S512 .f32) (main_arg16 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  main_v83

def fn_part3 {F : FTy → Type} [FloatOps F] (main_arg11 : FVec F S64x512 .f32) (main_arg12 : FVec F S512 .f32) (main_arg13 : FVec F S512 .f32) (main_arg14 : FVec F S512 .f32) (main_arg15 : FVec F S512 .f32) (main_arg16 : FVec F S512 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x512 .f32 := Host.absf main_arg11
  let main_cst_20 : FVec F S_ .f32 := constant S_ .f32 0x7F800000#32
  let main_v55 : FVec F S64x512 .f32 := broadcastInDim S64x512 ![] bcast_S_S64x512 main_cst_20
  let main_v56 : IVec S64x512 1 := cmpf .olt main_v54 main_v55
  let main_c_21 : IVec S_ 1 := constantI S_ 1 1#1
  let main_v57 : IVec S_ 1 := (fun x v => Host.reduce IntOp.andi x v reducesTo_S64x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_v63 main_v67

def fn_part2 {F : FTy → Type} [FloatOps F] (main_arg7 : FVec F S512x64 .f32) (main_arg8 : FVec F S64 .f32) (main_arg9 : FVec F S512x64 .f32) (main_arg10 : FVec F S64 .f32) (main_arg11 : FVec F S64x512 .f32) (main_arg12 : FVec F S512 .f32) (main_arg13 : FVec F S512 .f32) (main_arg14 : FVec F S512 .f32) (main_arg15 : FVec F S512 .f32) (main_arg16 : FVec F S512 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S512 .f32) (main_arg5 : FVec F S512x64 .f32) (main_arg6 : FVec F S64 .f32) (main_arg7 : FVec F S512x64 .f32) (main_arg8 : FVec F S64 .f32) (main_arg9 : FVec F S512x64 .f32) (main_arg10 : FVec F S64 .f32) (main_arg11 : FVec F S64x512 .f32) (main_arg12 : FVec F S512 .f32) (main_arg13 : FVec F S512 .f32) (main_arg14 : FVec F S512 .f32) (main_arg15 : FVec F S512 .f32) (main_arg16 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x16x32x32x512 .f32) (main_arg1 : FVec F S512 .f32) (main_arg2 : FVec F S512 .f32) (main_arg3 : FVec F S512 .f32) (main_arg4 : FVec F S512 .f32) (main_arg5 : FVec F S512x64 .f32) (main_arg6 : FVec F S64 .f32) (main_arg7 : FVec F S512x64 .f32) (main_arg8 : FVec F S64 .f32) (main_arg9 : FVec F S512x64 .f32) (main_arg10 : FVec F S64 .f32) (main_arg11 : FVec F S64x512 .f32) (main_arg12 : FVec F S512 .f32) (main_arg13 : FVec F S512 .f32) (main_arg14 : FVec F S512 .f32) (main_arg15 : FVec F S512 .f32) (main_arg16 : FVec F S512 .f32) : IVec S_ 1 :=
  let main_v0 : FVec F S8x16x32x32x512 .f32 := Host.absf main_arg0
  let main_cst : FVec F S_ .f32 := constant S_ .f32 0x7F800000#32
  let main_v1 : FVec F S8x16x32x32x512 .f32 := broadcastInDim S8x16x32x32x512 ![] bcast_S_S8x16x32x32x512 main_cst
  let main_v2 : IVec S8x16x32x32x512 1 := cmpf .olt main_v0 main_v1
  let main_c : IVec S_ 1 := constantI S_ 1 1#1
  let main_v3 : IVec S_ 1 := (fun x v => Host.reduce IntOp.andi x v reducesTo_S8x16x32x32x512_S_d0_1_2_3_4 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x16x32x32x512 : Shape := ⟨5, ![8, 16, 32, 32, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S8x16384x512 : Shape := ⟨3, ![8, 16384, 512]⟩
abbrev S8x16384x64 : Shape := ⟨3, ![8, 16384, 64]⟩
abbrev S8x64x64 : Shape := ⟨3, ![8, 64, 64]⟩
abbrev S1x2048x512 : Shape := ⟨3, ![1, 2048, 512]⟩
abbrev S1x2048x64 : Shape := ⟨3, ![1, 2048, 64]⟩
abbrev S1x64x64 : Shape := ⟨3, ![1, 64, 64]⟩
abbrev S64x64 : Shape := ⟨2, ![64, 64]⟩
abbrev S2048x512 : Shape := ⟨2, ![2048, 512]⟩
abbrev S1x512 : Shape := ⟨2, ![1, 512]⟩
abbrev S2048x64 : Shape := ⟨2, ![2048, 64]⟩
abbrev S1x64 : Shape := ⟨2, ![1, 64]⟩
abbrev S_ : Shape := ⟨0, ![]⟩
abbrev S8x64 : Shape := ⟨2, ![8, 64]⟩
abbrev S8x64x1 : Shape := ⟨3, ![8, 64, 1]⟩
abbrev S8x64x16384 : Shape := ⟨3, ![8, 64, 16384]⟩
abbrev S1x64x2048 : Shape := ⟨3, ![1, 64, 2048]⟩
abbrev S64x2048 : Shape := ⟨2, ![64, 2048]⟩

abbrev nBuf : Space → Nat
  | .hbm => 38
  | .vmem => 33
  | .smem => 0
  | _ => 0

abbrev bufTy : (tb : Table) → Fin (tcTables nBuf tb) → BufTy
  | .hbm, ⟨0, _⟩ => ⟨S8x16x32x32x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S512x64, .f32⟩
  | .hbm, ⟨10, _⟩ => ⟨S64, .f32⟩
  | .hbm, ⟨11, _⟩ => ⟨S64x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S8x16384x512, .f32⟩
  | .hbm, ⟨18, _⟩ => ⟨S8x16384x64, .bf16⟩
  | .hbm, ⟨19, _⟩ => ⟨S8x64x64, .f32⟩
  | .hbm, ⟨20, _⟩ => ⟨S_, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x64x1, .f32⟩
  | .hbm, ⟨26, _⟩ => ⟨S8x64x64, .f32⟩
  | .hbm, ⟨27, _⟩ => ⟨S8x64x64, .f32⟩
  | .hbm, ⟨28, _⟩ => ⟨S8x64x64, .f32⟩
  | .hbm, ⟨29, _⟩ => ⟨S_, .f32⟩
  | .hbm, ⟨30, _⟩ => ⟨S8x64, .f32⟩
  | .hbm, ⟨31, _⟩ => ⟨S8x64x1, .f32⟩
  | .hbm, ⟨32, _⟩ => ⟨S8x64x64, .f32⟩
  | .hbm, ⟨33, _⟩ => ⟨S8x64x64, .f32⟩
  | .hbm, ⟨34, _⟩ => ⟨S8x64x16384, .bf16⟩
  | .hbm, ⟨35, _⟩ => ⟨S8x16384x64, .bf16⟩
  | .hbm, ⟨36, _⟩ => ⟨S8x16384x512, .f32⟩
  | .hbm, ⟨37, _⟩ => ⟨S8x16x32x32x512, .f32⟩
  | .local _ .vmem, ⟨0, _⟩ => ⟨S1x2048x512, .f32⟩
  | .local _ .vmem, ⟨1, _⟩ => ⟨S1x2048x512, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512x64, .f32⟩
  | .local _ .vmem, ⟨7, _⟩ => ⟨S64, .f32⟩
  | .local _ .vmem, ⟨8, _⟩ => ⟨S512x64, .f32⟩
  | .local _ .vmem, ⟨9, _⟩ => ⟨S64, .f32⟩
  | .local _ .vmem, ⟨10, _⟩ => ⟨S512x64, .f32⟩
  | .local _ .vmem, ⟨11, _⟩ => ⟨S64, .f32⟩
  | .local _ .vmem, ⟨12, _⟩ => ⟨S1x2048x64, .bf16⟩
  | .local _ .vmem, ⟨13, _⟩ => ⟨S1x2048x64, .bf16⟩
  | .local _ .vmem, ⟨14, _⟩ => ⟨S1x64x64, .f32⟩
  | .local _ .vmem, ⟨15, _⟩ => ⟨S1x64x64, .f32⟩
  | .local _ .vmem, ⟨16, _⟩ => ⟨S64x64, .f32⟩
  | .local _ .vmem, ⟨17, _⟩ => ⟨S1x64x64, .f32⟩
  | .local _ .vmem, ⟨18, _⟩ => ⟨S1x64x64, .f32⟩
  | .local _ .vmem, ⟨19, _⟩ => ⟨S1x2048x64, .bf16⟩
  | .local _ .vmem, ⟨20, _⟩ => ⟨S1x2048x64, .bf16⟩
  | .local _ .vmem, ⟨21, _⟩ => ⟨S1x64x2048, .bf16⟩
  | .local _ .vmem, ⟨22, _⟩ => ⟨S1x64x2048, .bf16⟩
  | .local _ .vmem, ⟨23, _⟩ => ⟨S1x2048x64, .bf16⟩
  | .local _ .vmem, ⟨24, _⟩ => ⟨S1x2048x64, .bf16⟩
  | .local _ .vmem, ⟨25, _⟩ => ⟨S64x512, .f32⟩
  | .local _ .vmem, ⟨26, _⟩ => ⟨S512, .f32⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S512, .f32⟩
  | .local _ .vmem, ⟨31, _⟩ => ⟨S1x2048x512, .f32⟩
  | .local _ .vmem, ⟨32, _⟩ => ⟨S1x2048x512, .f32⟩
  | _, _ => ⟨S8x16x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_cst : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x2048x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  shapeCasts_S8x16x32x32x512_S8x16384x512 : S8x16x32x32x512.ShapeCasts S8x16384x512
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S8x64x64_S8x64_d2 : S8x64x64.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  packedbf16_S1x64x2048_S1x64x2048_0_0_0 : (Rect.unit (s := S1x64x2048) ![0, 0, 0] S1x64x2048.size inb_S1x64x2048_S1x64x2048_0_0_0).PackedRows (EltTy.packing .bf16)
  shapeCasts_S8x64x16384_S8x16384x64 : S8x64x16384.ShapeCasts S8x16384x64
  inb_S64x512_S64x512_0_0 : ∀ a, (![0, 0] : Fin 2 → Nat) a + S64x512.size a ≤ S64x512.size a
  h_S64x512 : 0 < S64x512.numel
  shapeCasts_S2048x512_S1x2048x512 : S2048x512.ShapeCasts S1x2048x512
  shapeCasts_S8x16384x512_S8x16x32x32x512 : S8x16384x512.ShapeCasts S8x16x32x32x512
  dot_S2048x512_S512x64_S2048x64_1_0_0_1_n_n_wf : DotDims.WF S2048x512 S512x64 S2048x64 [1] [0] [0] [1] [] []
  dot_S2048x64_S2048x64_S64x64_0_0_1_1_n_n_wf : DotDims.WF S2048x64 S2048x64 S64x64 [0] [0] [1] [1] [] []
  dot_S64x64_S2048x64_S64x2048_0_1_1_0_n_n_wf : DotDims.WF S64x64 S2048x64 S64x2048 [0] [1] [1] [0] [] []
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x16384x512.size a
  hwx0_0 : ∀ i : grid0.Coords, EltTy.bits .f32 = 32 ∨ (Rect.block (s := S8x16384x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S512x64.size a
  hwx0_7 : ∀ i : grid0.Coords, EltTy.bits .f32 = 32 ∨ (Rect.block (s := S512x64) S512x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .f32 = 32 ∨ (Rect.block (s := S512x64) S512x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2048x64.size a ≤ S8x16384x64.size a
  hwx0_11 : ∀ i : grid0.Coords, EltTy.bits .bf16 = 32 ∨ (Rect.block (s := S8x16384x64) S1x2048x64.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x64.size a ≤ S8x64x64.size a
  hwx0_12 : ∀ i : grid0.Coords, EltTy.bits .f32 = 32 ∨ (Rect.block (s := S8x64x64) S1x64x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64.size a ≤ S8x64x64.size a
  hwx1_0 : ∀ i : grid1.Coords, EltTy.bits .f32 = 32 ∨ (Rect.block (s := S8x64x64) S1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x16384x64.size a
  hwx1_1 : ∀ i : grid1.Coords, EltTy.bits .bf16 = 32 ∨ (Rect.block (s := S8x16384x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x2048.size a ≤ S8x64x16384.size a
  hwx1_2 : ∀ i : grid1.Coords, EltTy.bits .bf16 = 32 ∨ (Rect.block (s := S8x64x16384) S1x64x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S8x16384x64.size a
  hwx2_0 : ∀ i : grid2.Coords, EltTy.bits .bf16 = 32 ∨ (Rect.block (s := S8x16384x64) S1x2048x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S512.size a
  hwx2_6 : ∀ i : grid2.Coords, EltTy.bits .f32 = 32 ∨ (Rect.block (s := S512) S512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x2048x512.size a ≤ S8x16384x512.size a
  hwx2_7 : ∀ i : grid2.Coords, EltTy.bits .f32 = 32 ∨ (Rect.block (s := S8x16384x512) S1x2048x512.size (cc2_transform_7 i) (hinb2_7 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S64x64_S2048x64_S64x2048_0_1_1_0_n_n : DotDims S64x64 S2048x64 S64x2048 where
  lhsContracting := [0]
  rhsContracting := [1]
  lhsNonContracting := [1]
  rhsNonContracting := [0]
  lhsBatch := []
  rhsBatch := []
  wf := dot_S64x64_S2048x64_S64x2048_0_1_1_0_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1_0) S1x2048x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1_1) S1x64x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v12) S1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x2048x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x16x32x32x512 : Shape := ⟨5, ![8, 16, 32, 32, 512]⟩
abbrev S512 : Shape := ⟨1, ![512]⟩
abbrev S512x64 : Shape := ⟨2, ![512, 64]⟩
abbrev S64 : Shape := ⟨1, ![64]⟩
abbrev S64x512 : Shape := ⟨2, ![64, 512]⟩
abbrev S1x1x1x1x512 : Shape := ⟨5, ![1, 1, 1, 1, 512]⟩
abbrev S_ : Shape := ⟨0, ![]⟩
abbrev S8x16x32x32x64 : Shape := ⟨5, ![8, 16, 32, 32, 64]⟩
abbrev S1x1x1x1x64 : Shape := ⟨5, ![1, 1, 1, 1, 64]⟩
abbrev S8x16384x64 : Shape := ⟨3, ![8, 16384, 64]⟩
abbrev S8x64x64 : Shape := ⟨3, ![8, 64, 64]⟩
abbrev S8x64 : Shape := ⟨2, ![8, 64]⟩
abbrev S8x64x1 : Shape := ⟨3, ![8, 64, 1]⟩
abbrev S8x64x16384 : Shape := ⟨3, ![8, 64, 16384]⟩

abbrev nBuf : Space → Nat
  | .hbm => 85
  | .vmem => 0
  | .smem => 0
  | _ => 0

abbrev bufTy : (tb : Table) → Fin (tcTables nBuf tb) → BufTy
  | .hbm, ⟨0, _⟩ => ⟨S8x16x32x32x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S512x64, .f32⟩
  | .hbm, ⟨8, _⟩ => ⟨S64, .f32⟩
  | .hbm, ⟨9, _⟩ => ⟨S512x64, .f32⟩
  | .hbm, ⟨10, _⟩ => ⟨S64, .f32⟩
  | .hbm, ⟨11, _⟩ => ⟨S64x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S1x1x1x1x512, .f32⟩
  | .hbm, ⟨18, _⟩ => ⟨S8x16x32x32x512, .f32⟩
  | .hbm, ⟨19, _⟩ => ⟨S8x16x32x32x512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S1x1x1x1x512, .f32⟩
  | .hbm, ⟨25, _⟩ => ⟨S8x16x32x32x512, .f32⟩
  | .hbm, ⟨26, _⟩ => ⟨S8x16x32x32x512, .f32⟩
  | .hbm, ⟨27, _⟩ => ⟨S1x1x1x1x512, .f32⟩
  | .hbm, ⟨28, _⟩ => ⟨S8x16x32x32x512, .f32⟩
  | .hbm, ⟨29, _⟩ => ⟨S8x16x32x32x512, .f32⟩
  | .hbm, ⟨30, _⟩ => ⟨S1x1x1x1x512, .f32⟩
  | .hbm, ⟨31, _⟩ => ⟨S8x16x32x32x512, .f32⟩
  | .hbm, ⟨32, _⟩ => ⟨S8x16x32x32x512, .f32⟩
  | .hbm, ⟨33, _⟩ => ⟨S8x16x32x32x64, .f32⟩
  | .hbm, ⟨34, _⟩ => ⟨S1x1x1x1x64, .f32⟩
  | .hbm, ⟨35, _⟩ => ⟨S8x16x32x32x64, .f32⟩
  | .hbm, ⟨36, _⟩ => ⟨S8x16x32x32x64, .f32⟩
  | .hbm, ⟨37, _⟩ => ⟨S8x16384x64, .f32⟩
  | .hbm, ⟨38, _⟩ => ⟨S8x16x32x32x64, .f32⟩
  | .hbm, ⟨39, _⟩ => ⟨S1x1x1x1x64, .f32⟩
  | .hbm, ⟨40, _⟩ => ⟨S8x16x32x32x64, .f32⟩
  | .hbm, ⟨41, _⟩ => ⟨S8x16x32x32x64, .f32⟩
  | .hbm, ⟨42, _⟩ => ⟨S8x16384x64, .f32⟩
  | .hbm, ⟨43, _⟩ => ⟨S8x16x32x32x64, .f32⟩
  | .hbm, ⟨44, _⟩ => ⟨S1x1x1x1x64, .f32⟩
  | .hbm, ⟨45, _⟩ => ⟨S8x16x32x32x64, .f32⟩
  | .hbm, ⟨46, _⟩ => ⟨S8x16x32x32x64, .f32⟩
  | .hbm, ⟨47, _⟩ => ⟨S8x16384x64, .f32⟩
  | .hbm, ⟨48, _⟩ => ⟨S8x64x64, .f32⟩
  | .hbm, ⟨49, _⟩ => ⟨S_, .f32⟩
  | .hbm, ⟨50, _⟩ => ⟨S8x64, .f32⟩
  | .hbm, ⟨51, _⟩ => ⟨S_, .f32⟩
  | .hbm, ⟨52, _⟩ => ⟨S8x64, .f32⟩
  | .hbm, ⟨53, _⟩ => ⟨S8x64, .f32⟩
  | .hbm, ⟨54, _⟩ => ⟨S8x64x1, .f32⟩
  | .hbm, ⟨55, _⟩ => ⟨S8x64x64, .f32⟩
  | .hbm, ⟨56, _⟩ => ⟨S8x64x64, .f32⟩
  | .hbm, ⟨57, _⟩ => ⟨S8x64x64, .f32⟩
  | .hbm, ⟨58, _⟩ => ⟨S_, .f32⟩
  | .hbm, ⟨59, _⟩ => ⟨S8x64, .f32⟩
  | .hbm, ⟨60, _⟩ => ⟨S8x64x1, .f32⟩
  | .hbm, ⟨61, _⟩ => ⟨S8x64x64, .f32⟩
  | .hbm, ⟨62, _⟩ => ⟨S8x64x64, .f32⟩
  | .hbm, ⟨63, _⟩ => ⟨S8x64x16384, .f32⟩
  | .hbm, ⟨64, _⟩ => ⟨S8x16x32x32x64, .f32⟩
  | .hbm, ⟨65, _⟩ => ⟨S8x16x32x32x512, .f32⟩
  | .hbm, ⟨66, _⟩ => ⟨S1x1x1x1x512, .f32⟩
  | .hbm, ⟨67, _⟩ => ⟨S8x16x32x32x512, .f32⟩
  | .hbm, ⟨68, _⟩ => ⟨S8x16x32x32x512, .f32⟩
  | .hbm, ⟨69, _⟩ => ⟨S1x1x1x1x512, .f32⟩
  | .hbm, ⟨70, _⟩ => ⟨S8x16x32x32x512, .f32⟩
  | .hbm, ⟨71, _⟩ => ⟨S8x16x32x32x512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S1x1x1x1x512, .f32⟩
  | .hbm, ⟨77, _⟩ => ⟨S8x16x32x32x512, .f32⟩
  | .hbm, ⟨78, _⟩ => ⟨S8x16x32x32x512, .f32⟩
  | .hbm, ⟨79, _⟩ => ⟨S1x1x1x1x512, .f32⟩
  | .hbm, ⟨80, _⟩ => ⟨S8x16x32x32x512, .f32⟩
  | .hbm, ⟨81, _⟩ => ⟨S8x16x32x32x512, .f32⟩
  | .hbm, ⟨82, _⟩ => ⟨S1x1x1x1x512, .f32⟩
  | .hbm, ⟨83, _⟩ => ⟨S8x16x32x32x512, .f32⟩
  | .hbm, ⟨84, _⟩ => ⟨S8x16x32x32x512, .f32⟩
  | _, _ => ⟨S8x16x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  bcast_S512_S1x1x1x1x512_4 : S512.BroadcastsInDim S1x1x1x1x512 (![4] : Fin 1 → Fin S1x1x1x1x512.rank)
  bcast_S1x1x1x1x512_S8x16x32x32x512_0_1_2_3_4 : S1x1x1x1x512.BroadcastsInDim S8x16x32x32x512 (![0, 1, 2, 3, 4] : Fin 5 → Fin S8x16x32x32x512.rank)
  bcast_S_S512 : S_.BroadcastsInDim S512 (![] : Fin 0 → Fin S512.rank)
  bcast_S64_S1x1x1x1x64_4 : S64.BroadcastsInDim S1x1x1x1x64 (![4] : Fin 1 → Fin S1x1x1x1x64.rank)
  bcast_S1x1x1x1x64_S8x16x32x32x64_0_1_2_3_4 : S1x1x1x1x64.BroadcastsInDim S8x16x32x32x64 (![0, 1, 2, 3, 4] : Fin 5 → Fin S8x16x32x32x64.rank)
  shapeCasts_S8x16x32x32x64_S8x16384x64 : S8x16x32x32x64.ShapeCasts S8x16384x64
  reducesTo_S8x64x64_S8x64_d2 : S8x64x64.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x64_0_1_2 : S8x64x1.BroadcastsInDim S8x64x64 (![0, 1, 2] : Fin 3 → Fin S8x64x64.rank)
  shapeCasts_S8x64x16384_S8x16x32x32x64 : S8x64x16384.ShapeCasts S8x16x32x32x64
  dot_S8x16x32x32x512_S512x64_S8x16x32x32x64_4_0_0123_1_n_n_wf : DotDims.WF S8x16x32x32x512 S512x64 S8x16x32x32x64 [4] [0] [0, 1, 2, 3] [1] [] []
  dot_S8x16384x64_S8x16384x64_S8x64x64_1_1_2_2_0_0_wf : DotDims.WF S8x16384x64 S8x16384x64 S8x64x64 [1] [1] [2] [2] [0] [0]
  dot_S8x64x64_S8x16384x64_S8x64x16384_1_2_2_1_0_0_wf : DotDims.WF S8x64x64 S8x16384x64 S8x64x16384 [1] [2] [2] [1] [0] [0]
  dot_S8x16x32x32x64_S64x512_S8x16x32x32x512_4_0_0123_1_n_n_wf : DotDims.WF S8x16x32x32x64 S64x512 S8x16x32x32x512 [4] [0] [0, 1, 2, 3] [1] [] []

variable [Facts₀]

def dot_S8x16x32x32x512_S512x64_S8x16x32x32x64_4_0_0123_1_n_n : DotDims S8x16x32x32x512 S512x64 S8x16x32x32x64 where
  lhsContracting := [4]
  rhsContracting := [0]
  lhsNonContracting := [0, 1, 2, 3]
  rhsNonContracting := [1]
  lhsBatch := []
  rhsBatch := []
  wf := dot_S8x16x32x32x512_S512x64_S8x16x32x32x64_4_0_0123_1_n_n_wf
def dot_S8x16384x64_S8x16384x64_S8x64x64_1_1_2_2_0_0 : DotDims S8x16384x64 S8x16384x64 S8x64x64 where
  lhsContracting := [1]
  rhsContracting := [1]
  lhsNonContracting := [2]
  rhsNonContracting := [2]
  lhsBatch := [0]
  rhsBatch := [0]
  wf := dot_S8x16384x64_S8x16384x64_S8x64x64_1_1_2_2_0_0_wf
def dot_S8x64x64_S8x16384x64_S8x64x16384_1_2_2_1_0_0 : DotDims S8x64x64 S8x16384x64 S8x64x16384 where
  lhsContracting := [1]
  rhsContracting := [2]
  lhsNonContracting := [2]
  rhsNonContracting := [1]
  lhsBatch := [0]
  rhsBatch := [0]
  wf := dot_S8x64x64_S8x16384x64_S8x64x16384_1_2_2_1_0_0_wf
def dot_S8x16x32x32x64_S64x512_S8x16x32x32x512_4_0_0123_1_n_n : DotDims S8x16x32x32x64 S64x512 S8x16x32x32x512 where
  lhsContracting := [4]
  rhsContracting := [0]
  lhsNonContracting := [0, 1, 2, 3]
  rhsNonContracting := [1]
  lhsBatch := []
  rhsBatch := []
  wf := dot_S8x16x32x32x64_S64x512_S8x16x32x32x512_4_0_0123_1_n_n_wf

class Facts : Prop extends Facts₀ where

variable [Facts]
-- ==== Proof.K.Reg0A.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the branch condition, and the body's run at the first point of a row

The body of the first kernel keeps a 64×64 accumulator in a scratch buffer across the grid's second axis: at a
point whose second coordinate is 0 it first stores zeros there; at every point it adds the block's Gram
product to what the scratch holds and copies the scratch into the second output's staging buffer. -/

/-- The body's branch: the grid's second coordinate is 0. -/
abbrev cond0_0 (i : grid0.Coords) : Prop := (Scalar.cmpi .ne (Scalar.extui (Scalar.cmpi .eq (BitVec.ofNat 32 (i 1).val) 0#32)) 0#32) = 1#1
/-- Over the 8×8 grid in row-major order this is: the point's number is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The scratch accumulator as a memref and as a view. -/
abbrev scM0_0 : Memref sig .tc .vmem S64x64 .f32 := Memref.whole cc0_scratch0
abbrev VS0_0 : View sig .tc .vmem S64x64 .f32 := scM0_0.view
/-- One staging buffer of each output window, through which its contents are stated. -/
abbrev VO0_11 : View sig .tc .vmem S1x2048x64 .bf16 := (Memref.whole cc0_stg11_0 : Memref sig .tc .vmem S1x2048x64 .bf16).view
abbrev VO0_12 : View sig .tc .vmem S1x64x64 .f32 := (Memref.whole cc0_stg12_0 : Memref sig .tc .vmem S1x64x64 .f32).view

set_option maxHeartbeats 4000000 in
/-- At a point whose second coordinate is 0: on whole memrefs, the eleven inputs at their contents, the two
    outputs' staging buffers and the scratch at anything, the body runs to a continuation that holds the inputs
    as they were and each output buffer and the scratch with the body's stores written (the stores are the
    witness the run finds). -/
noncomputable def kernelRun0_A (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) :
    Σ' (L11 : List (View.Piece (Elt F) S1x2048x64 .bf16)) (L12 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; iexact HS0

end Cert.Kernel.Hand

end
-- ==== Proof.K.Reg0B.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import proofs.«122752_j42167988912599_1_alg».proof.Proof.K.Reg0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the body's run at a point that is not the first of its row

The scratch arrives holding what the point before left; the body adds this block's Gram product to it. -/

set_option maxHeartbeats 4000000 in
/-- At a point whose second coordinate is not 0: on whole memrefs, the eleven inputs at their contents, the
    scratch at the contents `xs0` the point before left, the two outputs' staging buffers at anything, the body
    runs to a continuation that holds the inputs as they were and each output buffer and the scratch with the
    body's stores written. -/
noncomputable def kernelRun0_B (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) :
    Σ' (L11 : List (View.Piece (Elt F) S1x2048x64 .bf16)) (L12 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; iexact HS0

end Cert.Kernel.Hand

end
-- ==== Proof.K.Reg0.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import proofs.«122752_j42167988912599_1_alg».proof.Proof.K.Reg0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data and the body obligation

The first kernel runs over an 8×8 grid in row-major order. Its inputs are a [1, 2048, 512] block of the
activations and ten whole parameter arrays; its first output is a [1, 2048, 64] block written back at every
point; its second output is a [1, 64, 64] block whose index ignores the grid's second axis, overwritten at
every point with the running accumulator and written back at the last point of each row. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The point's staging memrefs -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64x64 .f32 := win0_12.stage (cfg0.slots t 12)
abbrev hs0_12 (t : Fin cfg0.N) : (ms0_12 t).IsWhole := hstage0_12 ((cfg0.slots t 12).cast nbuf0_12)

/-- The invariant of a kernel that keeps nothing between points, with the scratch split off the other scoped
    buffers (the later regions' staging buffers), which the body never touches. -/
theorem PhiA0_split (c : Dev nD) : ∃ Rst : sProp 𝕄,
    (Pipeline.ΦA spec0 c : sProp 𝕄) = iprop(iprop((∃ d, owns (c : Thread nD τ) scM0_0 fullShare d) ∗ Rst) ∗ (∃ r, prngReg c r)) := by
  refine ⟨?_, ?_⟩
  swap
  · unfold Pipeline.ΦA; rw [scopedRest0_eq]; simp only [scM0_0, owns_whole]; rfl
/-- Those other scoped buffers, each whole at some contents. -/
def rest0 (c : Dev nD) : sProp 𝕄 := (PhiA0_split (F := F) c).choose
theorem PhiA0_eq (c : Dev nD) :
    (Pipeline.ΦA spec0 c : sProp 𝕄) = iprop(iprop((∃ d, owns (c : Thread nD τ) scM0_0 fullShare d) ∗ rest0 c) ∗ (∃ r, prngReg c r)) :=
  (PhiA0_split (F := F) c).choose_spec

/-! ## What each case leaves in the outputs' buffers and in the scratch -/

/-- The stores case A leaves in output window 11's buffer tile it, so they cover it. -/
theorem cover0_A_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S1x2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 S1x2048x64.size (by sl_kernel_rfl) y
/-- What case A leaves in output window 11's staging buffer: its stores read back. -/
def out0_A_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S1x2048x64 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1)
/-- The stores case A leaves in output window 12's buffer cover it. -/
theorem cover0_A_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S1x64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 S1x64x64.size (by sl_kernel_rfl) y
/-- What case A leaves in output window 12's staging buffer. -/
def out0_A_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S1x64x64 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1)
/-- The stores case A leaves in the scratch cover it. -/
theorem scover0_A_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1 S64x64.size (by sl_kernel_rfl) y
/-- What case A leaves in the scratch. -/
def sout0_A_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S64x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1)

/-- The stores case B leaves in output window 11's buffer tile it, so they cover it. -/
theorem cover0_B_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S1x2048x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1 S1x2048x64.size (by sl_kernel_rfl) y
/-- What case B leaves in output window 11's staging buffer: its stores read back. -/
def out0_B_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S1x2048x64 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1)
/-- The stores case B leaves in output window 12's buffer cover it. -/
theorem cover0_B_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S1x64x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1 S1x64x64.size (by sl_kernel_rfl) y
/-- What case B leaves in output window 12's staging buffer. -/
def out0_B_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S1x64x64 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1)
/-- The stores case B leaves in the scratch cover it. -/
theorem scover0_B_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S64x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1 S64x64.size (by sl_kernel_rfl) y
/-- What case B leaves in the scratch. -/
def sout0_B_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S64x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1)

/-! ## What the outputs' buffers and the scratch hold after each point -/

/-- After the body at position `n`: (output window 11's buffer, output window 12's buffer, the scratch). At the first
    point of a row the scratch starts from zero; elsewhere from what the point before left. -/
def outsAt0 (c : Dev nD) : (n : ℕ) → n < cfg0.N → Vec F S1x2048x64 .bf16 × Vec F S1x64x64 .f32 × Vec F S64x64 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩))
  | n + 1, hn =>
    if h0 : (n + 1) % 8 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2)

/-- At the first point of a row. -/
theorem outsAt0_A (c : Dev nD) (t : Fin cfg0.N) (h0 : t.val % 8 = 0) :
    outsAt0 V c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) := by
  obtain ⟨n, hn⟩ := t
  cases n with
  | zero => exact rfl
  | succ n => exact (dif_pos h0).trans rfl

/-- At any other point: over what the point before left in the scratch. -/
theorem outsAt0_B (c : Dev nD) (t : Fin cfg0.N) (h0 : ¬t.val % 8 = 0) :
    outsAt0 V c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point, that of a kernel keeping nothing;
    afterwards the scratch at what the point before left, the other scoped buffers and the generator register at
    some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The proof data -/

/-- Region 0's proof data on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 8000000 in
/-- The body at any point: the inputs' memrefs hold their blocks; the point is the first of its row or not; the
    invariant hands the body the scratch (at anything before the first point, at what the point before left
    afterwards) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7, after0_8, after0_9, after0_10, after0_11, after0_12]
  have hN : t.val < 64 := lt_of_lt_of_eq t.isLt (show cfg0.N = 64 from N_0)
  by_cases h0 : t.val % 8 = 0
  · rw [outsAt0_A V c t h0]
    unfold out0_A_11 out0_A_12 sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      iintro ⟨H0, H1, H2, H3, H4, H5, H6, H7, H8, H9, H10, ⟨%e11, H11⟩, ⟨%e12, H12⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexists _; iexact HS0
      iintro ⟨H0, H1, H2, H3, H4, H5, H6, H7, H8, H9, H10, ⟨%e11, H11⟩, ⟨%e12, H12⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
  · rw [outsAt0_B V c t h0]
    unfold out0_B_11 out0_B_12 sout0_B_0; (try dsimp only)
    have hz : t.val ≠ 0 := fun h => h0 (by rw [h])
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    iintro ⟨H0, H1, H2, H3, H4, H5, H6, H7, H8, H9, H10, ⟨%e11, H11⟩, ⟨%e12, H12⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After any point the invariant gives that of a kernel keeping nothing back: the scratch's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.Kernel.Hand

end
-- ==== Proof.K.Reg1.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, in the same way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x64x64 := Rect.unit (s := S1x64x64) ![0, 0, 0] S1x64x64.size inb_S1x64x64_S1x64x64_0_0_0
abbrev r1_1 : Rect S1x2048x64 := Rect.unit (s := S1x2048x64) ![0, 0, 0] S1x2048x64.size inb_S1x2048x64_S1x2048x64_0_0_0
abbrev r1_2 : Rect S1x64x2048 := Rect.unit (s := S1x64x2048) ![0, 0, 0] S1x64x2048.size inb_S1x64x2048_S1x64x2048_0_0_0

/-! ## What the body leaves in the output window's buffer -/

/-- Window 2's staging buffer after the body, from the input windows' blocks: its one whole-block store, whose
    payload is the product of the two loaded blocks. -/
def out1_2 (x0 : Vec F S1x64x64 .f32) (x1 : Vec F S1x2048x64 .bf16) : Vec F S1x64x2048 .bf16 :=
  View.canon [⟨r1_2, k1_pay1 (View.ld x0 r1_0) (View.ld x1 r1_1)⟩]

/-- The one store is the whole buffer, so it covers it. -/
theorem cover1_2 (p0 : Vec F S1x64x2048 .bf16) (y : S1x64x2048.Idx) :
    ∃ pc ∈ ([⟨r1_2, p0⟩] : List (View.Piece (Elt F) S1x64x2048 .bf16)), y ∈ pc.1.set :=
  View.cover_of_tiled [⟨r1_2, p0⟩] S1x64x2048.size (by rfl) y

/-! ## The body's triple -/

set_option maxHeartbeats 1000000 in
/-- The kernel body on whole staging memrefs, the inputs' at read contents `xW` and the output's at anything, runs to
    the continuation holding the inputs' as they were and the output's at `out1_2` of the inputs'. -/
theorem sound_kernel1 (c : Dev nD) (E : Set ℕ) (i : grid1.Coords) (arg2 : Memref sig .tc .vmem S1x64x64 .f32) (harg2 : arg2.IsWhole) (arg3 : Memref sig .tc .vmem S1x2048x64 .bf16) (harg3 : arg3.IsWhole) (arg4 : Memref sig .tc .vmem S1x64x2048 .bf16) (harg4 : arg4.IsWhole)
    (x0 : Vec F S1x64x64 .f32) (x1 : Vec F S1x2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant is the class's at every point, so the region is entered with it -/
theorem hin1 (c : Dev nD) : (Pipeline.ΦA spec1 c : sProp 𝕄) ⊢ (dat1 V c).Φ 0 := by
  rw [show (dat1 V c).Φ 0 = Pipeline.ΦA spec1 c from rfl]

/-- and left with it. -/
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]

end Cert.Kernel.Hand

end
-- ==== Proof.K.Reg2.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__proj_bn_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x2048x64 := Rect.unit (s := S1x2048x64) ![0, 0, 0] S1x2048x64.size inb_S1x2048x64_S1x2048x64_0_0_0
abbrev r2_1 : Rect S64x512 := Rect.unit (s := S64x512) ![0, 0] S64x512.size inb_S64x512_S64x512_0_0
abbrev r2_2 : Rect S512 := Rect.unit (s := S512) ![0] S512.size inb_S512_S512_0
abbrev r2_3 : Rect S512 := Rect.unit (s := S512) ![0] S512.size inb_S512_S512_0
abbrev r2_4 : Rect S512 := Rect.unit (s := S512) ![0] S512.size inb_S512_S512_0
abbrev r2_5 : Rect S512 := Rect.unit (s := S512) ![0] S512.size inb_S512_S512_0
abbrev r2_6 : Rect S512 := Rect.unit (s := S512) ![0] S512.size inb_S512_S512_0
abbrev r2_7 : Rect S1x2048x512 := Rect.unit (s := S1x2048x512) ![0, 0, 0] S1x2048x512.size inb_S1x2048x512_S1x2048x512_0_0_0

/-! ## What the body leaves in the output window's buffer -/

/-- Window 7's staging buffer after the body, from the input windows' blocks: its one whole-block store, whose
    payload is computed from the loaded blocks. -/
def out2_7 (x0 : Vec F S1x2048x64 .bf16) (x1 : Vec F S64x512 .f32) (x2 : Vec F S512 .f32) (x3 : Vec F S512 .f32) (x4 : Vec F S512 .f32) (x5 : Vec F S512 .f32) (x6 : Vec F S512 .f32) : Vec F S1x2048x512 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store is the whole buffer, so it covers it. -/
theorem cover2_7 (p0 : Vec F S1x2048x512 .f32) (y : S1x2048x512.Idx) :
    ∃ pc ∈ ([⟨r2_7, p0⟩] : List (View.Piece (Elt F) S1x2048x512 .f32)), y ∈ pc.1.set :=
  View.cover_of_tiled [⟨r2_7, p0⟩] S1x2048x512.size (by rfl) y

/-! ## The body's triple -/

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg2 : Memref sig .tc .vmem S1x2048x64 .bf16) (harg2 : arg2.IsWhole) (arg3 : Memref sig .tc .vmem S64x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1x2048x512 .f32) (harg9 : arg9.IsWhole)
    (x0 : Vec F S1x2048x64 .bf16) (x1 : Vec F S64x512 .f32) (x2 : Vec F S512 .f32) (x3 : Vec F S512 .f32) (x4 : Vec F S512 .f32) (x5 : Vec F S512 .f32) (x6 : Vec F S512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out2_7 x0 x1 x2 x3 x4 x5 x6)) -∗ K ⟨⟩))
      ⊢ wp frame (wpE (defs₀ (F := F)) Variants.none c none) E (cc2__proj_bn_kernel i arg2 harg2 arg3 harg3 arg4 harg4 arg5 harg5 arg6 harg6 arg7 harg7 arg8 harg8 arg9 harg9) K := by
  simp only [cc2__proj_bn_kernel_eq_skeleton]; unfold cc2__proj_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- The invariant is the class's at every point, so the region is entered with it -/
theorem hin2 (c : Dev nD) : (Pipeline.ΦA spec2 c : sProp 𝕄) ⊢ (dat2 V c).Φ 0 := by
  rw [show (dat2 V c).Φ 0 = Pipeline.ΦA spec2 c from rfl]

/-- and left with it. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]

end Cert.Kernel.Hand

end
-- ==== Proof.K.Run.lean ====
import proofs.«122752_j42167988912599_1_alg».proof.Proof.Gen.Kernel.Launch
import proofs.«122752_j42167988912599_1_alg».proof.Proof.Gen.Kernel.Skeleton
import proofs.«122752_j42167988912599_1_alg».proof.Proof.Gen.Kernel.Points
import proofs.«122752_j42167988912599_1_alg».proof.Proof.Gen.Kernel.Regions
import proofs.«122752_j42167988912599_1_alg».proof.Proof.K.Reg0
import proofs.«122752_j42167988912599_1_alg».proof.Proof.K.Reg1
import proofs.«122752_j42167988912599_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: four host stretches around three kernel regions

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves and every other buffer what it held at
    entry. -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- A reference `hostOps2` does not write holds after it what it held before. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves and every other buffer what it held at
    entry. -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)
/-- A reference `hostOps3` does not write holds after it what it held before. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-! ### The arguments end as launched: no host operation and no region writes one (a region reads it through an
    input window or bypasses it), so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (U1 m ρ) c).arrAt_in 1 rfl _).trans (A_eq0 (U1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (U1 m ρ) c).arrAt_in 3 rfl _).trans (A_eq0 (U1 m ρ) c 3))
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 5).trans (((dat0 (U1 m ρ) c).arrAt_in 5 rfl _).trans (A_eq0 (U1 m ρ) c 5))
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 6).trans (((dat0 (U1 m ρ) c).arrAt_in 6 rfl _).trans (A_eq0 (U1 m ρ) c 6))
    _ = W0 m ρ c (Proc.devRef .tc main_arg6) := W1_of m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 7).trans (((dat0 (U1 m ρ) c).arrAt_in 7 rfl _).trans (A_eq0 (U1 m ρ) c 7))
    _ = W0 m ρ c (Proc.devRef .tc main_arg7) := W1_of m ρ c main_arg7 (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 8).trans (((dat0 (U1 m ρ) c).arrAt_in 8 rfl _).trans (A_eq0 (U1 m ρ) c 8))
    _ = W0 m ρ c (Proc.devRef .tc main_arg8) := W1_of m ρ c main_arg8 (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := (W2_arr m ρ c 9).trans (((dat0 (U1 m ρ) c).arrAt_in 9 rfl _).trans (A_eq0 (U1 m ρ) c 9))
    _ = W0 m ρ c (Proc.devRef .tc main_arg9) := W1_of m ρ c main_arg9 (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := (W2_arr m ρ c 10).trans (((dat0 (U1 m ρ) c).arrAt_in 10 rfl _).trans (A_eq0 (U1 m ρ) c 10))
    _ = W0 m ρ c (Proc.devRef .tc main_arg10) := W1_of m ρ c main_arg10 (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of m ρ c main_arg11 (by decide)
    _ = W5 m ρ c (Proc.devRef .tc main_arg11) := (W6_arr m ρ c 1).trans (((dat2 (U5 m ρ) c).arrAt_in 1 rfl _).trans (A_eq2 (U5 m ρ) c 1))
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of m ρ c main_arg12 (by decide)
    _ = W5 m ρ c (Proc.devRef .tc main_arg12) := (W6_arr m ρ c 2).trans (((dat2 (U5 m ρ) c).arrAt_in 2 rfl _).trans (A_eq2 (U5 m ρ) c 2))
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of m ρ c main_arg13 (by decide)
    _ = W5 m ρ c (Proc.devRef .tc main_arg13) := (W6_arr m ρ c 3).trans (((dat2 (U5 m ρ) c).arrAt_in 3 rfl _).trans (A_eq2 (U5 m ρ) c 3))
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of m ρ c main_arg14 (by decide)
    _ = W5 m ρ c (Proc.devRef .tc main_arg14) := (W6_arr m ρ c 4).trans (((dat2 (U5 m ρ) c).arrAt_in 4 rfl _).trans (A_eq2 (U5 m ρ) c 4))
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of m ρ c main_arg15 (by decide)
    _ = W5 m ρ c (Proc.devRef .tc main_arg15) := (W6_arr m ρ c 5).trans (((dat2 (U5 m ρ) c).arrAt_in 5 rfl _).trans (A_eq2 (U5 m ρ) c 5))
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := W7_of m ρ c main_arg16 (by decide)
    _ = W5 m ρ c (Proc.devRef .tc main_arg16) := (W6_arr m ρ c 6).trans (((dat2 (U5 m ρ) c).arrAt_in 6 rfl _).trans (A_eq2 (U5 m ρ) c 6))
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

/-! ## The proof data family and the thread state -/

/-- The prefetched tables' admissible contents: no pipeline has a table. -/
abbrev padm : (p : Fin 3) → (pcfgs (F := F) p).Adm := fun p => (cfgs p).toPCfg_adm
/-- Every pipeline's proof data, each at its region's entry contents: a literal `match`, so that the data of a
    pipeline given by a numeral reduce to that region's. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it leaves
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register and the scoped
    buffers no window stages go into the region's invariant at the first point and come back from it at the last;
    nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m ρ) c)
    unfold Pipeline.ΦA
    iintro ⟨Hp, -, Hr⟩
    isplitl [Hr]; · iexact Hr
    iexact Hp
  hout c := by
    rw [Pipeline.ownSems0_none]
    refine BIBase.Entails.trans (hout0 (U1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped
    buffers no window stages go into the region's invariant at the first point and come back from it at the last;
    nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m ρ) c)
    unfold Pipeline.ΦA
    iintro ⟨Hp, -, Hr⟩
    isplitl [Hr]; · iexact Hr
    iexact Hp
  hout c := by
    rw [Pipeline.ownSems0_none]
    refine BIBase.Entails.trans (hout1 (U3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register and the scoped
    buffers no window stages go into the region's invariant at the first point and come back from it at the last;
    nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U5 m ρ) c)
    unfold Pipeline.ΦA
    iintro ⟨Hp, -, Hr⟩
    isplitl [Hr]; · iexact Hr
    iexact Hp
  hout c := by
    rw [Pipeline.ownSems0_none]
    refine BIBase.Entails.trans (hout2 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch leaves the last thread state beside the core owing nothing (the same conjuncts,
    re-associated). -/
theorem hlast (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## @main as segments, and the launch -/

/-- @main's 7 segments in order: a host segment per stretch from its boundary's contents, a region per pallas_call. -/
abbrev msegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (msegs m ρ) := (main_chain c).trans (by chain_rfl)

set_option backward.isDefEq.respectTransparency.types false in
/-- THE RUN: at the compiled mesh, from any memory with zero counters, every weakly fair execution of @main on the
    TensorCores terminates, nothing faulting, and every final state holds EVERY unscoped buffer at the last
    boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- THE FRAME at any `F`: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c)⟩) (run_all m ρ)

end Cert.Kernel.Hand

end
-- ==== Proof.KI.Reg0A.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the branch condition, and the body's run at the first point of a row

The body of the first kernel keeps a 64×64 accumulator in a scratch buffer across the grid's second axis: at a
point whose second coordinate is 0 it first stores zeros there; at every point it adds the block's Gram
product to what the scratch holds and copies the scratch into the second output's staging buffer. -/

/-- The body's branch: the grid's second coordinate is 0. -/
abbrev cond0_0 (i : grid0.Coords) : Prop := (Scalar.cmpi .ne (Scalar.extui (Scalar.cmpi .eq (BitVec.ofNat 32 (i 1).val) 0#32)) 0#32) = 1#1
/-- Over the 8×8 grid in row-major order this is: the point's number is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The scratch accumulator as a memref and as a view. -/
abbrev scM0_0 : Memref sig .tc .vmem S64x64 .f32 := Memref.whole cc0_scratch0
abbrev VS0_0 : View sig .tc .vmem S64x64 .f32 := scM0_0.view
/-- One staging buffer of each output window, through which its contents are stated. -/
abbrev VO0_11 : View sig .tc .vmem S1x2048x64 .bf16 := (Memref.whole cc0_stg11_0 : Memref sig .tc .vmem S1x2048x64 .bf16).view
abbrev VO0_12 : View sig .tc .vmem S1x64x64 .f32 := (Memref.whole cc0_stg12_0 : Memref sig .tc .vmem S1x64x64 .f32).view

set_option maxHeartbeats 4000000 in
/-- At a point whose second coordinate is 0: on whole memrefs, the eleven inputs at their contents, the two
    outputs' staging buffers and the scratch at anything, the body runs to a continuation that holds the inputs
    as they were and each output buffer and the scratch with the body's stores written (the stores are the
    witness the run finds). -/
noncomputable def kernelRun0_A (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) :
    Σ' (L11 : List (View.Piece (Elt F) S1x2048x64 .bf16)) (L12 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; iexact HS0

end Cert.KernelIdeal.Hand

end
-- ==== Proof.KI.Reg0B.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import proofs.«122752_j42167988912599_1_alg».proof.Proof.KI.Reg0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the body's run at a point that is not the first of its row

The scratch arrives holding what the point before left; the body adds this block's Gram product to it. -/

set_option maxHeartbeats 4000000 in
/-- At a point whose second coordinate is not 0: on whole memrefs, the eleven inputs at their contents, the
    scratch at the contents `xs0` the point before left, the two outputs' staging buffers at anything, the body
    runs to a continuation that holds the inputs as they were and each output buffer and the scratch with the
    body's stores written. -/
noncomputable def kernelRun0_B (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) :
    Σ' (L11 : List (View.Piece (Elt F) S1x2048x64 .bf16)) (L12 : List (View.Piece (Elt F) S1x64x64 .f32)), { LS0 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    iexists _; iexact HS0

end Cert.KernelIdeal.Hand

end
-- ==== Proof.KI.Reg0.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import proofs.«122752_j42167988912599_1_alg».proof.Proof.KI.Reg0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data and the body obligation

The first kernel runs over an 8×8 grid in row-major order. Its inputs are a [1, 2048, 512] block of the
activations and ten whole parameter arrays; its first output is a [1, 2048, 64] block written back at every
point; its second output is a [1, 64, 64] block whose index ignores the grid's second axis, overwritten at
every point with the running accumulator and written back at the last point of each row. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The point's staging memrefs -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x64 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64x64 .f32 := win0_12.stage (cfg0.slots t 12)
abbrev hs0_12 (t : Fin cfg0.N) : (ms0_12 t).IsWhole := hstage0_12 ((cfg0.slots t 12).cast nbuf0_12)

/-- The invariant of a kernel that keeps nothing between points, with the scratch split off the other scoped
    buffers (the later regions' staging buffers), which the body never touches. -/
theorem PhiA0_split (c : Dev nD) : ∃ Rst : sProp 𝕄,
    (Pipeline.ΦA spec0 c : sProp 𝕄) = iprop(iprop((∃ d, owns (c : Thread nD τ) scM0_0 fullShare d) ∗ Rst) ∗ (∃ r, prngReg c r)) := by
  refine ⟨?_, ?_⟩
  swap
  · unfold Pipeline.ΦA; rw [scopedRest0_eq]; simp only [scM0_0, owns_whole]; rfl
/-- Those other scoped buffers, each whole at some contents. -/
def rest0 (c : Dev nD) : sProp 𝕄 := (PhiA0_split (F := F) c).choose
theorem PhiA0_eq (c : Dev nD) :
    (Pipeline.ΦA spec0 c : sProp 𝕄) = iprop(iprop((∃ d, owns (c : Thread nD τ) scM0_0 fullShare d) ∗ rest0 c) ∗ (∃ r, prngReg c r)) :=
  (PhiA0_split (F := F) c).choose_spec

/-! ## What each case leaves in the outputs' buffers and in the scratch -/

/-- The stores case A leaves in output window 11's buffer tile it, so they cover it. -/
theorem cover0_A_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S1x2048x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 S1x2048x64.size (by sl_kernel_rfl) y
/-- What case A leaves in output window 11's staging buffer: its stores read back. -/
def out0_A_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S1x2048x64 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1)
/-- The stores case A leaves in output window 12's buffer cover it. -/
theorem cover0_A_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S1x64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 S1x64x64.size (by sl_kernel_rfl) y
/-- What case A leaves in output window 12's staging buffer. -/
def out0_A_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S1x64x64 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1)
/-- The stores case A leaves in the scratch cover it. -/
theorem scover0_A_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (y : S64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1 S64x64.size (by sl_kernel_rfl) y
/-- What case A leaves in the scratch. -/
def sout0_A_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) : Vec F S64x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1)

/-- The stores case B leaves in output window 11's buffer tile it, so they cover it. -/
theorem cover0_B_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S1x2048x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1 S1x2048x64.size (by sl_kernel_rfl) y
/-- What case B leaves in output window 11's staging buffer: its stores read back. -/
def out0_B_11 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S1x2048x64 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).1)
/-- The stores case B leaves in output window 12's buffer cover it. -/
theorem cover0_B_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S1x64x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1 S1x64x64.size (by sl_kernel_rfl) y
/-- What case B leaves in output window 12's staging buffer. -/
def out0_B_12 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S1x64x64 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.1)
/-- The stores case B leaves in the scratch cover it. -/
theorem scover0_B_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) (y : S64x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1 S64x64.size (by sl_kernel_rfl) y
/-- What case B leaves in the scratch. -/
def sout0_B_0 (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) : Vec F S64x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0).2.2.1)

/-! ## What the outputs' buffers and the scratch hold after each point -/

/-- After the body at position `n`: (output window 11's buffer, output window 12's buffer, the scratch). At the first
    point of a row the scratch starts from zero; elsewhere from what the point before left. -/
def outsAt0 (c : Dev nD) : (n : ℕ) → n < cfg0.N → Vec F S1x2048x64 .bf16 × Vec F S1x64x64 .f32 × Vec F S64x64 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩))
  | n + 1, hn =>
    if h0 : (n + 1) % 8 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (outsAt0 c n (Nat.lt_of_succ_lt hn)).2.2)

/-- At the first point of a row. -/
theorem outsAt0_A (c : Dev nD) (t : Fin cfg0.N) (h0 : t.val % 8 = 0) :
    outsAt0 V c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) := by
  obtain ⟨n, hn⟩ := t
  cases n with
  | zero => exact rfl
  | succ n => exact (dif_pos h0).trans rfl

/-- At any other point: over what the point before left in the scratch. -/
theorem outsAt0_B (c : Dev nD) (t : Fin cfg0.N) (h0 : ¬t.val % 8 = 0) :
    outsAt0 V c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point, that of a kernel keeping nothing;
    afterwards the scratch at what the point before left, the other scoped buffers and the generator register at
    some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The proof data -/

/-- Region 0's proof data on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t))

set_option maxHeartbeats 8000000 in
/-- The body at any point: the inputs' memrefs hold their blocks; the point is the first of its row or not; the
    invariant hands the body the scratch (at anything before the first point, at what the point before left
    afterwards) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7, after0_8, after0_9, after0_10, after0_11, after0_12]
  have hN : t.val < 64 := lt_of_lt_of_eq t.isLt (show cfg0.N = 64 from N_0)
  by_cases h0 : t.val % 8 = 0
  · rw [outsAt0_A V c t h0]
    unfold out0_A_11 out0_A_12 sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      iintro ⟨H0, H1, H2, H3, H4, H5, H6, H7, H8, H9, H10, ⟨%e11, H11⟩, ⟨%e12, H12⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexists _; iexact HS0
      iintro ⟨H0, H1, H2, H3, H4, H5, H6, H7, H8, H9, H10, ⟨%e11, H11⟩, ⟨%e12, H12⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _)
  · rw [outsAt0_B V c t h0]
    unfold out0_B_11 out0_B_12 sout0_B_0; (try dsimp only)
    have hz : t.val ≠ 0 := fun h => h0 (by rw [h])
    rw [PhiS_castSucc V c t, PhiS_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    iintro ⟨H0, H1, H2, H3, H4, H5, H6, H7, H8, H9, H10, ⟨%e11, H11⟩, ⟨%e12, H12⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _)
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After any point the invariant gives that of a kernel keeping nothing back: the scratch's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.KernelIdeal.Hand

end
-- ==== Proof.KI.Reg1.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, in the same way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x64x64 := Rect.unit (s := S1x64x64) ![0, 0, 0] S1x64x64.size inb_S1x64x64_S1x64x64_0_0_0
abbrev r1_1 : Rect S1x2048x64 := Rect.unit (s := S1x2048x64) ![0, 0, 0] S1x2048x64.size inb_S1x2048x64_S1x2048x64_0_0_0
abbrev r1_2 : Rect S1x64x2048 := Rect.unit (s := S1x64x2048) ![0, 0, 0] S1x64x2048.size inb_S1x64x2048_S1x64x2048_0_0_0

/-! ## What the body leaves in the output window's buffer -/

/-- Window 2's staging buffer after the body, from the input windows' blocks: its one whole-block store, whose
    payload is the product of the two loaded blocks. -/
def out1_2 (x0 : Vec F S1x64x64 .f32) (x1 : Vec F S1x2048x64 .bf16) : Vec F S1x64x2048 .bf16 :=
  View.canon [⟨r1_2, k1_pay1 (View.ld x0 r1_0) (View.ld x1 r1_1)⟩]

/-- The one store is the whole buffer, so it covers it. -/
theorem cover1_2 (p0 : Vec F S1x64x2048 .bf16) (y : S1x64x2048.Idx) :
    ∃ pc ∈ ([⟨r1_2, p0⟩] : List (View.Piece (Elt F) S1x64x2048 .bf16)), y ∈ pc.1.set :=
  View.cover_of_tiled [⟨r1_2, p0⟩] S1x64x2048.size (by rfl) y

/-! ## The body's triple -/

set_option maxHeartbeats 1000000 in
/-- The kernel body on whole staging memrefs, the inputs' at read contents `xW` and the output's at anything, runs to
    the continuation holding the inputs' as they were and the output's at `out1_2` of the inputs'. -/
theorem sound_kernel1 (c : Dev nD) (E : Set ℕ) (i : grid1.Coords) (arg2 : Memref sig .tc .vmem S1x64x64 .f32) (harg2 : arg2.IsWhole) (arg3 : Memref sig .tc .vmem S1x2048x64 .bf16) (harg3 : arg3.IsWhole) (arg4 : Memref sig .tc .vmem S1x64x2048 .bf16) (harg4 : arg4.IsWhole)
    (x0 : Vec F S1x64x64 .f32) (x1 : Vec F S1x2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- The invariant is the class's at every point, so the region is entered with it -/
theorem hin1 (c : Dev nD) : (Pipeline.ΦA spec1 c : sProp 𝕄) ⊢ (dat1 V c).Φ 0 := by
  rw [show (dat1 V c).Φ 0 = Pipeline.ΦA spec1 c from rfl]

/-- and left with it. -/
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]

end Cert.KernelIdeal.Hand

end
-- ==== Proof.KI.Reg2.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__proj_bn_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x2048x64 := Rect.unit (s := S1x2048x64) ![0, 0, 0] S1x2048x64.size inb_S1x2048x64_S1x2048x64_0_0_0
abbrev r2_1 : Rect S64x512 := Rect.unit (s := S64x512) ![0, 0] S64x512.size inb_S64x512_S64x512_0_0
abbrev r2_2 : Rect S512 := Rect.unit (s := S512) ![0] S512.size inb_S512_S512_0
abbrev r2_3 : Rect S512 := Rect.unit (s := S512) ![0] S512.size inb_S512_S512_0
abbrev r2_4 : Rect S512 := Rect.unit (s := S512) ![0] S512.size inb_S512_S512_0
abbrev r2_5 : Rect S512 := Rect.unit (s := S512) ![0] S512.size inb_S512_S512_0
abbrev r2_6 : Rect S512 := Rect.unit (s := S512) ![0] S512.size inb_S512_S512_0
abbrev r2_7 : Rect S1x2048x512 := Rect.unit (s := S1x2048x512) ![0, 0, 0] S1x2048x512.size inb_S1x2048x512_S1x2048x512_0_0_0

/-! ## What the body leaves in the output window's buffer -/

/-- Window 7's staging buffer after the body, from the input windows' blocks: its one whole-block store, whose
    payload is computed from the loaded blocks. -/
def out2_7 (x0 : Vec F S1x2048x64 .bf16) (x1 : Vec F S64x512 .f32) (x2 : Vec F S512 .f32) (x3 : Vec F S512 .f32) (x4 : Vec F S512 .f32) (x5 : Vec F S512 .f32) (x6 : Vec F S512 .f32) : Vec F S1x2048x512 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store is the whole buffer, so it covers it. -/
theorem cover2_7 (p0 : Vec F S1x2048x512 .f32) (y : S1x2048x512.Idx) :
    ∃ pc ∈ ([⟨r2_7, p0⟩] : List (View.Piece (Elt F) S1x2048x512 .f32)), y ∈ pc.1.set :=
  View.cover_of_tiled [⟨r2_7, p0⟩] S1x2048x512.size (by rfl) y

/-! ## The body's triple -/

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg2 : Memref sig .tc .vmem S1x2048x64 .bf16) (harg2 : arg2.IsWhole) (arg3 : Memref sig .tc .vmem S64x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S1x2048x512 .f32) (harg9 : arg9.IsWhole)
    (x0 : Vec F S1x2048x64 .bf16) (x1 : Vec F S64x512 .f32) (x2 : Vec F S512 .f32) (x3 : Vec F S512 .f32) (x4 : Vec F S512 .f32) (x5 : Vec F S512 .f32) (x6 : Vec F S512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out2_7 x0 x1 x2 x3 x4 x5 x6)) -∗ K ⟨⟩))
      ⊢ wp frame (wpE (defs₀ (F := F)) Variants.none c none) E (cc2__proj_bn_kernel i arg2 harg2 arg3 harg3 arg4 harg4 arg5 harg5 arg6 harg6 arg7 harg7 arg8 harg8 arg9 harg9) K := by
  simp only [cc2__proj_bn_kernel_eq_skeleton]; unfold cc2__proj_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- The invariant is the class's at every point, so the region is entered with it -/
theorem hin2 (c : Dev nD) : (Pipeline.ΦA spec2 c : sProp 𝕄) ⊢ (dat2 V c).Φ 0 := by
  rw [show (dat2 V c).Φ 0 = Pipeline.ΦA spec2 c from rfl]

/-- and left with it. -/
theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]

end Cert.KernelIdeal.Hand

end
-- ==== Proof.KI.Run.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import proofs.«122752_j42167988912599_1_alg».proof.Proof.Gen.KernelIdeal.Regions
import proofs.«122752_j42167988912599_1_alg».proof.Proof.KI.Reg0
import proofs.«122752_j42167988912599_1_alg».proof.Proof.KI.Reg1
import proofs.«122752_j42167988912599_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: four host stretches around three kernel regions

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves and every other buffer what it held at
    entry. -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- A reference `hostOps2` does not write holds after it what it held before. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves and every other buffer what it held at
    entry. -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)
/-- A reference `hostOps3` does not write holds after it what it held before. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

/-! ### The arguments end as launched: no host operation and no region writes one (a region reads it through an
    input window or bypasses it), so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (U1 m ρ) c).arrAt_in 1 rfl _).trans (A_eq0 (U1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (U1 m ρ) c).arrAt_in 3 rfl _).trans (A_eq0 (U1 m ρ) c 3))
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := (W2_arr m ρ c 5).trans (((dat0 (U1 m ρ) c).arrAt_in 5 rfl _).trans (A_eq0 (U1 m ρ) c 5))
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 6).trans (((dat0 (U1 m ρ) c).arrAt_in 6 rfl _).trans (A_eq0 (U1 m ρ) c 6))
    _ = W0 m ρ c (Proc.devRef .tc main_arg6) := W1_of m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := (W2_arr m ρ c 7).trans (((dat0 (U1 m ρ) c).arrAt_in 7 rfl _).trans (A_eq0 (U1 m ρ) c 7))
    _ = W0 m ρ c (Proc.devRef .tc main_arg7) := W1_of m ρ c main_arg7 (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 8).trans (((dat0 (U1 m ρ) c).arrAt_in 8 rfl _).trans (A_eq0 (U1 m ρ) c 8))
    _ = W0 m ρ c (Proc.devRef .tc main_arg8) := W1_of m ρ c main_arg8 (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := (W2_arr m ρ c 9).trans (((dat0 (U1 m ρ) c).arrAt_in 9 rfl _).trans (A_eq0 (U1 m ρ) c 9))
    _ = W0 m ρ c (Proc.devRef .tc main_arg9) := W1_of m ρ c main_arg9 (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := (W2_arr m ρ c 10).trans (((dat0 (U1 m ρ) c).arrAt_in 10 rfl _).trans (A_eq0 (U1 m ρ) c 10))
    _ = W0 m ρ c (Proc.devRef .tc main_arg10) := W1_of m ρ c main_arg10 (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of m ρ c main_arg11 (by decide)
    _ = W5 m ρ c (Proc.devRef .tc main_arg11) := (W6_arr m ρ c 1).trans (((dat2 (U5 m ρ) c).arrAt_in 1 rfl _).trans (A_eq2 (U5 m ρ) c 1))
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of m ρ c main_arg12 (by decide)
    _ = W5 m ρ c (Proc.devRef .tc main_arg12) := (W6_arr m ρ c 2).trans (((dat2 (U5 m ρ) c).arrAt_in 2 rfl _).trans (A_eq2 (U5 m ρ) c 2))
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of m ρ c main_arg13 (by decide)
    _ = W5 m ρ c (Proc.devRef .tc main_arg13) := (W6_arr m ρ c 3).trans (((dat2 (U5 m ρ) c).arrAt_in 3 rfl _).trans (A_eq2 (U5 m ρ) c 3))
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of m ρ c main_arg14 (by decide)
    _ = W5 m ρ c (Proc.devRef .tc main_arg14) := (W6_arr m ρ c 4).trans (((dat2 (U5 m ρ) c).arrAt_in 4 rfl _).trans (A_eq2 (U5 m ρ) c 4))
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of m ρ c main_arg15 (by decide)
    _ = W5 m ρ c (Proc.devRef .tc main_arg15) := (W6_arr m ρ c 5).trans (((dat2 (U5 m ρ) c).arrAt_in 5 rfl _).trans (A_eq2 (U5 m ρ) c 5))
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := W7_of m ρ c main_arg16 (by decide)
    _ = W5 m ρ c (Proc.devRef .tc main_arg16) := (W6_arr m ρ c 6).trans (((dat2 (U5 m ρ) c).arrAt_in 6 rfl _).trans (A_eq2 (U5 m ρ) c 6))
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

/-! ## The proof data family and the thread state -/

/-- The prefetched tables' admissible contents: no pipeline has a table. -/
abbrev padm : (p : Fin 3) → (pcfgs (F := F) p).Adm := fun p => (cfgs p).toPCfg_adm
/-- Every pipeline's proof data, each at its region's entry contents: a literal `match`, so that the data of a
    pipeline given by a numeral reduce to that region's. -/
def pdats : (p : Fin 3) → (c : Dev nD) → Dat τ (Elt F) Unit ℕ (UR sig nD τ) ℕ (Pipeline.pin (pcfgs (F := F)) padm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it leaves
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its arrays are
    split out of the unscoped buffers and put back at the exit contents; the generator register and the scoped
    buffers no window stages go into the region's invariant at the first point and come back from it at the last;
    nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m ρ) c)
    unfold Pipeline.ΦA
    iintro ⟨Hp, -, Hr⟩
    isplitl [Hr]; · iexact Hr
    iexact Hp
  hout c := by
    rw [Pipeline.ownSems0_none]
    refine BIBase.Entails.trans (hout0 (U1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped
    buffers no window stages go into the region's invariant at the first point and come back from it at the last;
    nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m ρ) c)
    unfold Pipeline.ΦA
    iintro ⟨Hp, -, Hr⟩
    isplitl [Hr]; · iexact Hr
    iexact Hp
  hout c := by
    rw [Pipeline.ownSems0_none]
    refine BIBase.Entails.trans (hout1 (U3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register and the scoped
    buffers no window stages go into the region's invariant at the first point and come back from it at the last;
    nothing is owed; the kernel has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U5 m ρ) c)
    unfold Pipeline.ΦA
    iintro ⟨Hp, -, Hr⟩
    isplitl [Hr]; · iexact Hr
    iexact Hp
  hout c := by
    rw [Pipeline.ownSems0_none]
    refine BIBase.Entails.trans (hout2 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch leaves the last thread state beside the core owing nothing (the same conjuncts,
    re-associated). -/
theorem hlast (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## @main as segments, and the launch -/

/-- @main's 7 segments in order: a host segment per stretch from its boundary's contents, a region per pallas_call. -/
abbrev msegs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (msegs m ρ) := (main_chain c).trans (by chain_rfl)

set_option backward.isDefEq.respectTransparency.types false in
/-- THE RUN: at the compiled mesh, from any memory with zero counters, every weakly fair execution of @main on the
    TensorCores terminates, nothing faulting, and every final state holds EVERY unscoped buffer at the last
    boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) padm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- THE FRAME at any `F`: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c)⟩) (run_all m ρ)

end Cert.KernelIdeal.Hand

end
-- ==== Proof.KI.Plumb.lean ====
import proofs.«122752_j42167988912599_1_alg».proof.Proof.Gen.KernelIdeal.Launch
import proofs.«122752_j42167988912599_1_alg».proof.Proof.Gen.KernelIdeal.Skeleton
import proofs.«122752_j42167988912599_1_alg».proof.Proof.Gen.KernelIdeal.Points
import proofs.«122752_j42167988912599_1_alg».proof.Proof.Gen.KernelIdeal.Regions
import proofs.«122752_j42167988912599_1_alg».proof.Proof.KI.Reg0
import proofs.«122752_j42167988912599_1_alg».proof.Proof.KI.Reg1
import proofs.«122752_j42167988912599_1_alg».proof.Proof.KI.Reg2
import proofs.«122752_j42167988912599_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each boundary's contents hold at the references the regions and the host stretches pass along -/

/-! ## The host stretch between regions 0 and 1, as one function of region 0's second output -/

/-- The exponentials of the entries less their row's maximum (the row: the last axis). -/
def smExp (x : (⟨S8x64x64, .f32⟩ : BufTy).Contents (Elt F)) : (⟨S8x64x64, .f32⟩ : BufTy).Contents (Elt F) :=
  Host.exp (subf x
    (broadcastInDim S8x64x64 ![0, 1, 2] bcast_S8x64x1_S8x64x64_0_1_2
      (broadcastInDim S8x64x1 ![0, 1] bcast_S8x64_S8x64x1_0_1
        (maximumf (broadcastInDim S8x64 ![] bcast_S_S8x64 (constant S_ .f32 0xFF800000#32 : (⟨S_, .f32⟩ : BufTy).Contents (Elt F)) : (⟨S8x64, .f32⟩ : BufTy).Contents (Elt F))
          (Host.reduce FloatOps.maximumf x (constant S_ .f32 0xFF800000#32 : (⟨S_, .f32⟩ : BufTy).Contents (Elt F)) reducesTo_S8x64x64_S8x64_d2 h_S_ : (⟨S8x64, .f32⟩ : BufTy).Contents (Elt F))
          : (⟨S8x64, .f32⟩ : BufTy).Contents (Elt F)) : (⟨S8x64x1, .f32⟩ : BufTy).Contents (Elt F)) : (⟨S8x64x64, .f32⟩ : BufTy).Contents (Elt F)))

/-- Those exponentials over their row's sum: the softmax along the last axis. -/
def smChain (x : (⟨S8x64x64, .f32⟩ : BufTy).Contents (Elt F)) : (⟨S8x64x64, .f32⟩ : BufTy).Contents (Elt F) :=
  Host.divf (smExp x)
    (broadcastInDim S8x64x64 ![0, 1, 2] bcast_S8x64x1_S8x64x64_0_1_2
      (broadcastInDim S8x64x1 ![0, 1] bcast_S8x64_S8x64x1_0_1
        (Host.reduceAdd (smExp x) (constant S_ .f32 0x00000000#32 : (⟨S_, .f32⟩ : BufTy).Contents (Elt F)) reducesTo_S8x64x64_S8x64_d2 h_S_ : (⟨S8x64, .f32⟩ : BufTy).Contents (Elt F))
        : (⟨S8x64x1, .f32⟩ : BufTy).Contents (Elt F)) : (⟨S8x64x64, .f32⟩ : BufTy).Contents (Elt F))

/-! ## Region 0's entry -/

/-- Region 0's first window reads the first argument reshaped. -/
theorem U1_main_v0 (c : Dev nD) :
    (U1 m ρ c main_v0 : (⟨S8x16384x512, .f32⟩ : BufTy).Contents (Elt F))
      = fun i => shapeCast S8x16384x512 (m ((c : Thread nD τ).loc main_arg0) : (⟨S8x16x32x32x512, .f32⟩ : BufTy).Contents (Elt F)) shapeCasts_S8x16x32x32x512_S8x16384x512 i := by
  show StableHlo.after hostOps0 _ (Proc.devRef .tc main_v0) = _
  after_results
  rfl

theorem U1_main_arg1 (c : Dev nD) : U1 m ρ c main_arg1 = m ((c : Thread nD τ).loc main_arg1) :=
  W1_of m ρ c main_arg1 (by decide)
theorem U1_main_arg2 (c : Dev nD) : U1 m ρ c main_arg2 = m ((c : Thread nD τ).loc main_arg2) :=
  W1_of m ρ c main_arg2 (by decide)
theorem U1_main_arg3 (c : Dev nD) : U1 m ρ c main_arg3 = m ((c : Thread nD τ).loc main_arg3) :=
  W1_of m ρ c main_arg3 (by decide)
theorem U1_main_arg4 (c : Dev nD) : U1 m ρ c main_arg4 = m ((c : Thread nD τ).loc main_arg4) :=
  W1_of m ρ c main_arg4 (by decide)
theorem U1_main_arg5 (c : Dev nD) : U1 m ρ c main_arg5 = m ((c : Thread nD τ).loc main_arg5) :=
  W1_of m ρ c main_arg5 (by decide)
theorem U1_main_arg6 (c : Dev nD) : U1 m ρ c main_arg6 = m ((c : Thread nD τ).loc main_arg6) :=
  W1_of m ρ c main_arg6 (by decide)
theorem U1_main_arg7 (c : Dev nD) : U1 m ρ c main_arg7 = m ((c : Thread nD τ).loc main_arg7) :=
  W1_of m ρ c main_arg7 (by decide)
theorem U1_main_arg8 (c : Dev nD) : U1 m ρ c main_arg8 = m ((c : Thread nD τ).loc main_arg8) :=
  W1_of m ρ c main_arg8 (by decide)
theorem U1_main_arg9 (c : Dev nD) : U1 m ρ c main_arg9 = m ((c : Thread nD τ).loc main_arg9) :=
  W1_of m ρ c main_arg9 (by decide)
theorem U1_main_arg10 (c : Dev nD) : U1 m ρ c main_arg10 = m ((c : Thread nD τ).loc main_arg10) :=
  W1_of m ρ c main_arg10 (by decide)

/-! ## Region 0's exit -/

theorem W2_main_v1_0 (c : Dev nD) : W2 m ρ c (Proc.devRef .tc main_v1_0) = (dat0 (U1 m ρ) c).arrAt 11 cfg0.N := W2_arr m ρ c 11
theorem W2_main_v1_1 (c : Dev nD) : W2 m ρ c (Proc.devRef .tc main_v1_1) = (dat0 (U1 m ρ) c).arrAt 12 cfg0.N := W2_arr m ρ c 12

/-! ## Region 1's entry -/

/-- Region 1's first window reads the softmax of region 0's second output. -/
theorem U3_main_v12 (c : Dev nD) :
    (U3 m ρ c main_v12 : (⟨S8x64x64, .f32⟩ : BufTy).Contents (Elt F)) = smChain (W2 m ρ c (Proc.devRef .tc main_v1_1) : (⟨S8x64x64, .f32⟩ : BufTy).Contents (Elt F)) := by
  show StableHlo.after hostOps1 _ (Proc.devRef .tc main_v12) = _
  after_results
  rfl

/-- Region 1's second window reads region 0's first output as region 0 left it. -/
theorem U3_main_v1_0 (c : Dev nD) : U3 m ρ c main_v1_0 = W2 m ρ c (Proc.devRef .tc main_v1_0) :=
  W3_of m ρ c main_v1_0 (by decide)

/-! ## Region 1's exit -/

theorem W4_main_v13 (c : Dev nD) : W4 m ρ c (Proc.devRef .tc main_v13) = (dat1 (U3 m ρ) c).arrAt 2 cfg1.N := W4_arr m ρ c 2

/-! ## Region 2's entry -/

/-- Region 2's first window reads region 1's output reshaped. -/
theorem U5_main_v14 (c : Dev nD) :
    (U5 m ρ c main_v14 : (⟨S8x16384x64, .bf16⟩ : BufTy).Contents (Elt F))
      = fun i => shapeCast S8x16384x64 (W4 m ρ c (Proc.devRef .tc main_v13) : (⟨S8x64x16384, .bf16⟩ : BufTy).Contents (Elt F)) shapeCasts_S8x64x16384_S8x16384x64 i := by
  show StableHlo.after hostOps2 _ (Proc.devRef .tc main_v14) = _
  after_results
  rfl

theorem U5_main_arg11 (c : Dev nD) : U5 m ρ c main_arg11 = m ((c : Thread nD τ).loc main_arg11) :=
  calc W5 m ρ c (Proc.devRef .tc main_arg11)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem U5_main_arg12 (c : Dev nD) : U5 m ρ c main_arg12 = m ((c : Thread nD τ).loc main_arg12) :=
  calc W5 m ρ c (Proc.devRef .tc main_arg12)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem U5_main_arg13 (c : Dev nD) : U5 m ρ c main_arg13 = m ((c : Thread nD τ).loc main_arg13) :=
  calc W5 m ρ c (Proc.devRef .tc main_arg13)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem U5_main_arg14 (c : Dev nD) : U5 m ρ c main_arg14 = m ((c : Thread nD τ).loc main_arg14) :=
  calc W5 m ρ c (Proc.devRef .tc main_arg14)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem U5_main_arg15 (c : Dev nD) : U5 m ρ c main_arg15 = m ((c : Thread nD τ).loc main_arg15) :=
  calc W5 m ρ c (Proc.devRef .tc main_arg15)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl
theorem U5_main_arg16 (c : Dev nD) : U5 m ρ c main_arg16 = m ((c : Thread nD τ).loc main_arg16) :=
  calc W5 m ρ c (Proc.devRef .tc main_arg16)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

/-! ## Region 2's exit and the result -/

theorem W6_main_v15 (c : Dev nD) : W6 m ρ c (Proc.devRef .tc main_v15) = (dat2 (U5 m ρ) c).arrAt 7 cfg2.N := W6_arr m ρ c 7

/-- The result is region 2's output reshaped. -/
theorem W7_main_v16 (c : Dev nD) :
    (W7 m ρ c (Proc.devRef .tc main_v16) : (⟨S8x16x32x32x512, .f32⟩ : BufTy).Contents (Elt F))
      = fun i => shapeCast S8x16x32x32x512 (W6 m ρ c (Proc.devRef .tc main_v15) : (⟨S8x16384x512, .f32⟩ : BufTy).Contents (Elt F)) shapeCasts_S8x16384x512_S8x16x32x32x512 i := by
  show StableHlo.after hostOps3 _ (Proc.devRef .tc main_v16) = _
  after_results
  rfl

end Cert.KernelIdeal.Hand

end
-- ==== Proof.Spec.lean ====
import Idealize.ShloMosaic.PureOps.Ideal
import Idealize.ShloMosaic.Lib.ValueIdx
import Idealize.ShloMosaic.Lib.Pipeline.Value

/-!
The specification, stage by stage, as plain functions into the extended reals over literal index sets.

With B = 8, N = 16384 = 16 * 32 * 32, C = 512, D = 64:
* `flat`    : the row-major reading of a [8,16,32,32,512] array as [8,16384,512];
* `img`     : (x - mean) * rsqrt (var + eps) * gamma + beta, channel by channel;
* `proj`    : (∑ c, a[b,n,c] * w[c,d]) + bias[d];
* `gram`    : ∑ n, q[b,n,i] * k[b,n,j];
* `attn`    : ∑ m, beta[b,m,i] * v[b,j,m];
* `relabel` : the row-major reading of a [8,64,16384] array as [8,16384,64];
* `outp`    : ((∑ d, a[b,n,d] * wp[d,c]) + bp[c] - mean[c]) * rsqrt (var[c] + eps) * gamma[c] + beta[c];
* `unflat`  : the row-major reading of a [8,16384,512] array as [8,16,32,32,512].
Each has an unfolding lemma `…_apply` at an index given by its coordinates.
-/

noncomputable section

namespace Cert.Spec

open Idealize.ShloMosaic Idealize.ShloMosaic.ValueIdx
open scoped BigOperators

/-- The index set of the literal rank-1 shape [a]. -/
abbrev I1 (a : Nat) : Type := (⟨1, ![a]⟩ : Shape).Idx
/-- The index set of the literal rank-2 shape [a, b]. -/
abbrev I2 (a b : Nat) : Type := (⟨2, ![a, b]⟩ : Shape).Idx
/-- The index set of the literal rank-3 shape [a, b, c]. -/
abbrev I3 (a b c : Nat) : Type := (⟨3, ![a, b, c]⟩ : Shape).Idx
/-- The index set of the literal rank-5 shape [a, b, c, d, e]. -/
abbrev I5 (a b c d e : Nat) : Type := (⟨5, ![a, b, c, d, e]⟩ : Shape).Idx

/-- The variance offset: the extended real the f32 word 0x3A83126F (the float nearest 1e-3) denotes. -/
def eps : EReal := Ideal.ofBits .f32 0x3A83126F#32

theorem eps_def : eps = Ideal.ofBits .f32 0x3A83126F#32 := rfl

/-! ## The row-major readings -/

theorem casts_flat : (⟨5, ![8, 16, 32, 32, 512]⟩ : Shape).ShapeCasts ⟨3, ![8, 16384, 512]⟩ := by decide
theorem casts_unflat : (⟨3, ![8, 16384, 512]⟩ : Shape).ShapeCasts ⟨5, ![8, 16, 32, 32, 512]⟩ := by decide
theorem casts_relabel : (⟨3, ![8, 64, 16384]⟩ : Shape).ShapeCasts ⟨3, ![8, 16384, 64]⟩ := by decide

/-- flat x [b, n, c] = x [b, n / 1024, n / 32 % 32, n % 32, c]: the same row-major position. -/
def flat (x : I5 8 16 32 32 512 → EReal) : I3 8 16384 512 → EReal :=
  shapeCast ⟨3, ![8, 16384, 512]⟩ x casts_flat

theorem flat_apply (x : I5 8 16 32 32 512 → EReal) (b : Fin 8) (n : Fin 16384) (c : Fin 512) :
    flat x (ix3 b n c)
      = x (ix5 b ⟨n.val / 1024, by omega⟩ ⟨n.val / 32 % 32, by omega⟩ ⟨n.val % 32, by omega⟩ c) := by
  unfold flat
  refine shapeCast_apply x casts_flat _ _ ?_
  rw [Shape.rowMajor_val_five, Shape.rowMajor_val_three]
  show ((((b.val * 16 + n.val / 1024) * 32 + n.val / 32 % 32) * 32 + n.val % 32) * 512 + c.val)
    = (b.val * 16384 + n.val) * 512 + c.val
  omega

/-- unflat y [b, d1, d2, d3, c] = y [b, (d1 * 32 + d2) * 32 + d3, c]: the same row-major position. -/
def unflat (y : I3 8 16384 512 → EReal) : I5 8 16 32 32 512 → EReal :=
  shapeCast ⟨5, ![8, 16, 32, 32, 512]⟩ y casts_unflat

theorem unflat_apply (y : I3 8 16384 512 → EReal) (b : Fin 8) (d1 : Fin 16) (d2 d3 : Fin 32) (c : Fin 512) :
    unflat y (ix5 b d1 d2 d3 c) = y (ix3 b ⟨(d1.val * 32 + d2.val) * 32 + d3.val, by omega⟩ c) := by
  unfold unflat
  refine shapeCast_apply y casts_unflat _ _ ?_
  rw [Shape.rowMajor_val_five, Shape.rowMajor_val_three]
  show (b.val * 16384 + ((d1.val * 32 + d2.val) * 32 + d3.val)) * 512 + c.val
    = ((((b.val * 16 + d1.val) * 32 + d2.val) * 32 + d3.val) * 512 + c.val)
  omega

/-! ## The stages -/

/-- The normalised image: img [b, n, c] = (x2 [b, n, c] - mn [c]) * rsqrt (vr [c] + eps) * g [c] + bt [c]. -/
def img (x2 : I3 8 16384 512 → EReal) (g bt mn vr : I1 512 → EReal) : I3 8 16384 512 → EReal :=
  fun j => (x2 j - mn (ix1 (n := 512) (j 2))) * Ideal.rsqrt (vr (ix1 (n := 512) (j 2)) + eps)
    * g (ix1 (n := 512) (j 2)) + bt (ix1 (n := 512) (j 2))

theorem img_apply (x2 : I3 8 16384 512 → EReal) (g bt mn vr : I1 512 → EReal)
    (b : Fin 8) (n : Fin 16384) (c : Fin 512) :
    img x2 g bt mn vr (ix3 b n c)
      = (x2 (ix3 b n c) - mn (ix1 c)) * Ideal.rsqrt (vr (ix1 c) + eps) * g (ix1 c) + bt (ix1 c) := rfl

/-- A projection of the channels: proj a w bias [b, n, d] = (∑ c, a [b, n, c] * w [c, d]) + bias [d]. -/
def proj (a : I3 8 16384 512 → EReal) (w : I2 512 64 → EReal) (bias : I1 64 → EReal) : I3 8 16384 64 → EReal :=
  fun j => (∑ c : Fin 512, a (ix3 (n0 := 8) (n1 := 16384) (j 0) (j 1) c) * w (ix2 (n1 := 64) c (j 2)))
    + bias (ix1 (n := 64) (j 2))

theorem proj_apply (a : I3 8 16384 512 → EReal) (w : I2 512 64 → EReal) (bias : I1 64 → EReal)
    (b : Fin 8) (n : Fin 16384) (d : Fin 64) :
    proj a w bias (ix3 b n d) = (∑ c : Fin 512, a (ix3 b n c) * w (ix2 c d)) + bias (ix1 d) := rfl

/-- The Gram matrix over positions: gram q k [b, i, j] = ∑ n, q [b, n, i] * k [b, n, j]. -/
def gram (q k : I3 8 16384 64 → EReal) : I3 8 64 64 → EReal :=
  fun j => ∑ n : Fin 16384, q (ix3 (n0 := 8) (n2 := 64) (j 0) n (j 1)) * k (ix3 (n0 := 8) (n2 := 64) (j 0) n (j 2))

theorem gram_apply (q k : I3 8 16384 64 → EReal) (b : Fin 8) (i j : Fin 64) :
    gram q k (ix3 b i j) = ∑ n : Fin 16384, q (ix3 b n i) * k (ix3 b n j) := rfl

/-- The attention product: attn beta v [b, i, j] = ∑ m, beta [b, m, i] * v [b, j, m]. -/
def attn (beta : I3 8 64 64 → EReal) (v : I3 8 16384 64 → EReal) : I3 8 64 16384 → EReal :=
  fun j => ∑ m : Fin 64, beta (ix3 (n0 := 8) (n2 := 64) (j 0) m (j 1)) * v (ix3 (n0 := 8) (n1 := 16384) (j 0) (j 2) m)

theorem attn_apply (beta : I3 8 64 64 → EReal) (v : I3 8 16384 64 → EReal) (b : Fin 8) (i : Fin 64) (j : Fin 16384) :
    attn beta v (ix3 b i j) = ∑ m : Fin 64, beta (ix3 b m i) * v (ix3 b j m) := rfl

/-- The row-major reading of a [8, 64, 16384] array as [8, 16384, 64]: element [b, n, d] is the element at
    flat offset n * 64 + d inside batch b. -/
def relabel (a : I3 8 64 16384 → EReal) : I3 8 16384 64 → EReal :=
  shapeCast ⟨3, ![8, 16384, 64]⟩ a casts_relabel

theorem relabel_apply (a : I3 8 64 16384 → EReal) (b : Fin 8) (n : Fin 16384) (d : Fin 64) :
    relabel a (ix3 b n d)
      = a (ix3 b ⟨(n.val * 64 + d.val) / 16384, by omega⟩ ⟨(n.val * 64 + d.val) % 16384, by omega⟩) := by
  unfold relabel
  refine shapeCast_apply a casts_relabel _ _ ?_
  rw [Shape.rowMajor_val_three, Shape.rowMajor_val_three]
  show (b.val * 64 + (n.val * 64 + d.val) / 16384) * 16384 + (n.val * 64 + d.val) % 16384
    = (b.val * 16384 + n.val) * 64 + d.val
  omega

/-- The output projection and normalisation:
    outp [b, n, c] = ((∑ d, a2 [b, n, d] * wp [d, c]) + bp [c] - mn [c]) * rsqrt (vr [c] + eps) * g [c] + bt [c]. -/
def outp (a2 : I3 8 16384 64 → EReal) (wp : I2 64 512 → EReal) (bp g bt mn vr : I1 512 → EReal) :
    I3 8 16384 512 → EReal :=
  fun j => ((∑ d : Fin 64, a2 (ix3 (n0 := 8) (n1 := 16384) (j 0) (j 1) d) * wp (ix2 (n1 := 512) d (j 2)))
      + bp (ix1 (n := 512) (j 2)) - mn (ix1 (n := 512) (j 2)))
    * Ideal.rsqrt (vr (ix1 (n := 512) (j 2)) + eps) * g (ix1 (n := 512) (j 2)) + bt (ix1 (n := 512) (j 2))

theorem outp_apply (a2 : I3 8 16384 64 → EReal) (wp : I2 64 512 → EReal) (bp g bt mn vr : I1 512 → EReal)
    (b : Fin 8) (n : Fin 16384) (c : Fin 512) :
    outp a2 wp bp g bt mn vr (ix3 b n c)
      = ((∑ d : Fin 64, a2 (ix3 b n d) * wp (ix2 d c)) + bp (ix1 c) - mn (ix1 c))
        * Ideal.rsqrt (vr (ix1 c) + eps) * g (ix1 c) + bt (ix1 c) := rfl

end Cert.Spec

end
-- ==== Proof.LibMatmulTN.lean ====
/-
  A matrix product with the left operand transposed, into the zero accumulator, read at one entry, at the ideal values.

  For ANY dimension numbers of a [K, R] × [C, K] → [R, C] product that contract the left operand's axis 0 with the
  right operand's axis 1 (one contracted axis, of extent K) and carry the left's axis 1 to the result's axis 0 and the
  right's axis 0 to the result's axis 1, any operand formats and any precision attribute: at the ideal values,
  `matmul` with the all-zero f32 accumulator has, at entry (p, q), the value
      Σ_{k < K} l(k, p) · r(q, k).
  The sum over the contraction shape's one-axis index type is re-indexed over `Fin K`, and the operand indices the
  dimension numbers read at result entry (p, q) and contracted position k are (k, p) and (q, k).

  The two hypotheses `hl1` and `hr0` say that the result's axis 0 is the left operand's axis 1 and the result's axis 1
  the right operand's axis 0; for a printed record `D` (no batch axes) each is four lines:
      fun i c => by
        unfold DotDims.lhsIdx
        rw [dif_neg (show ¬(1 : Fin _) ∈ D.lhsBatch by decide), dif_pos (show (1 : Fin _) ∈ D.lhsNonContracting by decide)]
        rfl
  (and the same with `rhsIdx`, `0`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulTN

open Idealize.ShloMosaic Idealize.ShloMosaic.ValueIdx

/-- `matmul D prec l r 0 (p, q) = Σ_k l(k, p) · r(q, k)` at the ideal values, for two-dimensional operands with one
    contracted axis: axis 0 of the left operand against axis 1 of the right. -/
theorem matmul_zero_tn_ix2 {R K C : Nat} {φ₁ φ₂ : FTy} (D : DotDims ⟨2, ![K, R]⟩ ⟨2, ![C, K]⟩ ⟨2, ![R, C]⟩)
    (hlc : D.lhsContracting = [0]) (hrc : D.rhsContracting = [1]) (hr : D.contr.rank = 1)
    (hs : D.contr.size ⟨0, by omega⟩ = K)
    (hl1 : ∀ (i : (⟨2, ![R, C]⟩ : Shape).Idx) (c : D.contr.Idx), (D.lhsIdx i c 1).val = (i 0).val)
    (hr0 : ∀ (i : (⟨2, ![R, C]⟩ : Shape).Idx) (c : D.contr.Idx), (D.rhsIdx i c 0).val = (i 1).val)
    (prec : Option ContractPrecision)
    (l : FVec Ideal ⟨2, ![K, R]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 k p) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p :=
    funext fun a => Fin.ext (by
      match a with
      | ⟨0, _⟩ => exact (D.lhsIdx_val_of_single hlc _ _).trans hk
      | ⟨1, _⟩ => exact hl1 _ _)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibMatmulTN

end
-- ==== Proof.KI.Val1.lean ====
import proofs.«122752_j42167988912599_1_alg».proof.Proof.KI.Reg1
import proofs.«122752_j42167988912599_1_alg».proof.Proof.Spec
import proofs.«122752_j42167988912599_1_alg».proof.Proof.LibMatmulTN
import Idealize.ShloMosaic.Lib.Pipeline.Value
import Idealize.ShloMosaic.Lib.ValueIdx
import Idealize.ShloMosaic.PureOps.Ideal.Laws

/-!
The attention product's region, read as one function.

Region 1 runs over an 8 × 8 grid; at point (b, n) its body multiplies the 64 × 64 block of batch b of the first
operand, transposed, with the transposed 2048 × 64 block (b, n) of the second, and stores the 64 × 2048 product as
block (b, 0, n) of the [8, 64, 16384] result. Entry (i, j) of that product is Σ_m beta[b, m, i] · v[b, n·2048 + j, m],
which is entry [b, i, n·2048 + j] of `Cert.Spec.attn`; the 64 blocks tile the result, so the region leaves the
whole array at `Cert.Spec.attn` of the two arrays it was entered with.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem hz3_1 : (![0, 0, 0] : Fin 3 → Nat) = fun _ => 0 := funext fun a => by fin_cases a <;> rfl

/-! ## The body's product at an entry -/

/-- Entry (i, j) of the stored block: the sum over m of the first block's entry (m, i) times the second's (j, m). -/
theorem pay1_apply (x0 : Vec Ideal S1x64x64 .f32) (x1 : Vec Ideal S1x2048x64 .bf16) (i : Fin 64) (j : Fin 2048) :
    k1_pay1 (F := Ideal) x0 x1 (ix3 (0 : Fin 1) i j)
      = ∑ m : Fin 64, x0 (ix3 (0 : Fin 1) m i) * x1 (ix3 (0 : Fin 1) j m) := by
  unfold k1_pay1
  refine (shapeCast_apply _ _ (ix3 (0 : Fin 1) i j) (ix2 i j) ?_).trans ?_
  · rw [Shape.rowMajor_val_two, Shape.rowMajor_val_three]
    show i.val * 2048 + j.val = (0 * 64 + i.val) * 2048 + j.val
    omega
  refine (Cert.LibMatmulTN.matmul_zero_tn_ix2 dot_S64x64_S2048x64_S64x2048_0_1_1_0_n_n rfl rfl rfl rfl
    (fun i c => by
      unfold DotDims.lhsIdx
      rw [dif_neg (show ¬(1 : Fin _) ∈ dot_S64x64_S2048x64_S64x2048_0_1_1_0_n_n.lhsBatch by decide),
        dif_pos (show (1 : Fin _) ∈ dot_S64x64_S2048x64_S64x2048_0_1_1_0_n_n.lhsNonContracting by decide)]
      rfl)
    (fun i c => by
      unfold DotDims.rhsIdx
      rw [dif_neg (show ¬(0 : Fin _) ∈ dot_S64x64_S2048x64_S64x2048_0_1_1_0_n_n.rhsBatch by decide),
        dif_pos (show (0 : Fin _) ∈ dot_S64x64_S2048x64_S64x2048_0_1_1_0_n_n.rhsNonContracting by decide)]
      rfl)
    none _ _ i j).trans ?_
  refine Finset.sum_congr rfl fun m _ => ?_
  refine congrArg₂ (· * ·) ?_ ?_
  · refine shapeCast_apply x0 _ (ix2 m i) (ix3 (0 : Fin 1) m i) ?_
    rw [Shape.rowMajor_val_two, Shape.rowMajor_val_three]
    show (0 * 64 + m.val) * 64 + i.val = m.val * 64 + i.val
    omega
  · refine shapeCast_apply x1 _ (ix2 j m) (ix3 (0 : Fin 1) j m) ?_
    rw [Shape.rowMajor_val_two, Shape.rowMajor_val_three]
    show (0 * 2048 + j.val) * 64 + m.val = j.val * 64 + m.val
    omega

/-! ## A block of the product is a block of `Cert.Spec.attn` -/

/-- The stored block at grid point (b, n), entry y, is `Cert.Spec.attn` at [b, y 1, n·2048 + y 2], when the first loaded
    block is batch b of `beta` and the second rows n·2048 … n·2048 + 2047 of batch b of `v`. -/
theorem block1_apply (beta : Cert.Spec.I3 8 64 64 → EReal) (v : Cert.Spec.I3 8 16384 64 → EReal)
    (x0 : Vec Ideal S1x64x64 .f32) (x1 : Vec Ideal S1x2048x64 .bf16) (b n : Fin 8)
    (h0 : ∀ m i : Fin 64, x0 (ix3 (0 : Fin 1) m i) = beta (ix3 b m i))
    (h1 : ∀ (j : Fin 2048) (m : Fin 64), x1 (ix3 (0 : Fin 1) j m) = v (ix3 b ⟨n.val * 2048 + j.val, by omega⟩ m))
    (y : S1x64x2048.Idx) (k : Cert.Spec.I3 8 64 16384)
    (hk0 : (k 0).val = b.val) (hk1 : (k 1).val = (y 1).val) (hk2 : (k 2).val = n.val * 2048 + (y 2).val) :
    k1_pay1 (F := Ideal) x0 x1 y = Cert.Spec.attn beta v k := by
  obtain ⟨y0, i, j, rfl⟩ : ∃ (y0 : Fin 1) (i : Fin 64) (j : Fin 2048), y = ix3 y0 i j := ⟨y 0, y 1, y 2, eq_ix3 y⟩
  obtain rfl : y0 = 0 := Subsingleton.elim _ _
  have hb : n.val * 2048 + j.val < 16384 := by have := n.isLt; have := j.isLt; omega
  obtain ⟨kb, ki, kj, rfl⟩ : ∃ (kb : Fin 8) (ki : Fin 64) (kj : Fin 16384), k = ix3 kb ki kj := ⟨k 0, k 1, k 2, eq_ix3 k⟩
  obtain rfl : kb = b := Fin.ext hk0
  obtain rfl : ki = i := Fin.ext hk1
  obtain rfl : kj = ⟨n.val * 2048 + j.val, hb⟩ := Fin.ext hk2
  rw [pay1_apply, Cert.Spec.attn_apply]
  exact Finset.sum_congr rfl fun m _ => by rw [h0, h1]

/-! ## The windows' blocks on the grid -/

/-- The printed index maps over the 64 grid points: point t = 8·b + n reads batch b of the first operand, block (b, n)
    of the second, and writes block (b, 0, n). -/
theorem idx_facts1 : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = 0 ∧ win1_2.index t (2 : Fin 3) = t.val % 8 :=
  (by decide +kernel : ∀ t : Fin grid1.N, _)

variable (V : (c : Dev nD) → (b : Ref sig .tc) → Buf (Elt Ideal) ((c : Thread nD τ).loc b))

/-- The first window's block at point t is batch t / 8 of the first array. -/
theorem iblk1_0_apply (c : Dev nD) (t : Fin cfg1.N) (m i : Fin 64) :
    (iblk1 V c 0 t : Vec Ideal S1x64x64 .f32) (ix3 (0 : Fin 1) m i)
      = (V c main_v12 : S8x64x64.Idx → EReal) (ix3 ⟨t.val / 8, by have := t.isLt; have hN : cfg1.N = 64 := N_1; omega⟩ m i) := by
  obtain ⟨e0, e1, e2, -⟩ := idx_facts1 t
  unfold iblk1
  rw [View.read_apply]
  show V c main_v12 _ = V c main_v12 _
  refine congrArg _ (funext fun a => Fin.ext ?_)
  match a with
  | ⟨0, _⟩ => show win1_0.index t (0 : Fin 3) * 1 + 1 * 0 = t.val / 8; omega
  | ⟨1, _⟩ => show win1_0.index t (1 : Fin 3) * 64 + 1 * m.val = m.val; omega
  | ⟨2, _⟩ => show win1_0.index t (2 : Fin 3) * 64 + 1 * i.val = i.val; omega

/-- The second window's block at point t is rows (t % 8)·2048 … (t % 8)·2048 + 2047 of batch t / 8 of the second array. -/
theorem iblk1_1_apply (c : Dev nD) (t : Fin cfg1.N) (j : Fin 2048) (m : Fin 64) :
    (iblk1 V c 1 t : Vec Ideal S1x2048x64 .bf16) (ix3 (0 : Fin 1) j m)
      = (V c main_v1_0 : S8x16384x64.Idx → EReal)
          (ix3 ⟨t.val / 8, by have := t.isLt; have hN : cfg1.N = 64 := N_1; omega⟩
            ⟨t.val % 8 * 2048 + j.val, by have := j.isLt; omega⟩ m) := by
  obtain ⟨-, -, -, e0, e1, e2, -⟩ := idx_facts1 t
  unfold iblk1
  rw [View.read_apply]
  show V c main_v1_0 _ = V c main_v1_0 _
  refine congrArg _ (funext fun a => Fin.ext ?_)
  match a with
  | ⟨0, _⟩ => show win1_1.index t (0 : Fin 3) * 1 + 1 * 0 = t.val / 8; omega
  | ⟨1, _⟩ => show win1_1.index t (1 : Fin 3) * 2048 + 1 * j.val = t.val % 8 * 2048 + j.val; omega
  | ⟨2, _⟩ => show win1_1.index t (2 : Fin 3) * 64 + 1 * m.val = m.val; omega

/-! ## What a point writes back, and the whole array -/

/-- What point t writes back is block t of `Cert.Spec.attn` of the two arrays the region was entered with. -/
theorem flushed1_eq (c : Dev nD) (t : Fin cfg1.N) :
    (dat1 V c).flushed 2 t
      = ((cfg1.win 2).blk t).view.read (Elt Ideal) (Cert.Spec.attn (V c main_v12) (V c main_v1_0)) := by
  have hN : cfg1.N = 64 := N_1
  have ht := t.isLt
  show (cfg1.win 2).cut (grid1.coords t) ((dat1 V c).after 2 t) = _
  rw [after1_2]
  unfold out1_2
  rw [View.canon_unit_zero hz3_1]
  simp only [View.ld_unit_zero (S := S1x64x64) hz3_1, View.ld_unit_zero (S := S1x2048x64) hz3_1]
  obtain ⟨-, -, -, -, -, -, e0, e1, e2⟩ := idx_facts1 t
  funext y
  show k1_pay1 (F := Ideal) (iblk1 V c 0 t) (iblk1 V c 1 t) y
    = Cert.Spec.attn (V c main_v12) (V c main_v1_0) (((cfg1.win 2).blk t).view.emb y)
  have y0 : (y 0).val < 1 := (y 0).isLt
  have y1 : (y 1).val < 64 := (y 1).isLt
  have y2 : (y 2).val < 2048 := (y 2).isLt
  refine block1_apply (V c main_v12) (V c main_v1_0) (iblk1 V c 0 t) (iblk1 V c 1 t)
    ⟨t.val / 8, by omega⟩ ⟨t.val % 8, by omega⟩ (iblk1_0_apply V c t) (iblk1_1_apply V c t) y _ ?_ ?_ ?_
  · show win1_2.index t (0 : Fin 3) * 1 + 1 * (y 0).val = t.val / 8; omega
  · show win1_2.index t (1 : Fin 3) * 64 + 1 * (y 1).val = (y 1).val; omega
  · show win1_2.index t (2 : Fin 3) * 2048 + 1 * (y 2).val = t.val % 8 * 2048 + (y 2).val; omega

/-- An index of the result is in point t's block iff each coordinate is in the block's range on its axis. -/
theorem mem_blk1 (t : Fin cfg1.N) (i : S8x64x16384.Idx) :
    i ∈ ((cfg1.win 2).blk t).view.set ↔ ∀ a : Fin 3, win1_2.index t a * S1x64x2048.size a ≤ (i a).val
      ∧ (i a).val < win1_2.index t a * S1x64x2048.size a + S1x64x2048.size a := by
  show i ∈ ((View.whole main_v13).slice (win1_2.rect t)).set ↔ _
  rw [View.set_slice_whole, Rect.mem_set_unit]
  exact Iff.rfl

/-- Every index [b, i, j] of the result lies in the block of point 8·b + j / 2048. -/
theorem cover1 (i : S8x64x16384.Idx) :
    ∃ t : Fin cfg1.N, (cfg1.win 2).flush t = true ∧ i ∈ ((cfg1.win 2).blk t).view.set := by
  have hN : cfg1.N = 64 := N_1
  have h0 : (i 0).val < 8 := (i 0).isLt
  have h1 : (i 1).val < 64 := (i 1).isLt
  have h2 : (i 2).val < 16384 := (i 2).isLt
  obtain ⟨t, ht⟩ : ∃ t : Fin cfg1.N, t.val = (i 0).val * 8 + (i 2).val / 2048 := ⟨⟨_, by omega⟩, rfl⟩
  obtain ⟨-, -, -, -, -, -, e0, e1, e2⟩ := idx_facts1 t
  refine ⟨t, flush1_2 t, ?_⟩
  rw [mem_blk1]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 64 ≤ (i 1).val ∧ (i 1).val < win1_2.index t (1 : Fin 3) * 64 + 64
    omega
  | ⟨2, _⟩ =>
    show win1_2.index t (2 : Fin 3) * 2048 ≤ (i 2).val ∧ (i 2).val < win1_2.index t (2 : Fin 3) * 2048 + 2048
    omega

/-- The region leaves its result array at `Cert.Spec.attn` of the two arrays it was entered with:
    attn [b, i, j] = Σ_m beta [b, m, i] · v [b, j, m]. -/
theorem final1 (c : Dev nD) :
    (dat1 (F := Ideal) V c).arrAt 2 cfg1.N = Cert.Spec.attn (V c main_v12) (V c main_v1_0) :=
  (dat1 V c).arrAt_eq_of_cover 2 (Cert.Spec.attn (V c main_v12) (V c main_v1_0))
    (fun t _ => flushed1_eq V c t) cover1

end Cert.KernelIdeal.HandV

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KI.Val2.lean ====
import proofs.«122752_j42167988912599_1_alg».proof.Proof.KI.Reg2
import proofs.«122752_j42167988912599_1_alg».proof.Proof.Spec
import proofs.«122752_j42167988912599_1_alg».proof.Proof.LibMatmulZero
import Idealize.ShloMosaic.Lib.Pipeline.Value
import Idealize.ShloMosaic.Lib.ValueIdx
import Idealize.ShloMosaic.Lib.ValueLayout
import Idealize.ShloMosaic.PureOps.Ideal.Laws

/-!
The output projection's region, read as one function.

Region 2 runs over an 8 × 8 grid; at point (b, n) its body multiplies the 2048 × 64 block (b, n) of the relabelled
attention array with the whole 64 × 512 weight, adds the bias row, subtracts the mean row, scales by the reciprocal
square root of the variance row plus the offset and by the gain row, adds the shift row, and stores the 2048 × 512
result as block (b, n) of the [8, 16384, 512] output. Entry (r, c) of that block is entry [b, n·2048 + r, c] of
`Cert.Spec.outp`; the 64 blocks tile the output, so the region leaves the whole array at `Cert.Spec.outp` of the seven
arrays it was entered with.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem hz3_2 : (![0, 0, 0] : Fin 3 → Nat) = fun _ => 0 := funext fun a => by fin_cases a <;> rfl
theorem hz2_2 : (![0, 0] : Fin 2 → Nat) = fun _ => 0 := funext fun a => by fin_cases a <;> rfl
theorem hz1_2 : (![0] : Fin 1 → Nat) = fun _ => 0 := funext fun a => by fin_cases a <;> rfl

/-! ## The body's arithmetic at an entry -/

/-- A vector of C entries recast as a [1, C] row and broadcast to [R, C] has at (r, c) the vector's entry c. -/
theorem rowBcast2_apply {R C : Nat} {α : Type} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (r : Fin R) (c : Fin C) :
    broadcastTo ⟨2, ![R, C]⟩ (shapeCast ⟨2, ![1, C]⟩ v h1) h2 (ix2 r c) = v (ix1 c) :=
  (broadcastTo_1b_ab_apply _ h2 r c).trans (shapeCast_a_1a_apply v h1 0 c)

/-- Entry (r, c) of the stored block: the product's entry plus the bias, minus the mean, times the reciprocal square root
    of the variance plus the offset, times the gain, plus the shift, each row vector read at column c. -/
theorem pay2_apply (v0 : Vec Ideal S1x2048x64 .bf16) (v2 : Vec Ideal S64x512 .f32) (v5 v9 v10 v11 v12 : Vec Ideal S512 .f32)
    (r : Fin 2048) (c : Fin 512) :
    k2_pay1 (F := Ideal) v0 v2 v5 v9 v10 v11 v12 (ix3 (0 : Fin 1) r c)
      = ((∑ d : Fin 64, v0 (ix3 (0 : Fin 1) r d) * v2 (ix2 d c)) + v5 (ix1 c) - v11 (ix1 c))
        * Ideal.rsqrt (v12 (ix1 c) + Ideal.ofBits .f32 0x3A83126F#32) * v9 (ix1 c) + v10 (ix1 c) := by
  unfold k2_pay1
  refine (shapeCast_ab_1ab_apply _ _ 0 r c).trans ?_
  simp only [addf_apply, mulf_apply, subf_apply]
  simp only [rowBcast2_apply]
  rw [Cert.LibMatmulZero.matmul_zero_ix2 dot_S2048x64_S64x512_S2048x512_1_0_0_1_n_n rfl rfl rfl rfl
    (fun i c => by
      unfold DotDims.lhsIdx
      rw [dif_neg (show ¬(0 : Fin _) ∈ dot_S2048x64_S64x512_S2048x512_1_0_0_1_n_n.lhsBatch by decide),
        dif_pos (show (0 : Fin _) ∈ dot_S2048x64_S64x512_S2048x512_1_0_0_1_n_n.lhsNonContracting by decide)]
      rfl)
    (fun i c => by
      unfold DotDims.rhsIdx
      rw [dif_neg (show ¬(1 : Fin _) ∈ dot_S2048x64_S64x512_S2048x512_1_0_0_1_n_n.rhsBatch by decide),
        dif_pos (show (1 : Fin _) ∈ dot_S2048x64_S64x512_S2048x512_1_0_0_1_n_n.rhsNonContracting by decide)]
      rfl)]
  simp only [shapeCast_1ab_ab_apply, truncf_apply]
  rfl

/-! ## A block of the result is a block of `Cert.Spec.outp` -/

/-- The stored block at grid point (b, n), entry y, is `Cert.Spec.outp` at [b, n·2048 + y 1, y 2], when the first loaded
    block is rows n·2048 … n·2048 + 2047 of batch b of `a2` and the others are the weight and the five row vectors. -/
theorem block2_apply (a2 : Cert.Spec.I3 8 16384 64 → EReal) (wp : Cert.Spec.I2 64 512 → EReal)
    (bp g bt mn vr : Cert.Spec.I1 512 → EReal)
    (x0 : Vec Ideal S1x2048x64 .bf16) (x1 : Vec Ideal S64x512 .f32) (x2 x3 x4 x5 x6 : Vec Ideal S512 .f32) (b n : Fin 8)
    (h0 : ∀ (r : Fin 2048) (d : Fin 64), x0 (ix3 (0 : Fin 1) r d) = a2 (ix3 b ⟨n.val * 2048 + r.val, by omega⟩ d))
    (h1 : ∀ (d : Fin 64) (c : Fin 512), x1 (ix2 d c) = wp (ix2 d c))
    (h2 : ∀ c : Fin 512, x2 (ix1 c) = bp (ix1 c)) (h3 : ∀ c : Fin 512, x3 (ix1 c) = g (ix1 c))
    (h4 : ∀ c : Fin 512, x4 (ix1 c) = bt (ix1 c)) (h5 : ∀ c : Fin 512, x5 (ix1 c) = mn (ix1 c))
    (h6 : ∀ c : Fin 512, x6 (ix1 c) = vr (ix1 c))
    (y : S1x2048x512.Idx) (k : Cert.Spec.I3 8 16384 512)
    (hk0 : (k 0).val = b.val) (hk1 : (k 1).val = n.val * 2048 + (y 1).val) (hk2 : (k 2).val = (y 2).val) :
    k2_pay1 (F := Ideal) x0 x1 x2 x3 x4 x5 x6 y = Cert.Spec.outp a2 wp bp g bt mn vr k := by
  obtain ⟨y0, r, c, rfl⟩ : ∃ (y0 : Fin 1) (r : Fin 2048) (c : Fin 512), y = ix3 y0 r c := ⟨y 0, y 1, y 2, eq_ix3 y⟩
  obtain rfl : y0 = 0 := Subsingleton.elim _ _
  have hb : n.val * 2048 + r.val < 16384 := by have := n.isLt; have := r.isLt; omega
  obtain ⟨kb, kn, kc, rfl⟩ : ∃ (kb : Fin 8) (kn : Fin 16384) (kc : Fin 512), k = ix3 kb kn kc := ⟨k 0, k 1, k 2, eq_ix3 k⟩
  obtain rfl : kb = b := Fin.ext hk0
  obtain rfl : kn = ⟨n.val * 2048 + r.val, hb⟩ := Fin.ext hk1
  obtain rfl : kc = c := Fin.ext hk2
  rw [pay2_apply, Cert.Spec.outp_apply, Cert.Spec.eps_def, h2, h3, h4, h5, h6]
  refine congrArg (fun s => (s + bp (ix1 kc) - mn (ix1 kc)) * Ideal.rsqrt (vr (ix1 kc) + Ideal.ofBits .f32 0x3A83126F#32)
    * g (ix1 kc) + bt (ix1 kc)) ?_
  exact Finset.sum_congr rfl fun d _ => by rw [h0, h1]

/-! ## The windows' blocks on the grid -/

/-- The printed index maps over the 64 grid points: point t = 8·b + n reads block (b, n) of the first operand, the whole
    weight and the whole row vectors, and writes block (b, n). -/
theorem idx_facts2 : ∀ t : Fin cfg2.N,
    win2_0.index t (0 : Fin 3) = t.val / 8 ∧ win2_0.index t (1 : Fin 3) = t.val % 8 ∧ win2_0.index t (2 : Fin 3) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0
    ∧ win2_7.index t (0 : Fin 3) = t.val / 8 ∧ win2_7.index t (1 : Fin 3) = t.val % 8 ∧ win2_7.index t (2 : Fin 3) = 0 :=
  (by decide +kernel : ∀ t : Fin grid2.N, _)

variable (V : (c : Dev nD) → (b : Ref sig .tc) → Buf (Elt Ideal) ((c : Thread nD τ).loc b))

/-- The first window's block at point t is rows (t % 8)·2048 … (t % 8)·2048 + 2047 of batch t / 8 of the first array. -/
theorem iblk2_0_apply (c : Dev nD) (t : Fin cfg2.N) (r : Fin 2048) (d : Fin 64) :
    (iblk2 V c 0 t : Vec Ideal S1x2048x64 .bf16) (ix3 (0 : Fin 1) r d)
      = (V c main_v14 : S8x16384x64.Idx → EReal)
          (ix3 ⟨t.val / 8, by have := t.isLt; have hN : cfg2.N = 64 := N_2; omega⟩
            ⟨t.val % 8 * 2048 + r.val, by have := r.isLt; omega⟩ d) := by
  obtain ⟨e0, e1, e2, -⟩ := idx_facts2 t
  unfold iblk2
  rw [View.read_apply]
  show V c main_v14 _ = V c main_v14 _
  refine congrArg _ (funext fun a => Fin.ext ?_)
  match a with
  | ⟨0, _⟩ => show win2_0.index t (0 : Fin 3) * 1 + 1 * 0 = t.val / 8; omega
  | ⟨1, _⟩ => show win2_0.index t (1 : Fin 3) * 2048 + 1 * r.val = t.val % 8 * 2048 + r.val; omega
  | ⟨2, _⟩ => show win2_0.index t (2 : Fin 3) * 64 + 1 * d.val = d.val; omega

/-- The second window's block at every point is the whole weight. -/
theorem iblk2_1_apply (c : Dev nD) (t : Fin cfg2.N) (d : Fin 64) (cc : Fin 512) :
    (iblk2 V c 1 t : Vec Ideal S64x512 .f32) (ix2 d cc) = (V c main_arg11 : S64x512.Idx → EReal) (ix2 d cc) := by
  obtain ⟨-, -, -, e0, e1, -⟩ := idx_facts2 t
  unfold iblk2
  rw [View.read_apply]
  show V c main_arg11 _ = V c main_arg11 _
  refine congrArg _ (funext fun a => Fin.ext ?_)
  match a with
  | ⟨0, _⟩ => show win2_1.index t (0 : Fin 2) * 64 + 1 * d.val = d.val; omega
  | ⟨1, _⟩ => show win2_1.index t (1 : Fin 2) * 512 + 1 * cc.val = cc.val; omega

/-- Window 2's block at every point is the whole row vector. -/
theorem iblk2_2_apply (c : Dev nD) (t : Fin cfg2.N) (cc : Fin 512) :
    (iblk2 V c 2 t : Vec Ideal S512 .f32) (ix1 cc) = (V c main_arg12 : S512.Idx → EReal) (ix1 cc) := by
  obtain ⟨-, -, -, -, -, e2, e3, e4, e5, e6, -⟩ := idx_facts2 t
  unfold iblk2
  rw [View.read_apply]
  show V c main_arg12 _ = V c main_arg12 _
  refine congrArg _ (funext fun a => Fin.ext ?_)
  match a with
  | ⟨0, _⟩ => show win2_2.index t (0 : Fin 1) * 512 + 1 * cc.val = cc.val; omega

/-- Window 3's block at every point is the whole row vector. -/
theorem iblk2_3_apply (c : Dev nD) (t : Fin cfg2.N) (cc : Fin 512) :
    (iblk2 V c 3 t : Vec Ideal S512 .f32) (ix1 cc) = (V c main_arg13 : S512.Idx → EReal) (ix1 cc) := by
  obtain ⟨-, -, -, -, -, e2, e3, e4, e5, e6, -⟩ := idx_facts2 t
  unfold iblk2
  rw [View.read_apply]
  show V c main_arg13 _ = V c main_arg13 _
  refine congrArg _ (funext fun a => Fin.ext ?_)
  match a with
  | ⟨0, _⟩ => show win2_3.index t (0 : Fin 1) * 512 + 1 * cc.val = cc.val; omega

/-- Window 4's block at every point is the whole row vector. -/
theorem iblk2_4_apply (c : Dev nD) (t : Fin cfg2.N) (cc : Fin 512) :
    (iblk2 V c 4 t : Vec Ideal S512 .f32) (ix1 cc) = (V c main_arg14 : S512.Idx → EReal) (ix1 cc) := by
  obtain ⟨-, -, -, -, -, e2, e3, e4, e5, e6, -⟩ := idx_facts2 t
  unfold iblk2
  rw [View.read_apply]
  show V c main_arg14 _ = V c main_arg14 _
  refine congrArg _ (funext fun a => Fin.ext ?_)
  match a with
  | ⟨0, _⟩ => show win2_4.index t (0 : Fin 1) * 512 + 1 * cc.val = cc.val; omega

/-- Window 5's block at every point is the whole row vector. -/
theorem iblk2_5_apply (c : Dev nD) (t : Fin cfg2.N) (cc : Fin 512) :
    (iblk2 V c 5 t : Vec Ideal S512 .f32) (ix1 cc) = (V c main_arg15 : S512.Idx → EReal) (ix1 cc) := by
  obtain ⟨-, -, -, -, -, e2, e3, e4, e5, e6, -⟩ := idx_facts2 t
  unfold iblk2
  rw [View.read_apply]
  show V c main_arg15 _ = V c main_arg15 _
  refine congrArg _ (funext fun a => Fin.ext ?_)
  match a with
  | ⟨0, _⟩ => show win2_5.index t (0 : Fin 1) * 512 + 1 * cc.val = cc.val; omega

/-- Window 6's block at every point is the whole row vector. -/
theorem iblk2_6_apply (c : Dev nD) (t : Fin cfg2.N) (cc : Fin 512) :
    (iblk2 V c 6 t : Vec Ideal S512 .f32) (ix1 cc) = (V c main_arg16 : S512.Idx → EReal) (ix1 cc) := by
  obtain ⟨-, -, -, -, -, e2, e3, e4, e5, e6, -⟩ := idx_facts2 t
  unfold iblk2
  rw [View.read_apply]
  show V c main_arg16 _ = V c main_arg16 _
  refine congrArg _ (funext fun a => Fin.ext ?_)
  match a with
  | ⟨0, _⟩ => show win2_6.index t (0 : Fin 1) * 512 + 1 * cc.val = cc.val; omega

/-! ## What a point writes back, and the whole array -/

/-- What point t writes back is block t of `Cert.Spec.outp` of the seven arrays the region was entered with. -/
theorem flushed2_eq (c : Dev nD) (t : Fin cfg2.N) :
    (dat2 V c).flushed 7 t
      = ((cfg2.win 7).blk t).view.read (Elt Ideal) (Cert.Spec.outp (V c main_v14) (V c main_arg11) (V c main_arg12)
          (V c main_arg13) (V c main_arg14) (V c main_arg15) (V c main_arg16)) := by
  have hN : cfg2.N = 64 := N_2
  have ht := t.isLt
  show (cfg2.win 7).cut (grid2.coords t) ((dat2 V c).after 7 t) = _
  rw [after2_7]
  unfold out2_7
  rw [View.canon_unit_zero hz3_2]
  simp only [View.ld_unit_zero (S := S1x2048x64) hz3_2, View.ld_unit_zero (S := S64x512) hz2_2,
    View.ld_unit_zero (S := S512) hz1_2]
  obtain ⟨-, -, -, -, -, -, -, -, -, -, e0, e1, e2⟩ := idx_facts2 t
  funext y
  show k2_pay1 (F := Ideal) (iblk2 V c 0 t) (iblk2 V c 1 t) (iblk2 V c 2 t) (iblk2 V c 3 t) (iblk2 V c 4 t)
      (iblk2 V c 5 t) (iblk2 V c 6 t) y
    = Cert.Spec.outp (V c main_v14) (V c main_arg11) (V c main_arg12) (V c main_arg13) (V c main_arg14)
        (V c main_arg15) (V c main_arg16) (((cfg2.win 7).blk t).view.emb y)
  have y0 : (y 0).val < 1 := (y 0).isLt
  have y1 : (y 1).val < 2048 := (y 1).isLt
  have y2 : (y 2).val < 512 := (y 2).isLt
  refine block2_apply (V c main_v14) (V c main_arg11) (V c main_arg12) (V c main_arg13) (V c main_arg14)
    (V c main_arg15) (V c main_arg16) (iblk2 V c 0 t) (iblk2 V c 1 t) (iblk2 V c 2 t) (iblk2 V c 3 t) (iblk2 V c 4 t)
    (iblk2 V c 5 t) (iblk2 V c 6 t) ⟨t.val / 8, by omega⟩ ⟨t.val % 8, by omega⟩
    (iblk2_0_apply V c t) (iblk2_1_apply V c t) (iblk2_2_apply V c t) (iblk2_3_apply V c t) (iblk2_4_apply V c t)
    (iblk2_5_apply V c t) (iblk2_6_apply V c t) y _ ?_ ?_ ?_
  · show win2_7.index t (0 : Fin 3) * 1 + 1 * (y 0).val = t.val / 8; omega
  · show win2_7.index t (1 : Fin 3) * 2048 + 1 * (y 1).val = t.val % 8 * 2048 + (y 1).val; omega
  · show win2_7.index t (2 : Fin 3) * 512 + 1 * (y 2).val = (y 2).val; omega

/-- An index of the result is in point t's block iff each coordinate is in the block's range on its axis. -/
theorem mem_blk2 (t : Fin cfg2.N) (i : S8x16384x512.Idx) :
    i ∈ ((cfg2.win 7).blk t).view.set ↔ ∀ a : Fin 3, win2_7.index t a * S1x2048x512.size a ≤ (i a).val
      ∧ (i a).val < win2_7.index t a * S1x2048x512.size a + S1x2048x512.size a := by
  show i ∈ ((View.whole main_v15).slice (win2_7.rect t)).set ↔ _
  rw [View.set_slice_whole, Rect.mem_set_unit]
  exact Iff.rfl

/-- Every index [b, n, c] of the result lies in the block of point 8·b + n / 2048. -/
theorem cover2 (i : S8x16384x512.Idx) :
    ∃ t : Fin cfg2.N, (cfg2.win 7).flush t = true ∧ i ∈ ((cfg2.win 7).blk t).view.set := by
  have hN : cfg2.N = 64 := N_2
  have h0 : (i 0).val < 8 := (i 0).isLt
  have h1 : (i 1).val < 16384 := (i 1).isLt
  have h2 : (i 2).val < 512 := (i 2).isLt
  obtain ⟨t, ht⟩ : ∃ t : Fin cfg2.N, t.val = (i 0).val * 8 + (i 1).val / 2048 := ⟨⟨_, by omega⟩, rfl⟩
  obtain ⟨-, -, -, -, -, -, -, -, -, -, e0, e1, e2⟩ := idx_facts2 t
  refine ⟨t, flush2_7 t, ?_⟩
  rw [mem_blk2]
  intro a
  match a with
  | ⟨0, _⟩ =>
    show win2_7.index t (0 : Fin 3) * 1 ≤ (i 0).val ∧ (i 0).val < win2_7.index t (0 : Fin 3) * 1 + 1
    omega
  | ⟨1, _⟩ =>
    show win2_7.index t (1 : Fin 3) * 2048 ≤ (i 1).val ∧ (i 1).val < win2_7.index t (1 : Fin 3) * 2048 + 2048
    omega
  | ⟨2, _⟩ =>
    show win2_7.index t (2 : Fin 3) * 512 ≤ (i 2).val ∧ (i 2).val < win2_7.index t (2 : Fin 3) * 512 + 512
    omega

/-- The region leaves its result array at `Cert.Spec.outp` of the seven arrays it was entered with:
    outp [b, n, c] = ((Σ_d a2 [b, n, d] · wp [d, c]) + bp [c] − mn [c]) · rsqrt (vr [c] + eps) · g [c] + bt [c],
    the operands in the order the region stages them: the relabelled attention array, the weight, the bias, the gain,
    the shift, the mean, the variance. -/
theorem final2 (c : Dev nD) :
    (dat2 (F := Ideal) V c).arrAt 7 cfg2.N
      = Cert.Spec.outp (V c main_v14) (V c main_arg11) (V c main_arg12) (V c main_arg13) (V c main_arg14)
          (V c main_arg15) (V c main_arg16) :=
  (dat2 V c).arrAt_eq_of_cover 7 (Cert.Spec.outp (V c main_v14) (V c main_arg11) (V c main_arg12) (V c main_arg13)
      (V c main_arg14) (V c main_arg15) (V c main_arg16))
    (fun t _ => flushed2_eq V c t) cover2

end Cert.KernelIdeal.HandV

end
-- ==== Proof.KI.Val0Blocks.lean ====
import proofs.«122752_j42167988912599_1_alg».proof.Proof.KI.Reg0
import proofs.«122752_j42167988912599_1_alg».proof.Proof.Spec
import Idealize.ShloMosaic.Lib.Pipeline.Value
import Idealize.ShloMosaic.Lib.ValueIdx
import Idealize.ShloMosaic.PureOps.Ideal.Laws

/-!
Region 0's input blocks, read at an index.

Region 0 runs over an 8 × 8 grid, row-major: point t is batch t / 8, row block t % 8. Its first window stages rows
(t % 8)·2048 … (t % 8)·2048 + 2047 of batch t / 8 of the [8, 16384, 512] array; its next ten windows stage the whole
of a parameter array at every point. The printed index maps are closed forms over the 64 points, decided once.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The printed index maps of the first window and of the two output windows over the 64 grid points: point
    t = 8·b + n reads block (b, n, 0), writes block (b, n, 0) of the first output and block (b, 0, 0) of the second. -/
theorem idx_facts0 : ∀ t : Fin cfg0.N,
    win0_0.index t (0 : Fin 3) = t.val / 8 ∧ win0_0.index t (1 : Fin 3) = t.val % 8 ∧ win0_0.index t (2 : Fin 3) = 0
    ∧ win0_11.index t (0 : Fin 3) = t.val / 8 ∧ win0_11.index t (1 : Fin 3) = t.val % 8 ∧ win0_11.index t (2 : Fin 3) = 0
    ∧ win0_12.index t (0 : Fin 3) = t.val / 8 ∧ win0_12.index t (1 : Fin 3) = 0 ∧ win0_12.index t (2 : Fin 3) = 0 :=
  (by decide +kernel : ∀ t : Fin grid0.N, _)

/-- The printed index maps of the ten parameter windows: block 0 on every axis, at every point. -/
theorem idx_facts0w : ∀ t : Fin cfg0.N,
    win0_1.index t (0 : Fin 1) = 0
    ∧ win0_2.index t (0 : Fin 1) = 0
    ∧ win0_3.index t (0 : Fin 1) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

variable (V : (c : Dev nD) → (b : Ref sig .tc) → Buf (Elt Ideal) ((c : Thread nD τ).loc b))

/-- The first window's block at point t is rows (t % 8)·2048 … (t % 8)·2048 + 2047 of batch t / 8 of its array. -/
theorem iblk0_0_apply (c : Dev nD) (t : Fin cfg0.N) (r : Fin 2048) (ch : Fin 512) :
    (iblk0 V c 0 t : Vec Ideal S1x2048x512 .f32) (ix3 (0 : Fin 1) r ch)
      = (V c main_v0 : S8x16384x512.Idx → EReal)
          (ix3 ⟨t.val / 8, by have := t.isLt; have hN : cfg0.N = 64 := N_0; omega⟩
            ⟨t.val % 8 * 2048 + r.val, by have := r.isLt; omega⟩ ch) := by
  obtain ⟨e0, e1, e2, -⟩ := idx_facts0 t
  unfold iblk0
  rw [View.read_apply]
  show V c main_v0 _ = V c main_v0 _
  refine congrArg _ (funext fun a => Fin.ext ?_)
  match a with
  | ⟨0, _⟩ => show win0_0.index t (0 : Fin 3) * 1 + 1 * 0 = t.val / 8; omega
  | ⟨1, _⟩ => show win0_0.index t (1 : Fin 3) * 2048 + 1 * r.val = t.val % 8 * 2048 + r.val; omega
  | ⟨2, _⟩ => show win0_0.index t (2 : Fin 3) * 512 + 1 * ch.val = ch.val; omega

/-- Window 1's block at any point is the whole of its array. -/
theorem iblk0_1_apply (c : Dev nD) (t : Fin cfg0.N) :
    (iblk0 V c 1 t : Vec Ideal S512 .f32) = (V c main_arg1 : S512.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg1 _ = V c main_arg1 _
  refine congrArg _ (funext fun a => Fin.ext ?_)
  match a with
  | ⟨0, _⟩ => show win0_1.index t (0 : Fin 1) * 512 + 1 * (y 0).val = (y 0).val; omega

/-- Window 2's block at any point is the whole of its array. -/
theorem iblk0_2_apply (c : Dev nD) (t : Fin cfg0.N) :
    (iblk0 V c 2 t : Vec Ideal S512 .f32) = (V c main_arg2 : S512.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg2 _ = V c main_arg2 _
  refine congrArg _ (funext fun a => Fin.ext ?_)
  match a with
  | ⟨0, _⟩ => show win0_2.index t (0 : Fin 1) * 512 + 1 * (y 0).val = (y 0).val; omega

/-- Window 3's block at any point is the whole of its array. -/
theorem iblk0_3_apply (c : Dev nD) (t : Fin cfg0.N) :
    (iblk0 V c 3 t : Vec Ideal S512 .f32) = (V c main_arg3 : S512.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg3 _ = V c main_arg3 _
  refine congrArg _ (funext fun a => Fin.ext ?_)
  match a with
  | ⟨0, _⟩ => show win0_3.index t (0 : Fin 1) * 512 + 1 * (y 0).val = (y 0).val; omega

/-- Window 4's block at any point is the whole of its array. -/
theorem iblk0_4_apply (c : Dev nD) (t : Fin cfg0.N) :
    (iblk0 V c 4 t : Vec Ideal S512 .f32) = (V c main_arg4 : S512.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg4 _ = V c main_arg4 _
  refine congrArg _ (funext fun a => Fin.ext ?_)
  match a with
  | ⟨0, _⟩ => show win0_4.index t (0 : Fin 1) * 512 + 1 * (y 0).val = (y 0).val; omega

/-- Window 5's block at any point is the whole of its array. -/
theorem iblk0_5_apply (c : Dev nD) (t : Fin cfg0.N) :
    (iblk0 V c 5 t : Vec Ideal S512x64 .f32) = (V c main_arg5 : S512x64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg5 _ = V c main_arg5 _
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 64 + 1 * (y 1).val = (y 1).val; omega

/-- Window 6's block at any point is the whole of its array. -/
theorem iblk0_6_apply (c : Dev nD) (t : Fin cfg0.N) :
    (iblk0 V c 6 t : Vec Ideal S64 .f32) = (V c main_arg6 : S64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg6 _ = V c main_arg6 _
  refine congrArg _ (funext fun a => Fin.ext ?_)
  match a with
  | ⟨0, _⟩ => show win0_6.index t (0 : Fin 1) * 64 + 1 * (y 0).val = (y 0).val; omega

/-- Window 7's block at any point is the whole of its array. -/
theorem iblk0_7_apply (c : Dev nD) (t : Fin cfg0.N) :
    (iblk0 V c 7 t : Vec Ideal S512x64 .f32) = (V c main_arg7 : S512x64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg7 _ = V c main_arg7 _
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 64 + 1 * (y 1).val = (y 1).val; omega

/-- Window 8's block at any point is the whole of its array. -/
theorem iblk0_8_apply (c : Dev nD) (t : Fin cfg0.N) :
    (iblk0 V c 8 t : Vec Ideal S64 .f32) = (V c main_arg8 : S64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg8 _ = V c main_arg8 _
  refine congrArg _ (funext fun a => Fin.ext ?_)
  match a with
  | ⟨0, _⟩ => show win0_8.index t (0 : Fin 1) * 64 + 1 * (y 0).val = (y 0).val; omega

/-- Window 9's block at any point is the whole of its array. -/
theorem iblk0_9_apply (c : Dev nD) (t : Fin cfg0.N) :
    (iblk0 V c 9 t : Vec Ideal S512x64 .f32) = (V c main_arg9 : S512x64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg9 _ = V c main_arg9 _
  refine congrArg _ (funext fun a => Fin.ext ?_)
  match a with
  | ⟨0, _⟩ => show win0_9.index t (0 : Fin 2) * 512 + 1 * (y 0).val = (y 0).val; omega
  | ⟨1, _⟩ => show win0_9.index t (1 : Fin 2) * 64 + 1 * (y 1).val = (y 1).val; omega

/-- Window 10's block at any point is the whole of its array. -/
theorem iblk0_10_apply (c : Dev nD) (t : Fin cfg0.N) :
    (iblk0 V c 10 t : Vec Ideal S64 .f32) = (V c main_arg10 : S64.Idx → EReal) := by
  obtain ⟨e1_0, e2_0, e3_0, e4_0, e5_0, e5_1, e6_0, e7_0, e7_1, e8_0, e9_0, e9_1, e10_0⟩ := idx_facts0w t
  funext y
  unfold iblk0
  rw [View.read_apply]
  show V c main_arg10 _ = V c main_arg10 _
  refine congrArg _ (funext fun a => Fin.ext ?_)
  match a with
  | ⟨0, _⟩ => show win0_10.index t (0 : Fin 1) * 64 + 1 * (y 0).val = (y 0).val; omega

end Cert.KernelIdeal.HandV

end
-- ==== Proof.KI.Val0Pieces.lean ====
import proofs.«122752_j42167988912599_1_alg».proof.Proof.KI.Reg0
import Idealize.ShloMosaic.Lib.Pipeline.Value
import Idealize.ShloMosaic.Lib.ValueIdx
import Idealize.ShloMosaic.Lib.ValueLayout
set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 0: what each case of the body leaves, as the body's pure payloads of the blocks it loads

Every load and store of the body is of a whole buffer, so a load reads the buffer's contents and a store leaves its
payload; the lemmas below say which payload each of the three written buffers (the two outputs' and the scratch)
ends with, in each of the two cases (first point of a row, where the scratch is zeroed first; any other point). -/

variable {F : FTy → Type} [FloatOps F]

theorem hz1_0p : (![0] : Fin 1 → Nat) = fun _ => 0 := funext fun a => by fin_cases a <;> rfl
theorem hz2_0p : (![0, 0] : Fin 2 → Nat) = fun _ => 0 := funext fun a => by fin_cases a <;> rfl
theorem hz3_0p : (![0, 0, 0] : Fin 3 → Nat) = fun _ => 0 := funext fun a => by fin_cases a <;> rfl

/-- A load of the whole buffer after stores the last of which wrote the whole buffer reads that last payload. -/
theorem readCov_cons_unit_zero_0p {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- At the first point of a row the scratch ends at the block's Gram product (of the q block with the k block plus its bias) added to zero. -/
theorem sout0_A_0_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay2 (k0_pay7 x0 x1 x2 x3 x4 x5 x6) (k0_pay8 x0 x1 x2 x3 x4 x7) x8 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_cons_unit_zero hz2_0p, View.readCov_unit_zero _ hz2_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

/-- At any other point the scratch ends at the block's Gram product added to what it held. -/
theorem sout0_B_0_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay2 (k0_pay7 x0 x1 x2 x3 x4 x5 x6) (k0_pay8 x0 x1 x2 x3 x4 x7) x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz2_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

/-- The second output's buffer ends at the scratch's final contents, recast to [1, 64, 64] (first point of a row). -/
theorem out0_A_12_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay3 (sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [sout0_A_0_eq, View.canon_unit_zero (S := S1x64x64) hz3_0p, readCov_cons_unit_zero_0p _ hz2_0p, View.readCov_unit_zero _ hz2_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

/-- The second output's buffer ends at the scratch's final contents, recast to [1, 64, 64] (other points). -/
theorem out0_B_12_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay3 (sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [sout0_B_0_eq, View.canon_unit_zero (S := S1x64x64) hz3_0p, View.readCov_unit_zero _ hz2_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

/-- The first output's buffer ends at the v block: the normalised block times the v weights plus the v bias (first point of a row). -/
theorem out0_A_11_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay1 (k0_pay5 x0 x1 x2 x3 x4) (k0_pay6 x9) x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero (S := S1x2048x64) hz3_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

/-- The first output's buffer ends at the v block, whatever the scratch held (other points). -/
theorem out0_B_11_eq (c : Dev nD) (i : grid0.Coords) (arg2 : Memref sig .tc .vmem S1x2048x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S64 .f32) (harg10 : arg10.IsWhole) (arg11 : Memref sig .tc .vmem S512x64 .f32) (harg11 : arg11.IsWhole) (arg12 : Memref sig .tc .vmem S64 .f32) (harg12 : arg12.IsWhole) (arg13 : Memref sig .tc .vmem S1x2048x64 .bf16) (harg13 : arg13.IsWhole) (arg14 : Memref sig .tc .vmem S1x64x64 .f32) (harg14 : arg14.IsWhole) (arg15 : Memref sig .tc .vmem S64x64 .f32) (harg15 : arg15.IsWhole) (hc0 : ¬cond0_0 i)
    (x0 : Vec F S1x2048x512 .f32) (x1 : Vec F S512 .f32) (x2 : Vec F S512 .f32) (x3 : Vec F S512 .f32) (x4 : Vec F S512 .f32) (x5 : Vec F S512x64 .f32) (x6 : Vec F S64 .f32) (x7 : Vec F S512x64 .f32) (x8 : Vec F S64 .f32) (x9 : Vec F S512x64 .f32) (x10 : Vec F S64 .f32) (xs0 : Vec F S64x64 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay1 (k0_pay5 x0 x1 x2 x3 x4) (k0_pay6 x9) x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero (S := S1x2048x64) hz3_0p]
  simp only [View.readAt_eq_ld, harg2.read_unread, harg3.read_unread, harg4.read_unread, harg5.read_unread, harg6.read_unread, harg7.read_unread, harg8.read_unread, harg9.read_unread, harg10.read_unread, harg11.read_unread, harg12.read_unread, harg15.read_unread, View.ld_unit_zero (S := S1x2048x512) hz3_0p, View.ld_unit_zero (S := S512) hz1_0p, View.ld_unit_zero (S := S512x64) hz2_0p, View.ld_unit_zero (S := S64) hz1_0p, View.ld_unit_zero (S := S64x64) hz2_0p, View.ld_unit_zero (S := S1x64x64) hz3_0p, View.ld_unit_zero (S := S1x2048x64) hz3_0p]

end Cert.KernelIdeal.HandV

end
-- ==== Proof.KI.Val0Pay.lean ====
import proofs.«122752_j42167988912599_1_alg».proof.Proof.Gen.KernelIdeal.Skeleton
import proofs.«122752_j42167988912599_1_alg».proof.Proof.Spec
import proofs.«122752_j42167988912599_1_alg».proof.Proof.LibMatmulZero
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandV

open Cert.KernelIdeal Cert.KernelIdeal.Gen
open Idealize.ShloMosaic Idealize.ShloMosaic.ValueIdx
open scoped BigOperators

/-! # Region 0's payloads read at an index, at the ideal values

The normalised block, and the three projections of it (q with its bias, k without, v with its bias), each at an
entry given by its coordinates. Roundings to bf16 are the identity on extended reals; a product into the zero
accumulator is the plain sum over the contracted axis. -/

/-- A [512] vector recast to [1, 512] and broadcast over 2048 rows reads, at (r, ch), the vector at ch. -/
theorem rowBcast512_0p {α : Type} (v : S512.Idx → α) (r : Fin 2048) (ch : Fin 512) :
    broadcastTo S2048x512 (shapeCast S1x512 v shapeCasts_S512_S1x512) broadcasts_S1x512_S2048x512 (ix2 r ch) = v (ix1 ch) :=
  (broadcastTo_1b_ab_apply _ _ r ch).trans (shapeCast_a_1a_apply v _ 0 ch)

/-- A [64] vector recast to [1, 64] and broadcast over 2048 rows reads, at (r, d), the vector at d. -/
theorem rowBcast64_0p {α : Type} (v : S64.Idx → α) (r : Fin 2048) (d : Fin 64) :
    broadcastTo S2048x64 (shapeCast S1x64 v shapeCasts_S64_S1x64) broadcasts_S1x64_S2048x64 (ix2 r d) = v (ix1 d) :=
  (broadcastTo_1b_ab_apply _ _ r d).trans (shapeCast_a_1a_apply v _ 0 d)

/-- The [2048, 512] × [512, 64] product into the zero accumulator at entry (r, d): Σ_ch l(r, ch) · w(ch, d). -/
theorem matmulZero_0p (l : FVec Ideal S2048x512 .bf16) (w : FVec Ideal S512x64 .bf16) (r : Fin 2048) (d : Fin 64) :
    matmul dot_S2048x512_S512x64_S2048x64_1_0_0_1_n_n none l w (constant S2048x64 .f32 0x00000000#32) (ix2 r d)
      = ∑ ch : Fin 512, l (ix2 r ch) * w (ix2 ch d) :=
  Cert.LibMatmulZero.matmul_zero_ix2 dot_S2048x512_S512x64_S2048x64_1_0_0_1_n_n rfl rfl rfl rfl
    (fun i c => by
      unfold DotDims.lhsIdx
      rw [dif_neg (show ¬(0 : Fin _) ∈ dot_S2048x512_S512x64_S2048x64_1_0_0_1_n_n.lhsBatch by decide),
        dif_pos (show (0 : Fin _) ∈ dot_S2048x512_S512x64_S2048x64_1_0_0_1_n_n.lhsNonContracting by decide)]
      rfl)
    (fun i c => by
      unfold DotDims.rhsIdx
      rw [dif_neg (show ¬(1 : Fin _) ∈ dot_S2048x512_S512x64_S2048x64_1_0_0_1_n_n.rhsBatch by decide),
        dif_pos (show (1 : Fin _) ∈ dot_S2048x512_S512x64_S2048x64_1_0_0_1_n_n.rhsNonContracting by decide)]
      rfl)
    none l w r d

/-- The normalised block at (r, ch): (x − mean) · rsqrt (var + eps) · gamma + beta, channel ch. -/
theorem k0pay5_apply (x0 : Vec Ideal S1x2048x512 .f32) (x1 x2 x3 x4 : Vec Ideal S512 .f32) (r : Fin 2048) (ch : Fin 512) :
    k0_pay5 x0 x1 x2 x3 x4 (ix2 r ch)
      = (x0 (ix3 (0 : Fin 1) r ch) - x3 (ix1 ch)) * Ideal.rsqrt (x4 (ix1 ch) + Cert.Spec.eps) * x1 (ix1 ch) + x2 (ix1 ch) := by
  unfold k0_pay5
  rw [truncf_apply, addf_apply, mulf_apply, mulf_apply, subf_apply, rowBcast512_0p, rowBcast512_0p, rowBcast512_0p,
    rowBcast512_0p, shapeCast_1ab_ab_apply]
  rfl

/-- The q block at (r, d): the normalised block's row r against column d of the q weights, plus the q bias. -/
theorem k0pay7_apply (x0 : Vec Ideal S1x2048x512 .f32) (x1 x2 x3 x4 : Vec Ideal S512 .f32) (x5 : Vec Ideal S512x64 .f32)
    (x6 : Vec Ideal S64 .f32) (r : Fin 2048) (d : Fin 64) :
    k0_pay7 x0 x1 x2 x3 x4 x5 x6 (ix2 r d)
      = (∑ ch : Fin 512, k0_pay5 x0 x1 x2 x3 x4 (ix2 r ch) * x5 (ix2 ch d)) + x6 (ix1 d) := by
  unfold k0_pay7
  rw [addf_apply, rowBcast64_0p]
  exact congrArg (· + x6 (ix1 d)) (matmulZero_0p _ _ r d)

/-- The k block (before its bias) at (r, d): the normalised block's row r against column d of the k weights. -/
theorem k0pay8_apply (x0 : Vec Ideal S1x2048x512 .f32) (x1 x2 x3 x4 : Vec Ideal S512 .f32) (x7 : Vec Ideal S512x64 .f32)
    (r : Fin 2048) (d : Fin 64) :
    k0_pay8 x0 x1 x2 x3 x4 x7 (ix2 r d) = ∑ ch : Fin 512, k0_pay5 x0 x1 x2 x3 x4 (ix2 r ch) * x7 (ix2 ch d) := by
  unfold k0_pay8
  exact matmulZero_0p _ _ r d

/-- The v block at (0, r, d): the normalised block's row r against column d of the v weights, plus the v bias. -/
theorem k0pay1_apply (x0 : Vec Ideal S1x2048x512 .f32) (x1 x2 x3 x4 : Vec Ideal S512 .f32) (x9 : Vec Ideal S512x64 .f32)
    (x10 : Vec Ideal S64 .f32) (r : Fin 2048) (d : Fin 64) :
    k0_pay1 (k0_pay5 x0 x1 x2 x3 x4) (k0_pay6 x9) x10 (ix3 (0 : Fin 1) r d)
      = (∑ ch : Fin 512, k0_pay5 x0 x1 x2 x3 x4 (ix2 r ch) * x9 (ix2 ch d)) + x10 (ix1 d) := by
  unfold k0_pay1
  rw [shapeCast_ab_1ab_apply, truncf_apply, addf_apply, rowBcast64_0p]
  exact congrArg (· + x10 (ix1 d)) (matmulZero_0p _ _ r d)

end Cert.KernelIdeal.HandV

end
-- ==== Proof.KI.Val0V.lean ====
import proofs.«122752_j42167988912599_1_alg».proof.Proof.KI.Val0Blocks
import proofs.«122752_j42167988912599_1_alg».proof.Proof.KI.Val0Pieces
import proofs.«122752_j42167988912599_1_alg».proof.Proof.KI.Val0Pay
import proofs.«122752_j42167988912599_1_alg».proof.Proof.Spec
import Idealize.ShloMosaic.Lib.Pipeline.Value
import Idealize.ShloMosaic.Lib.ValueIdx
import Idealize.ShloMosaic.PureOps.Ideal.Laws

/-!
Region 0's first output, read as one function.

Region 0 runs over an 8 × 8 grid; at point (b, n) its body normalises the 2048 × 512 block (b, n) of the activations
channel by channel, multiplies it with the 512 × 64 weights and adds the bias, and stores the 2048 × 64 result as
block (b, n, 0) of the [8, 16384, 64] array, at every point. Entry (r, d) of that block is entry
[b, n·2048 + r, d] of `Cert.Spec.proj` of `Cert.Spec.img`; the 64 blocks tile the array, so the region leaves the
whole array at that function of the arrays it was entered with.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## What a point leaves in the first output's buffer -/

/-- At every point, first of its row or not, the first output's buffer ends at the body's payload of the blocks
    the point loads. -/
theorem after0v_eq (c : Dev nD) (t : Fin cfg0.N) :
    ((dat0 V c).after 11 t : Vec Ideal S1x2048x64 .bf16) = k0_pay1 (F := Ideal) (k0_pay5 (iblk0 V c 0 t : Vec Ideal S1x2048x512 .f32) (iblk0 V c 1 t : Vec Ideal S512 .f32) (iblk0 V c 2 t : Vec Ideal S512 .f32) (iblk0 V c 3 t : Vec Ideal S512 .f32) (iblk0 V c 4 t : Vec Ideal S512 .f32)) (k0_pay6 (iblk0 V c 9 t : Vec Ideal S512x64 .f32)) (iblk0 V c 10 t : Vec Ideal S64 .f32) := by
  rw [after0_11]
  by_cases h0 : t.val % 8 = 0
  · rw [outsAt0_A V c t h0]
    dsimp only
    rw [out0_A_11_eq]
  · rw [outsAt0_B V c t h0]
    dsimp only
    rw [out0_B_11_eq]

/-! ## A block of the payload is a block of the projection of the normalised image -/

/-- The stored block at grid point (b, n), entry y, is `Cert.Spec.proj (Cert.Spec.img …)` at [b, n·2048 + y 1, y 2],
    when the first loaded block is rows n·2048 … n·2048 + 2047 of batch b of the activations, the others the whole
    parameter arrays, and the payload at an entry is the sum over the channels of the normalised entry times the
    weight, plus the bias. -/
theorem block0v_apply (xx : Cert.Spec.I3 8 16384 512 → EReal) (g bt mn vr : Cert.Spec.I1 512 → EReal)
    (w : Cert.Spec.I2 512 64 → EReal) (bias : Cert.Spec.I1 64 → EReal)
    (x0 : Vec Ideal S1x2048x512 .f32) (x1 x2 x3 x4 : Vec Ideal S512 .f32) (x9 : Vec Ideal S512x64 .f32)
    (x10 : Vec Ideal S64 .f32) (b n : Fin 8)
    (h0 : ∀ (r : Fin 2048) (ch : Fin 512), x0 (ix3 (0 : Fin 1) r ch) = xx (ix3 b ⟨n.val * 2048 + r.val, by omega⟩ ch))
    (h1 : x1 = g) (h2 : x2 = bt) (h3 : x3 = mn) (h4 : x4 = vr) (h9 : x9 = w) (h10 : x10 = bias)
    (hp : ∀ (r : Fin 2048) (d : Fin 64), k0_pay1 (F := Ideal) (k0_pay5 x0 x1 x2 x3 x4) (k0_pay6 x9) x10 (ix3 (0 : Fin 1) r d)
      = (∑ ch : Fin 512, ((x0 (ix3 (0 : Fin 1) r ch) - x3 (ix1 ch)) * Ideal.rsqrt (x4 (ix1 ch) + Cert.Spec.eps) * x1 (ix1 ch)
          + x2 (ix1 ch)) * x9 (ix2 ch d)) + x10 (ix1 d))
    (y : S1x2048x64.Idx) (k : Cert.Spec.I3 8 16384 64)
    (hk0 : (k 0).val = b.val) (hk1 : (k 1).val = n.val * 2048 + (y 1).val) (hk2 : (k 2).val = (y 2).val) :
    k0_pay1 (F := Ideal) (k0_pay5 x0 x1 x2 x3 x4) (k0_pay6 x9) x10 y = Cert.Spec.proj (Cert.Spec.img xx g bt mn vr) w bias k := by
  obtain ⟨y0, r, d, rfl⟩ : ∃ (y0 : Fin 1) (r : Fin 2048) (d : Fin 64), y = ix3 y0 r d := ⟨y 0, y 1, y 2, eq_ix3 y⟩
  obtain rfl : y0 = 0 := Subsingleton.elim _ _
  have hb : n.val * 2048 + r.val < 16384 := by have := n.isLt; have := r.isLt; omega
  obtain ⟨kb, kn, kd, rfl⟩ : ∃ (kb : Fin 8) (kn : Fin 16384) (kd : Fin 64), k = ix3 kb kn kd := ⟨k 0, k 1, k 2, eq_ix3 k⟩
  obtain rfl : kb = b := Fin.ext hk0
  obtain rfl : kn = ⟨n.val * 2048 + r.val, hb⟩ := Fin.ext hk1
  obtain rfl : d = kd := Fin.ext hk2.symm
  subst h1 h2 h3 h4 h9 h10
  rw [hp, Cert.Spec.proj_apply]
  refine congrArg (· + x10 (ix1 d)) (Finset.sum_congr rfl fun ch _ => ?_)
  rw [Cert.Spec.img_apply, h0]

/-! ## What a point writes back, and the whole array -/

/-- What point t writes back is block t of the projection of the normalised image of the arrays the region was
    entered with. -/
theorem flushed0v_eq (c : Dev nD) (t : Fin cfg0.N) :
    (dat0 V c).flushed 11 t
      = ((cfg0.win 11).blk t).view.read (Elt Ideal) (Cert.Spec.proj (Cert.Spec.img (V c main_v0) (V c main_arg1) (V c main_arg2) (V c main_arg3) (V c main_arg4)) (V c main_arg9) (V c main_arg10)) := by
  have hN : cfg0.N = 64 := N_0
  have ht := t.isLt
  show (cfg0.win 11).cut (grid0.coords t) ((dat0 V c).after 11 t) = _
  rw [after0v_eq]
  obtain ⟨-, -, -, e0, e1, e2, -⟩ := idx_facts0 t
  funext y
  show k0_pay1 (F := Ideal) (k0_pay5 (iblk0 V c 0 t) (iblk0 V c 1 t) (iblk0 V c 2 t) (iblk0 V c 3 t) (iblk0 V c 4 t)) (k0_pay6 (iblk0 V c 9 t)) (iblk0 V c 10 t) y
    = Cert.Spec.proj (Cert.Spec.img (V c main_v0) (V c main_arg1) (V c main_arg2) (V c main_arg3) (V c main_arg4)) (V c main_arg9) (V c main_arg10) (((cfg0.win 11).blk t).view.emb y)
  have y0 : (y 0).val < 1 := (y 0).isLt
  have y1 : (y 1).val < 2048 := (y 1).isLt
  have y2 : (y 2).val < 64 := (y 2).isLt
  refine block0v_apply (V c main_v0) (V c main_arg1) (V c main_arg2) (V c main_arg3) (V c main_arg4) (V c main_arg9) (V c main_arg10)
    (iblk0 V c 0 t) (iblk0 V c 1 t) (iblk0 V c 2 t) (iblk0 V c 3 t) (iblk0 V c 4 t) (iblk0 V c 9 t) (iblk0 V c 10 t)
    ⟨t.val / 8, by omega⟩ ⟨t.val % 8, by omega⟩ (iblk0_0_apply V c t) (iblk0_1_apply V c t) (iblk0_2_apply V c t)
    (iblk0_3_apply V c t) (iblk0_4_apply V c t) (iblk0_9_apply V c t) (iblk0_10_apply V c t)
    (fun r d => by rw [k0pay1_apply]; simp only [k0pay5_apply]) y _ ?_ ?_ ?_
  · show win0_11.index t (0 : Fin 3) * 1 + 1 * (y 0).val = t.val / 8; omega
  · show win0_11.index t (1 : Fin 3) * 2048 + 1 * (y 1).val = t.val % 8 * 2048 + (y 1).val; omega
  · show win0_11.index t (2 : Fin 3) * 64 + 1 * (y 2).val = (y 2).val; omega

/-- An index of the first output is in point t's block iff each coordinate is in the block's range on its axis. -/
theorem mem_blk0v (t : Fin cfg0.N) (i : S8x16384x64.Idx) :
    i ∈ ((cfg0.win 11).blk t).view.set ↔ ∀ a : Fin 3, win0_11.index t a * S1x2048x64.size a ≤ (i a).val
      ∧ (i a).val < win0_11.index t a * S1x2048x64.size a + S1x2048x64.size a := by
  show i ∈ ((View.whole main_v1_0).slice (win0_11.rect t)).set ↔ _
  rw [View.set_slice_whole, Rect.mem_set_unit]
  exact Iff.rfl

/-- Every index [b, n, d] of the first output lies in the block of point 8·b + n / 2048, which is written back. -/
theorem cover0v (i : S8x16384x64.Idx) :
    ∃ t : Fin cfg0.N, (cfg0.win 11).flush t = true ∧ i ∈ ((cfg0.win 11).blk t).view.set := by
  have hN : cfg0.N = 64 := N_0
  have h0 : (i 0).val < 8 := (i 0).isLt
  have h1 : (i 1).val < 16384 := (i 1).isLt
  have h2 : (i 2).val < 64 := (i 2).isLt
  obtain ⟨t, ht⟩ : ∃ t : Fin cfg0.N, t.val = (i 0).val * 8 + (i 1).val / 2048 := ⟨⟨_, by omega⟩, rfl⟩
  obtain ⟨-, -, -, e0, e1, e2, -⟩ := idx_facts0 t
  refine ⟨t, flush0_11 t, ?_⟩
  rw [mem_blk0v]
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 2048 ≤ (i 1).val ∧ (i 1).val < win0_11.index t (1 : Fin 3) * 2048 + 2048
    omega
  | ⟨2, _⟩ =>
    show win0_11.index t (2 : Fin 3) * 64 ≤ (i 2).val ∧ (i 2).val < win0_11.index t (2 : Fin 3) * 64 + 64
    omega

/-- The region leaves its first output at the projection (weights of the ninth window, bias of the tenth) of the
    normalised image of the arrays it was entered with:
    [b, n, d] ↦ (Σ_ch ((x [b, n, ch] − mean [ch]) · rsqrt (var [ch] + eps) · gamma [ch] + beta [ch]) · w [ch, d]) + bias [d]. -/
theorem final0_11 (c : Dev nD) :
    (dat0 (F := Ideal) V c).arrAt 11 cfg0.N = Cert.Spec.proj (Cert.Spec.img (V c main_v0) (V c main_arg1) (V c main_arg2) (V c main_arg3) (V c main_arg4)) (V c main_arg9) (V c main_arg10) :=
  (dat0 V c).arrAt_eq_of_cover 11 (Cert.Spec.proj (Cert.Spec.img (V c main_v0) (V c main_arg1) (V c main_arg2) (V c main_arg3) (V c main_arg4)) (V c main_arg9) (V c main_arg10))
    (fun t _ => flushed0v_eq V c t) cover0v

end Cert.KernelIdeal.HandV

end
-- ==== Proof.LibMatmulTT.lean ====
/-
  A matrix product with BOTH operands read along their first axis, into the zero accumulator, read at one entry, at
  the ideal values.

  For ANY dimension numbers of a [K, R] × [K, C] → [R, C] product that contract the left operand's axis 0 with the
  right operand's axis 0 (one contracted axis, of extent K) and carry the left's axis 1 to the result's axis 0 and the
  right's axis 1 to the result's axis 1, any operand formats and any precision attribute: at the ideal values,
  `matmul` with the all-zero f32 accumulator has, at entry (p, q), the value
      Σ_{k < K} l(k, p) · r(k, q),
  the Gram product of the two operands' columns. The sum over the contraction shape's one-axis index type is
  re-indexed over `Fin K`, and the operand indices the dimension numbers read at result entry (p, q) and contracted
  position k are (k, p) and (k, q).

  The two hypotheses `hl1` and `hr1` say that the result's axis 0 is the left operand's axis 1 and the result's
  axis 1 the right operand's axis 1; for a printed record with no batch axes each is an unfolding of the record's
  index function on the literal axis lists. `hlc`, `hrc`, `hr`, `hs` are `rfl`. Imports only the library.
-/
import Idealize.ShloMosaic.PureOps.Ideal.Laws
import Idealize.ShloMosaic.Lib.ValueIdx

noncomputable section

namespace Cert.LibMatmulTT

open Idealize.ShloMosaic Idealize.ShloMosaic.ValueIdx

/-- `matmul D prec l r 0 (p, q) = Σ_k l(k, p) · r(k, q)` at the ideal values, for two-dimensional operands with one
    contracted axis: axis 0 of the left operand against axis 0 of the right. -/
theorem matmul_zero_tt_ix2 {R K C : Nat} {φ₁ φ₂ : FTy} (D : DotDims ⟨2, ![K, R]⟩ ⟨2, ![K, C]⟩ ⟨2, ![R, C]⟩)
    (hlc : D.lhsContracting = [0]) (hrc : D.rhsContracting = [0]) (hr : D.contr.rank = 1)
    (hs : D.contr.size ⟨0, by omega⟩ = K)
    (hl1 : ∀ (i : (⟨2, ![R, C]⟩ : Shape).Idx) (c : D.contr.Idx), (D.lhsIdx i c 1).val = (i 0).val)
    (hr1 : ∀ (i : (⟨2, ![R, C]⟩ : Shape).Idx) (c : D.contr.Idx), (D.rhsIdx i c 1).val = (i 1).val)
    (prec : Option ContractPrecision)
    (l : FVec Ideal ⟨2, ![K, R]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 k p) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p :=
    funext fun a => Fin.ext (by
      match a with
      | ⟨0, _⟩ => exact (D.lhsIdx_val_of_single hlc _ _).trans hk
      | ⟨1, _⟩ => exact hl1 _ _)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulTT

end
-- ==== Proof.LibSumBlocks.lean ====
/-
  A sum over 16384 positions taken block by block: eight blocks of 2048 consecutive positions.

  Over any commutative additive monoid (the extended reals among them) the sum of f over the 16384 positions is the
  sum over the eight blocks of the sums inside each block; and the running total of the first blocks, taken one block
  at a time, reaches the whole sum after the eighth. No finiteness is needed: only commutativity and associativity of
  the addition. Imports only the library.
-/
import Idealize.ShloMosaic.PureOps.Ideal

noncomputable section

namespace Cert.LibSumBlocks

open scoped BigOperators

/-- Position p·2048 + r of block p, offset r. -/
def blockEquiv : Fin 8 × Fin 2048 ≃ Fin 16384 where
  toFun pr := ⟨pr.1.val * 2048 + pr.2.val, by omega⟩
  invFun n := (⟨n.val / 2048, by omega⟩, ⟨n.val % 2048, by omega⟩)
  left_inv := by
    rintro ⟨p, r⟩
    refine Prod.ext (Fin.ext ?_) (Fin.ext ?_)
    · show (p.val * 2048 + r.val) / 2048 = p.val
      omega
    · show (p.val * 2048 + r.val) % 2048 = r.val
      omega
  right_inv := by
    intro n
    refine Fin.ext ?_
    show n.val / 2048 * 2048 + n.val % 2048 = n.val
    omega

/-- The sum over all positions is the sum over the blocks of the sums inside the blocks. -/
theorem sum_blocks {M : Type} [AddCommMonoid M] (f : Fin 16384 → M) :
    ∑ n : Fin 16384, f n = ∑ p : Fin 8, ∑ r : Fin 2048, f ⟨p.val * 2048 + r.val, by omega⟩ := by
  rw [← blockEquiv.sum_comp f, Fintype.sum_prod_type]
  rfl

/-- The sum of f inside block p, for p a natural number; zero past the eighth block. -/
def blk {M : Type} [AddCommMonoid M] (f : Fin 16384 → M) (p : ℕ) : M :=
  if hp : p < 8 then ∑ r : Fin 2048, f ⟨p * 2048 + r.val, by omega⟩ else 0

theorem blk_of_lt {M : Type} [AddCommMonoid M] (f : Fin 16384 → M) {p : ℕ} (hp : p < 8) :
    blk f p = ∑ r : Fin 2048, f ⟨p * 2048 + r.val, by omega⟩ := dif_pos hp

/-- After the eighth block the running total is the whole sum. -/
theorem sum_range_blk {M : Type} [AddCommMonoid M] (f : Fin 16384 → M) :
    ∑ p ∈ Finset.range 8, blk f p = ∑ n : Fin 16384, f n := by
  rw [Finset.sum_range, sum_blocks]
  exact Finset.sum_congr rfl fun p _ => dif_pos p.isLt

end Cert.LibSumBlocks

end
-- ==== Proof.KI.Val0SPay.lean ====
import proofs.«122752_j42167988912599_1_alg».proof.Proof.KI.Reg0
import proofs.«122752_j42167988912599_1_alg».proof.Proof.Spec
import proofs.«122752_j42167988912599_1_alg».proof.Proof.LibMatmulTT
import Idealize.ShloMosaic.Lib.Pipeline.Value
import Idealize.ShloMosaic.Lib.ValueIdx
import Idealize.ShloMosaic.PureOps.Ideal.Laws

/-!
The accumulator of the first kernel, at an entry, over the extended reals.

The body keeps a 64 × 64 accumulator: at every point it adds to it the Gram product of the block's query columns with
the block's key columns (the key bias added to every row first), copies it out as a [1, 64, 64] block, and at the
first point of a row starts it from zero. Entry (i, j) of the update is the old entry plus
Σ_r q[r, i] · (k[r, j] + bk[j]) over the block's 2048 rows.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The accumulator's update, its copy and its reset, at an entry -/

/-- Entry (i, j) of the updated accumulator: the old entry plus the Gram product of column i of the first operand with
    column j of the second operand, the second with its bias added to every row. -/
theorem k0pay2_apply (p7 p8 : FVec Ideal S2048x64 .f32) (x8 : Vec Ideal S64 .f32) (s : Vec Ideal S64x64 .f32) (i j : Fin 64) :
    k0_pay2 (F := Ideal) p7 p8 x8 s (ix2 i j)
      = s (ix2 i j) + ∑ r : Fin 2048, p7 (ix2 r i) * (p8 (ix2 r j) + x8 (ix1 j)) := by
  unfold k0_pay2
  rw [shapeCast_self]
  show s (ix2 i j) + matmul (F := Ideal) dot_S2048x64_S2048x64_S64x64_0_0_1_1_n_n none _ _ (constant (F := Ideal) S64x64 .f32 0x00000000#32) (ix2 i j) = _
  refine congrArg (fun z : EReal => s (ix2 i j) + z) ?_
  refine (Cert.LibMatmulTT.matmul_zero_tt_ix2 dot_S2048x64_S2048x64_S64x64_0_0_1_1_n_n rfl rfl rfl rfl
    (fun i c => by
      unfold DotDims.lhsIdx
      rw [dif_neg (show ¬(1 : Fin _) ∈ dot_S2048x64_S2048x64_S64x64_0_0_1_1_n_n.lhsBatch by decide),
        dif_pos (show (1 : Fin _) ∈ dot_S2048x64_S2048x64_S64x64_0_0_1_1_n_n.lhsNonContracting by decide)]
      rfl)
    (fun i c => by
      unfold DotDims.rhsIdx
      rw [dif_neg (show ¬(1 : Fin _) ∈ dot_S2048x64_S2048x64_S64x64_0_0_1_1_n_n.rhsBatch by decide),
        dif_pos (show (1 : Fin _) ∈ dot_S2048x64_S2048x64_S64x64_0_0_1_1_n_n.rhsNonContracting by decide)]
      rfl)
    none _ _ i j).trans ?_
  refine Finset.sum_congr rfl fun r _ => ?_
  show p7 (ix2 r i) * (p8 (ix2 r j) + broadcastTo S2048x64 (shapeCast S1x64 x8 shapeCasts_S64_S1x64) broadcasts_S1x64_S2048x64 (ix2 r j)) = _
  refine congrArg (fun z : EReal => p7 (ix2 r i) * (p8 (ix2 r j) + z)) ?_
  refine (broadcastTo_apply _ broadcasts_S1x64_S2048x64 (ix2 r j) (ix2 (0 : Fin 1) j) (fun a => ?_)).trans ?_
  · match a with
    | ⟨0, _⟩ => rfl
    | ⟨1, _⟩ => rfl
  · refine shapeCast_apply x8 _ (ix2 (0 : Fin 1) j) (ix1 j) ?_
    rw [Shape.rowMajor_val_one, Shape.rowMajor_val_two]
    show j.val = 0 * 64 + j.val
    omega

/-- The accumulator read as a [1, 64, 64] block. -/
theorem k0pay3_apply (s : Vec Ideal S64x64 .f32) (i j : Fin 64) :
    k0_pay3 (F := Ideal) s (ix3 (0 : Fin 1) i j) = s (ix2 i j) := by
  unfold k0_pay3
  refine shapeCast_apply s _ (ix3 (0 : Fin 1) i j) (ix2 i j) ?_
  rw [Shape.rowMajor_val_two, Shape.rowMajor_val_three]
  show i.val * 64 + j.val = (0 * 64 + i.val) * 64 + j.val
  omega

/-- The reset value is zero everywhere. -/
theorem k0pay4_apply (i j : Fin 64) : k0_pay4 (F := Ideal) (ix2 i j) = 0 := by
  unfold k0_pay4
  rw [shapeCast_self]
  exact Ideal.ofBits_zero_f32

end Cert.KernelIdeal.HandV

end
-- ==== Proof.KI.Val0S.lean ====
import proofs.«122752_j42167988912599_1_alg».proof.Proof.KI.Reg0
import proofs.«122752_j42167988912599_1_alg».proof.Proof.Spec
import proofs.«122752_j42167988912599_1_alg».proof.Proof.LibMatmulTT
import proofs.«122752_j42167988912599_1_alg».proof.Proof.LibSumBlocks
import proofs.«122752_j42167988912599_1_alg».proof.Proof.KI.Val0SPay
import proofs.«122752_j42167988912599_1_alg».proof.Proof.KI.Val0Pieces
import proofs.«122752_j42167988912599_1_alg».proof.Proof.KI.Val0Blocks
import proofs.«122752_j42167988912599_1_alg».proof.Proof.KI.Val0Pay
import Idealize.ShloMosaic.Lib.Pipeline.Value
import Idealize.ShloMosaic.Lib.ValueIdx
import Idealize.ShloMosaic.PureOps.Ideal.Laws

/-!
The first kernel's second result: the Gram matrix, accumulated in a scratch buffer along each row of the grid.

Region 0 runs over an 8 × 8 grid in row-major order; point 8·b + n works on rows n·2048 … n·2048 + 2047 of batch b.
Its body keeps a 64 × 64 accumulator: the first point of a row starts it from zero, every point adds
Σ_r q[r, i] · k[r, j] over its 2048 rows (q and k the block's query and key projections of the normalised image), and
copies it into the second output's block, which is written back at the last point of the row. So after point 8·b + n
the accumulator holds the sum of the first n + 1 blocks' shares of Σ_m q[b, m, i] · k[b, m, j]; the extended reals'
addition is commutative and associative, so after the eighth block it is the whole sum, entry [b, i, j] of
Cert.Spec.gram; the eight flushed blocks tile the [8, 64, 64] result.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The arrays the accumulator is stated over -/

/-- The normalised image of the region's first array. -/
def img0s (c : Dev nD) : Cert.Spec.I3 8 16384 512 → EReal :=
  Cert.Spec.img (V c main_v0 : S8x16384x512.Idx → EReal) (V c main_arg1 : S512.Idx → EReal) (V c main_arg2 : S512.Idx → EReal)
    (V c main_arg3 : S512.Idx → EReal) (V c main_arg4 : S512.Idx → EReal)
/-- The query projection. -/
def q0s (c : Dev nD) : Cert.Spec.I3 8 16384 64 → EReal :=
  Cert.Spec.proj (img0s V c) (V c main_arg5 : S512x64.Idx → EReal) (V c main_arg6 : S64.Idx → EReal)
/-- The key projection. -/
def k0s (c : Dev nD) : Cert.Spec.I3 8 16384 64 → EReal :=
  Cert.Spec.proj (img0s V c) (V c main_arg7 : S512x64.Idx → EReal) (V c main_arg8 : S64.Idx → EReal)
/-- The products the Gram matrix sums at entry (i, j) of batch b, by position. -/
def term0s (c : Dev nD) (b : Fin 8) (i j : Fin 64) : Fin 16384 → EReal :=
  fun m => q0s V c (ix3 b m i) * k0s V c (ix3 b m j)

/-! ## The block's query and key columns are rows of the projections -/

/-- The normalised block at point t = 8·b + n, row r: row n·2048 + r of batch b of the normalised image. -/
theorem img0s_blk (c : Dev nD) (t : Fin cfg0.N) (b : Fin 8) (n : ℕ) (hn : n < 8) (ht : t.val = 8 * b.val + n)
    (r : Fin 2048) (ch : Fin 512) :
    k0_pay5 (F := Ideal) (iblk0 V c 0 t) (iblk0 V c 1 t) (iblk0 V c 2 t) (iblk0 V c 3 t) (iblk0 V c 4 t) (ix2 r ch)
      = img0s V c (ix3 b ⟨n * 2048 + r.val, by omega⟩ ch) := by
  rw [k0pay5_apply, iblk0_0_apply, iblk0_1_apply, iblk0_2_apply, iblk0_3_apply, iblk0_4_apply]
  have hidx : (ix3 ⟨t.val / 8, by omega⟩ ⟨t.val % 8 * 2048 + r.val, by omega⟩ ch : S8x16384x512.Idx)
      = ix3 b ⟨n * 2048 + r.val, by omega⟩ ch :=
    funext fun a => Fin.ext (by
      match a with
      | ⟨0, _⟩ => show t.val / 8 = b.val; omega
      | ⟨1, _⟩ => show t.val % 8 * 2048 + r.val = n * 2048 + r.val; omega
      | ⟨2, _⟩ => rfl)
  rw [hidx]
  rfl

/-- The block's query columns. -/
theorem q0s_blk (c : Dev nD) (t : Fin cfg0.N) (b : Fin 8) (n : ℕ) (hn : n < 8) (ht : t.val = 8 * b.val + n)
    (r : Fin 2048) (d : Fin 64) :
    k0_pay7 (F := Ideal) (iblk0 V c 0 t) (iblk0 V c 1 t) (iblk0 V c 2 t) (iblk0 V c 3 t) (iblk0 V c 4 t) (iblk0 V c 5 t)
        (iblk0 V c 6 t) (ix2 r d)
      = q0s V c (ix3 b ⟨n * 2048 + r.val, by omega⟩ d) := by
  rw [k0pay7_apply, iblk0_5_apply, iblk0_6_apply]
  refine Eq.trans ?_ (Cert.Spec.proj_apply _ _ _ b ⟨n * 2048 + r.val, by omega⟩ d).symm
  refine congrArg (fun z : EReal => z + (V c main_arg6 : S64.Idx → EReal) (ix1 d)) (Finset.sum_congr rfl fun ch _ => ?_)
  rw [img0s_blk V c t b n hn ht r ch]

/-- The block's key columns, the key bias added. -/
theorem k0s_blk (c : Dev nD) (t : Fin cfg0.N) (b : Fin 8) (n : ℕ) (hn : n < 8) (ht : t.val = 8 * b.val + n)
    (r : Fin 2048) (d : Fin 64) :
    k0_pay8 (F := Ideal) (iblk0 V c 0 t) (iblk0 V c 1 t) (iblk0 V c 2 t) (iblk0 V c 3 t) (iblk0 V c 4 t) (iblk0 V c 7 t)
        (ix2 r d) + (iblk0 V c 8 t : Vec Ideal S64 .f32) (ix1 d)
      = k0s V c (ix3 b ⟨n * 2048 + r.val, by omega⟩ d) := by
  rw [k0pay8_apply, iblk0_7_apply, iblk0_8_apply]
  refine Eq.trans ?_ (Cert.Spec.proj_apply _ _ _ b ⟨n * 2048 + r.val, by omega⟩ d).symm
  refine congrArg (fun z : EReal => z + (V c main_arg8 : S64.Idx → EReal) (ix1 d)) (Finset.sum_congr rfl fun ch _ => ?_)
  rw [img0s_blk V c t b n hn ht r ch]

/-- One point's contribution to entry (i, j): the block's share of the Gram sum. -/
theorem gram0s_blk (c : Dev nD) (t : Fin cfg0.N) (b : Fin 8) (n : ℕ) (hn : n < 8) (ht : t.val = 8 * b.val + n) (i j : Fin 64) :
    (∑ r : Fin 2048,
        k0_pay7 (F := Ideal) (iblk0 V c 0 t) (iblk0 V c 1 t) (iblk0 V c 2 t) (iblk0 V c 3 t) (iblk0 V c 4 t) (iblk0 V c 5 t)
          (iblk0 V c 6 t) (ix2 r i)
        * (k0_pay8 (F := Ideal) (iblk0 V c 0 t) (iblk0 V c 1 t) (iblk0 V c 2 t) (iblk0 V c 3 t) (iblk0 V c 4 t)
            (iblk0 V c 7 t) (ix2 r j) + (iblk0 V c 8 t : Vec Ideal S64 .f32) (ix1 j)))
      = Cert.LibSumBlocks.blk (term0s V c b i j) n := by
  rw [Cert.LibSumBlocks.blk_of_lt _ hn]
  refine Finset.sum_congr rfl fun r _ => ?_
  rw [q0s_blk V c t b n hn ht r i, k0s_blk V c t b n hn ht r j]
  rfl

/-! ## The accumulator after each point of a row -/

theorem outsAt0_congr0s (c : Dev nD) {a a' : ℕ} (h : a = a') (ha : a < cfg0.N) (ha' : a' < cfg0.N) :
    outsAt0 V c a ha = outsAt0 V c a' ha' := by subst h; rfl

/-- The second output's buffer after a point is the accumulator after that point, as a [1, 64, 64] block. -/
theorem out0s_eq (c : Dev nD) (t : Fin cfg0.N) :
    (outsAt0 V c t.val t.isLt).2.1 = k0_pay3 (F := Ideal) (outsAt0 V c t.val t.isLt).2.2 := by
  by_cases h0 : t.val % 8 = 0
  · rw [outsAt0_A V c t h0]
    dsimp only
    exact out0_A_12_eq (F := Ideal) ..
  · rw [outsAt0_B V c t h0]
    dsimp only
    exact out0_B_12_eq (F := Ideal) ..

/-- After point 8·b + n the accumulator's entry (i, j) is the sum of the first n + 1 blocks' shares of the Gram sum
    of batch b: it starts from zero at the first point of the row and every point adds its block's share. -/
theorem acc0s (c : Dev nD) (b : Fin 8) : ∀ (n : ℕ) (hn : n < 8) (h : 8 * b.val + n < cfg0.N) (i j : Fin 64),
    (outsAt0 V c (8 * b.val + n) h).2.2 (ix2 i j)
      = ∑ p ∈ Finset.range (n + 1), Cert.LibSumBlocks.blk (term0s V c b i j) p
  | 0, hn, h, i, j => by
    have hA := outsAt0_A V c ⟨8 * b.val + 0, h⟩ (by show (8 * b.val + 0) % 8 = 0; omega)
    rw [show outsAt0 V c (8 * b.val + 0) h = _ from hA]
    dsimp only
    rw [sout0_A_0_eq, k0pay2_apply, k0pay4_apply, zero_add, Finset.sum_range_one]
    exact gram0s_blk V c ⟨8 * b.val + 0, h⟩ b 0 hn rfl i j
  | n + 1, hn, h, i, j => by
    have hB := outsAt0_B V c ⟨8 * b.val + (n + 1), h⟩ (by show ¬(8 * b.val + (n + 1)) % 8 = 0; omega)
    rw [show outsAt0 V c (8 * b.val + (n + 1)) h = _ from hB]
    dsimp only
    rw [sout0_B_0_eq, k0pay2_apply, Finset.sum_range_succ]
    refine congrArg₂ (fun u v : EReal => u + v) ?_ (gram0s_blk V c ⟨8 * b.val + (n + 1), h⟩ b (n + 1) hn rfl i j)
    rw [outsAt0_congr0s V c (show 8 * b.val + (n + 1) - 1 = 8 * b.val + n by omega) _ (by omega)]
    exact acc0s c b n (by omega) (by omega) i j

/-! ## What a flushing point writes back, and the whole array -/

set_option maxRecDepth 131072 in
/-- At the last point of row b the second output's block is batch b of the Gram matrix. -/
theorem flushed0s_eq (c : Dev nD) (t : Fin cfg0.N) (hf : (cfg0.win 12).flush t = true) :
    (dat0 (F := Ideal) V c).flushed 12 t
      = ((cfg0.win 12).blk t).view.read (Elt Ideal) (Cert.Spec.gram (q0s V c) (k0s V c)) := by
  have hN : cfg0.N = 64 := N_0
  have ht := t.isLt
  have h7 : t.val % 8 = 7 := (flush0_12 t).mp hf
  show (cfg0.win 12).cut (grid0.coords t) ((dat0 V c).after 12 t) = _
  rw [after0_12, out0s_eq]
  obtain ⟨-, -, -, -, -, -, e0, e1, e2⟩ := idx_facts0 t
  funext y
  show k0_pay3 (F := Ideal) (outsAt0 V c t.val t.isLt).2.2 y
    = Cert.Spec.gram (q0s V c) (k0s V c) (((cfg0.win 12).blk t).view.emb y)
  obtain ⟨y0, i, j, rfl⟩ : ∃ (y0 : Fin 1) (i j : Fin 64), y = ix3 y0 i j := ⟨y 0, y 1, y 2, eq_ix3 y⟩
  obtain rfl : y0 = 0 := Subsingleton.elim _ _
  have hb : t.val / 8 < 8 := by omega
  have hk : ((cfg0.win 12).blk t).view.emb (ix3 (0 : Fin 1) i j) = (ix3 ⟨t.val / 8, hb⟩ i j : Cert.Spec.I3 8 64 64) :=
    funext fun a => Fin.ext (by
      match a with
      | ⟨0, _⟩ => show win0_12.index t (0 : Fin 3) * 1 + 1 * 0 = t.val / 8; omega
      | ⟨1, _⟩ => show win0_12.index t (1 : Fin 3) * 64 + 1 * i.val = i.val; omega
      | ⟨2, _⟩ => show win0_12.index t (2 : Fin 3) * 64 + 1 * j.val = j.val; omega)
  rw [hk, k0pay3_apply, Cert.Spec.gram_apply,
    outsAt0_congr0s V c (show t.val = 8 * (⟨t.val / 8, hb⟩ : Fin 8).val + 7 by show t.val = 8 * (t.val / 8) + 7; omega) _
      (by show 8 * (t.val / 8) + 7 < cfg0.N; omega),
    acc0s V c ⟨t.val / 8, hb⟩ 7 (by omega) _ i j]
  exact Cert.LibSumBlocks.sum_range_blk (term0s V c ⟨t.val / 8, hb⟩ i j)

/-- An index of the second output is in point t's block iff each coordinate is in the block's range on its axis. -/
theorem mem_blk0s (t : Fin cfg0.N) (i : S8x64x64.Idx) :
    i ∈ ((cfg0.win 12).blk t).view.set ↔ ∀ a : Fin 3, win0_12.index t a * S1x64x64.size a ≤ (i a).val
      ∧ (i a).val < win0_12.index t a * S1x64x64.size a + S1x64x64.size a := by
  show i ∈ ((View.whole main_v1_1).slice (win0_12.rect t)).set ↔ _
  rw [View.set_slice_whole, Rect.mem_set_unit]
  exact Iff.rfl

/-- Every index [b, i, j] of the second output lies in the block of the last point of row b. -/
theorem cover0s (i : S8x64x64.Idx) :
    ∃ t : Fin cfg0.N, (cfg0.win 12).flush t = true ∧ i ∈ ((cfg0.win 12).blk t).view.set := by
  have hN : cfg0.N = 64 := N_0
  have h0 : (i 0).val < 8 := (i 0).isLt
  have h1 : (i 1).val < 64 := (i 1).isLt
  have h2 : (i 2).val < 64 := (i 2).isLt
  obtain ⟨t, ht⟩ : ∃ t : Fin cfg0.N, t.val = (i 0).val * 8 + 7 := ⟨⟨_, by omega⟩, rfl⟩
  obtain ⟨-, -, -, -, -, -, e0, e1, e2⟩ := idx_facts0 t
  refine ⟨t, (flush0_12 t).mpr (by omega), ?_⟩
  rw [mem_blk0s]
  intro a
  match a with
  | ⟨0, _⟩ =>
    show win0_12.index t (0 : Fin 3) * 1 ≤ (i 0).val ∧ (i 0).val < win0_12.index t (0 : Fin 3) * 1 + 1
    omega
  | ⟨1, _⟩ =>
    show win0_12.index t (1 : Fin 3) * 64 ≤ (i 1).val ∧ (i 1).val < win0_12.index t (1 : Fin 3) * 64 + 64
    omega
  | ⟨2, _⟩ =>
    show win0_12.index t (2 : Fin 3) * 64 ≤ (i 2).val ∧ (i 2).val < win0_12.index t (2 : Fin 3) * 64 + 64
    omega

/-- The region leaves its second result array at the Gram matrix of the query and key projections of the normalised
    image: gram [b, i, j] = Σ_n q [b, n, i] · k [b, n, j]. -/
theorem final0_12 (c : Dev nD) :
    (dat0 (F := Ideal) V c).arrAt 12 cfg0.N
      = Cert.Spec.gram
          (Cert.Spec.proj (Cert.Spec.img (V c main_v0 : S8x16384x512.Idx → EReal) (V c main_arg1 : S512.Idx → EReal)
            (V c main_arg2 : S512.Idx → EReal) (V c main_arg3 : S512.Idx → EReal) (V c main_arg4 : S512.Idx → EReal))
            (V c main_arg5 : S512x64.Idx → EReal) (V c main_arg6 : S64.Idx → EReal))
          (Cert.Spec.proj (Cert.Spec.img (V c main_v0 : S8x16384x512.Idx → EReal) (V c main_arg1 : S512.Idx → EReal)
            (V c main_arg2 : S512.Idx → EReal) (V c main_arg3 : S512.Idx → EReal) (V c main_arg4 : S512.Idx → EReal))
            (V c main_arg7 : S512x64.Idx → EReal) (V c main_arg8 : S64.Idx → EReal)) :=
  (dat0 V c).arrAt_eq_of_cover 12 (Cert.Spec.gram (q0s V c) (k0s V c))
    (fun t hf => flushed0s_eq V c t hf) cover0s

end Cert.KernelIdeal.HandV

end
-- ==== Proof.Softmax.lean ====
import Idealize.ShloMosaic.PureOps
import Idealize.ShloMosaic.PureOps.Ideal
import proofs.«122752_j42167988912599_1_alg».proof.Proof.Spec

/-!
The softmax over the last axis of a [8,64,64] array, as the chain of host operations both programs print:
reduce-max from -∞, maximum with a broadcast -∞, broadcast back, subtract, exponential, reduce-add from 0,
broadcast back, divide. It is kept as ONE opaque function of the score array; nothing here opens it.
The shape relations the operations cite are decided on the literal shapes.
-/

noncomputable section

namespace Cert.Spec

open Idealize.ShloMosaic

theorem sm_reduces : (⟨3, ![8, 64, 64]⟩ : Shape).ReducesTo [2] ⟨2, ![8, 64]⟩ := by decide
theorem sm_scalar_pos : 0 < (⟨0, ![]⟩ : Shape).numel := by decide
theorem sm_bcast_scalar :
    (⟨0, ![]⟩ : Shape).BroadcastsInDim ⟨2, ![8, 64]⟩ (![] : Fin 0 → Fin (⟨2, ![8, 64]⟩ : Shape).rank) := by decide
theorem sm_bcast_col :
    (⟨2, ![8, 64]⟩ : Shape).BroadcastsInDim ⟨3, ![8, 64, 1]⟩ (![0, 1] : Fin 2 → Fin (⟨3, ![8, 64, 1]⟩ : Shape).rank) := by
  decide
theorem sm_bcast_row :
    (⟨3, ![8, 64, 1]⟩ : Shape).BroadcastsInDim ⟨3, ![8, 64, 64]⟩
      (![0, 1, 2] : Fin 3 → Fin (⟨3, ![8, 64, 64]⟩ : Shape).rank) := by
  decide

/-- exp (s - max over the last axis of s), the maximum taken from -∞ and once more against -∞. -/
def smExp (s : I3 8 64 64 → EReal) : I3 8 64 64 → EReal :=
  Host.exp (F := Ideal) (φ := .f32)
    (subf (F := Ideal) (φ := .f32) s
      (broadcastInDim ⟨3, ![8, 64, 64]⟩ ![0, 1, 2] sm_bcast_row
        (broadcastInDim ⟨3, ![8, 64, 1]⟩ ![0, 1] sm_bcast_col
          (maximumf (F := Ideal) (φ := .f32)
            (broadcastInDim ⟨2, ![8, 64]⟩ ![] sm_bcast_scalar (constant (F := Ideal) ⟨0, ![]⟩ .f32 0xFF800000#32))
            (Host.reduce (FloatOps.maximumf (F := Ideal) (φ := .f32)) s
              (constant (F := Ideal) ⟨0, ![]⟩ .f32 0xFF800000#32) sm_reduces sm_scalar_pos)))))

/-- The softmax over the last axis: smExp s divided by its sum over the last axis (the sum taken from 0). -/
def SM (s : I3 8 64 64 → EReal) : I3 8 64 64 → EReal :=
  Host.divf (F := Ideal) (φ := .f32) (smExp s)
    (broadcastInDim ⟨3, ![8, 64, 64]⟩ ![0, 1, 2] sm_bcast_row
      (broadcastInDim ⟨3, ![8, 64, 1]⟩ ![0, 1] sm_bcast_col
        (Host.reduceAdd (F := Ideal) (φ := .f32) (smExp s)
          (constant (F := Ideal) ⟨0, ![]⟩ .f32 0x00000000#32) sm_reduces sm_scalar_pos)))

end Cert.Spec

end
-- ==== Proof.Model.lean ====
import proofs.«122752_j42167988912599_1_alg».proof.Proof.Spec
import proofs.«122752_j42167988912599_1_alg».proof.Proof.Softmax

/-!
The whole result as ONE function of the seventeen argument arrays: normalise, project three times, Gram matrix,
softmax, attention product, row-major relabelling, output projection and normalisation, read back as [8,16,32,32,512].
-/

noncomputable section

namespace Cert.Spec

open Idealize.ShloMosaic

/-- The result array. Arguments: the image x; gamma, beta, mean, variance of the first normalisation; the query, key and
    value weights and biases; the output weight and bias; gamma, beta, mean, variance of the second normalisation. -/
def G (x : I5 8 16 32 32 512 → EReal) (g1 b1 m1 v1 : I1 512 → EReal)
    (wq : I2 512 64 → EReal) (bq : I1 64 → EReal) (wk : I2 512 64 → EReal) (bk : I1 64 → EReal)
    (wv : I2 512 64 → EReal) (bv : I1 64 → EReal) (wp : I2 64 512 → EReal) (bp g2 b2 m2 v2 : I1 512 → EReal) :
    I5 8 16 32 32 512 → EReal :=
  unflat (outp (relabel (attn
    (SM (gram (proj (img (flat x) g1 b1 m1 v1) wq bq) (proj (img (flat x) g1 b1 m1 v1) wk bk)))
    (proj (img (flat x) g1 b1 m1 v1) wv bv))) wp bp g2 b2 m2 v2)

end Cert.Spec

end
-- ==== Proof.KI.Result.lean ====
import proofs.«122752_j42167988912599_1_alg».proof.Proof.KI.Plumb
import proofs.«122752_j42167988912599_1_alg».proof.Proof.KI.Val1
import proofs.«122752_j42167988912599_1_alg».proof.Proof.KI.Val2
import proofs.«122752_j42167988912599_1_alg».proof.Proof.KI.Val0V
import proofs.«122752_j42167988912599_1_alg».proof.Proof.KI.Val0S
import proofs.«122752_j42167988912599_1_alg».proof.Proof.Spec
import proofs.«122752_j42167988912599_1_alg».proof.Proof.Softmax
import proofs.«122752_j42167988912599_1_alg».proof.Proof.Model

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem

/-- What the kernel program leaves in its result array is the specification's function of the argument arrays:
    the result is region 2's output reshaped; region 2's output is the projection and second normalisation of its
    first operand, which is region 1's output relabelled row-major; region 1's output is the attention product of
    the softmax of region 0's Gram matrix with region 0's value projection; region 0 reads the activations reshaped
    and the first ten parameter arrays as launched. -/
theorem kernel_result (m : (ℓ : Loc nD τ sig) → Buf (Elt Ideal) ℓ) (ρ : Dev nD → PrngReg) (c : Dev nD) :
    W7 (F := Ideal) m ρ c (Proc.devRef .tc main_v16)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W7_main_v16, W6_main_v15, final2, U5_main_v14, W4_main_v13, final1, U3_main_v12, U3_main_v1_0, W2_main_v1_1,
    W2_main_v1_0, final0_12, final0_11, U1_main_v0, U1_main_arg1, U1_main_arg2, U1_main_arg3, U1_main_arg4, U1_main_arg5, U1_main_arg6, U1_main_arg7, U1_main_arg8, U1_main_arg9, U1_main_arg10,
    U5_main_arg11, U5_main_arg12, U5_main_arg13, U5_main_arg14, U5_main_arg15, U5_main_arg16]
  rfl

end Cert.KernelIdeal.HandV

end
-- ==== Proof.RefA.lean ====
import proofs.«122752_j42167988912599_1_alg».proof.Proof.Gen.ReferenceIdeal.Read
import proofs.«122752_j42167988912599_1_alg».proof.Proof.Spec
import proofs.«122752_j42167988912599_1_alg».proof.Proof.Softmax

/-!
The reference program's normalised image and its three channel projections, read at an index:
the 5-D elementwise chain is the specification's img over the flattened image, and each dot_general over the
channel axis followed by the bias and the reshape to [8,16384,64] is the specification's proj.
-/

noncomputable section

namespace Cert.RefG

open Cert.ReferenceIdeal Cert.ReferenceIdeal.Gen Cert.ReferenceIdeal.Read Idealize.ShloMosaic Idealize.ShloMosaic.ValueIdx Cert.Spec
open scoped BigOperators

theorem ref_img (x0 : I5 8 16 32 32 512 → EReal) (x1 x2 x3 x4 : I1 512 → EReal)
    (b : Fin 8) (d1 : Fin 16) (d2 d3 : Fin 32) (c : Fin 512) :
    val_main_v14 (F := Ideal) x0 x1 x2 x3 x4 (ix5 b d1 d2 d3 c)
      = img (flat x0) x1 x2 x3 x4 (ix3 b ⟨(d1.val * 32 + d2.val) * 32 + d3.val, by omega⟩ c) := by
  rw [val_main_v14_apply, val_main_v11_apply, val_main_v8_apply, val_main_v2_apply, val_main_v1_apply, val_main_v0_apply,
    val_main_v7_apply, val_main_v6_apply, val_main_v5_apply, val_main_v4_apply, val_main_v3_apply, val_main_cst_apply,
    val_main_v10_apply, val_main_v9_apply, val_main_v13_apply, val_main_v12_apply, img_apply, flat_apply]
  have e0 : idx_main_v0 (idx_main_v1 (ix5 b d1 d2 d3 c)) = ix1 c :=
    funext fun a => Fin.ext (by match a with | ⟨0, _⟩ => rfl)
  have e6 : idx_main_v6 (idx_main_v7 (ix5 b d1 d2 d3 c)) = ix1 c :=
    funext fun a => Fin.ext (by match a with | ⟨0, _⟩ => rfl)
  have e9 : idx_main_v9 (idx_main_v10 (ix5 b d1 d2 d3 c)) = ix1 c :=
    funext fun a => Fin.ext (by match a with | ⟨0, _⟩ => rfl)
  have e12 : idx_main_v12 (idx_main_v13 (ix5 b d1 d2 d3 c)) = ix1 c :=
    funext fun a => Fin.ext (by match a with | ⟨0, _⟩ => rfl)
  have ex : (ix5 b ⟨((d1.val * 32 + d2.val) * 32 + d3.val) / 1024, by omega⟩
      ⟨((d1.val * 32 + d2.val) * 32 + d3.val) / 32 % 32, by omega⟩
      ⟨((d1.val * 32 + d2.val) * 32 + d3.val) % 32, by omega⟩ c : I5 8 16 32 32 512) = ix5 b d1 d2 d3 c :=
    funext fun a => Fin.ext (by
      match a with
      | ⟨0, _⟩ => rfl
      | ⟨1, _⟩ => show ((d1.val * 32 + d2.val) * 32 + d3.val) / 1024 = d1.val; omega
      | ⟨2, _⟩ => show ((d1.val * 32 + d2.val) * 32 + d3.val) / 32 % 32 = d2.val; omega
      | ⟨3, _⟩ => show ((d1.val * 32 + d2.val) * 32 + d3.val) % 32 = d3.val; omega
      | ⟨4, _⟩ => rfl)
  rw [e0, e6, e9, e12]
  refine Eq.trans ?_ (congrArg (fun z => (x0 z - x3 (ix1 c)) * Ideal.rsqrt (x4 (ix1 c) + eps) * x1 (ix1 c) + x2 (ix1 c)) ex.symm)
  rfl

theorem ref_q (x0 : I5 8 16 32 32 512 → EReal) (x1 x2 x3 x4 : I1 512 → EReal) (x5 : I2 512 64 → EReal) (x6 : I1 64 → EReal)
    (b : Fin 8) (n : Fin 16384) (d : Fin 64) :
    val_main_v19 (F := Ideal) x0 x1 x2 x3 x4 x5 x6 (ix3 b n d)
      = proj (img (flat x0) x1 x2 x3 x4) x5 x6 (ix3 b n d) := by
  rw [val_main_v19_apply, val_main_v18_apply, val_main_v15_apply, val_main_v17_apply, val_main_v16_apply, proj_apply,
    Ideal.addf_def]
  have el : ∀ k : Fin 512, lidx_main_v15 (idx_main_v19 (ix3 b n d)) k
      = ix5 b ⟨n.val / 1024, by omega⟩ ⟨n.val / 32 % 32, by omega⟩ ⟨n.val % 32, by omega⟩ k := fun k =>
    funext fun a => Fin.ext (by
      match a with
      | ⟨0, _⟩ => show ((b.val * 16384 + n.val) * 64 + d.val) / 1048576 = b.val; omega
      | ⟨1, _⟩ => show ((b.val * 16384 + n.val) * 64 + d.val) / 65536 % 16 = n.val / 1024; omega
      | ⟨2, _⟩ => show ((b.val * 16384 + n.val) * 64 + d.val) / 2048 % 32 = n.val / 32 % 32; omega
      | ⟨3, _⟩ => show ((b.val * 16384 + n.val) * 64 + d.val) / 64 % 32 = n.val % 32; omega
      | ⟨4, _⟩ => rfl)
  have er : ∀ k : Fin 512, ridx_main_v15 (idx_main_v19 (ix3 b n d)) k = ix2 k d := fun k =>
    funext fun a => Fin.ext (by
      match a with
      | ⟨0, _⟩ => rfl
      | ⟨1, _⟩ => show ((b.val * 16384 + n.val) * 64 + d.val) % 64 = d.val; omega)
  have eb : idx_main_v16 (idx_main_v17 (idx_main_v19 (ix3 b n d))) = ix1 d :=
    funext fun a => Fin.ext (by
      match a with
      | ⟨0, _⟩ => show ((b.val * 16384 + n.val) * 64 + d.val) % 64 = d.val; omega)
  have en : ∀ k : Fin 512, (ix3 b ⟨(n.val / 1024 * 32 + n.val / 32 % 32) * 32 + n.val % 32, by omega⟩ k : I3 8 16384 512)
      = ix3 b n k := fun k =>
    funext fun a => Fin.ext (by
      match a with
      | ⟨0, _⟩ => rfl
      | ⟨1, _⟩ => show (n.val / 1024 * 32 + n.val / 32 % 32) * 32 + n.val % 32 = n.val; omega
      | ⟨2, _⟩ => rfl)
  refine congrArg₂ (fun u v : EReal => u + v) (Finset.sum_congr rfl fun k _ => ?_) (congrArg x6 eb)
  rw [el k, er k, ref_img]
  exact congrArg (fun z => img (flat x0) x1 x2 x3 x4 z * x5 (ix2 k d)) (en k)

theorem ref_k (x0 : I5 8 16 32 32 512 → EReal) (x1 x2 x3 x4 : I1 512 → EReal) (x7 : I2 512 64 → EReal) (x8 : I1 64 → EReal)
    (b : Fin 8) (n : Fin 16384) (d : Fin 64) :
    val_main_v24 (F := Ideal) x0 x1 x2 x3 x4 x7 x8 (ix3 b n d)
      = proj (img (flat x0) x1 x2 x3 x4) x7 x8 (ix3 b n d) := by
  rw [val_main_v24_apply, val_main_v23_apply, val_main_v20_apply, val_main_v22_apply, val_main_v21_apply, proj_apply,
    Ideal.addf_def]
  have el : ∀ k : Fin 512, lidx_main_v20 (idx_main_v24 (ix3 b n d)) k
      = ix5 b ⟨n.val / 1024, by omega⟩ ⟨n.val / 32 % 32, by omega⟩ ⟨n.val % 32, by omega⟩ k := fun k =>
    funext fun a => Fin.ext (by
      match a with
      | ⟨0, _⟩ => show ((b.val * 16384 + n.val) * 64 + d.val) / 1048576 = b.val; omega
      | ⟨1, _⟩ => show ((b.val * 16384 + n.val) * 64 + d.val) / 65536 % 16 = n.val / 1024; omega
      | ⟨2, _⟩ => show ((b.val * 16384 + n.val) * 64 + d.val) / 2048 % 32 = n.val / 32 % 32; omega
      | ⟨3, _⟩ => show ((b.val * 16384 + n.val) * 64 + d.val) / 64 % 32 = n.val % 32; omega
      | ⟨4, _⟩ => rfl)
  have er : ∀ k : Fin 512, ridx_main_v20 (idx_main_v24 (ix3 b n d)) k = ix2 k d := fun k =>
    funext fun a => Fin.ext (by
      match a with
      | ⟨0, _⟩ => rfl
      | ⟨1, _⟩ => show ((b.val * 16384 + n.val) * 64 + d.val) % 64 = d.val; omega)
  have eb : idx_main_v21 (idx_main_v22 (idx_main_v24 (ix3 b n d))) = ix1 d :=
    funext fun a => Fin.ext (by
      match a with
      | ⟨0, _⟩ => show ((b.val * 16384 + n.val) * 64 + d.val) % 64 = d.val; omega)
  have en : ∀ k : Fin 512, (ix3 b ⟨(n.val / 1024 * 32 + n.val / 32 % 32) * 32 + n.val % 32, by omega⟩ k : I3 8 16384 512)
      = ix3 b n k := fun k =>
    funext fun a => Fin.ext (by
      match a with
      | ⟨0, _⟩ => rfl
      | ⟨1, _⟩ => show (n.val / 1024 * 32 + n.val / 32 % 32) * 32 + n.val % 32 = n.val; omega
      | ⟨2, _⟩ => rfl)
  refine congrArg₂ (fun u v : EReal => u + v) (Finset.sum_congr rfl fun k _ => ?_) (congrArg x8 eb)
  rw [el k, er k, ref_img]
  exact congrArg (fun z => img (flat x0) x1 x2 x3 x4 z * x7 (ix2 k d)) (en k)

theorem ref_v (x0 : I5 8 16 32 32 512 → EReal) (x1 x2 x3 x4 : I1 512 → EReal) (x9 : I2 512 64 → EReal) (x10 : I1 64 → EReal)
    (b : Fin 8) (n : Fin 16384) (d : Fin 64) :
    val_main_v29 (F := Ideal) x0 x1 x2 x3 x4 x9 x10 (ix3 b n d)
      = proj (img (flat x0) x1 x2 x3 x4) x9 x10 (ix3 b n d) := by
  rw [val_main_v29_apply, val_main_v28_apply, val_main_v25_apply, val_main_v27_apply, val_main_v26_apply, proj_apply,
    Ideal.addf_def]
  have el : ∀ k : Fin 512, lidx_main_v25 (idx_main_v29 (ix3 b n d)) k
      = ix5 b ⟨n.val / 1024, by omega⟩ ⟨n.val / 32 % 32, by omega⟩ ⟨n.val % 32, by omega⟩ k := fun k =>
    funext fun a => Fin.ext (by
      match a with
      | ⟨0, _⟩ => show ((b.val * 16384 + n.val) * 64 + d.val) / 1048576 = b.val; omega
      | ⟨1, _⟩ => show ((b.val * 16384 + n.val) * 64 + d.val) / 65536 % 16 = n.val / 1024; omega
      | ⟨2, _⟩ => show ((b.val * 16384 + n.val) * 64 + d.val) / 2048 % 32 = n.val / 32 % 32; omega
      | ⟨3, _⟩ => show ((b.val * 16384 + n.val) * 64 + d.val) / 64 % 32 = n.val % 32; omega
      | ⟨4, _⟩ => rfl)
  have er : ∀ k : Fin 512, ridx_main_v25 (idx_main_v29 (ix3 b n d)) k = ix2 k d := fun k =>
    funext fun a => Fin.ext (by
      match a with
      | ⟨0, _⟩ => rfl
      | ⟨1, _⟩ => show ((b.val * 16384 + n.val) * 64 + d.val) % 64 = d.val; omega)
  have eb : idx_main_v26 (idx_main_v27 (idx_main_v29 (ix3 b n d))) = ix1 d :=
    funext fun a => Fin.ext (by
      match a with
      | ⟨0, _⟩ => show ((b.val * 16384 + n.val) * 64 + d.val) % 64 = d.val; omega)
  have en : ∀ k : Fin 512, (ix3 b ⟨(n.val / 1024 * 32 + n.val / 32 % 32) * 32 + n.val % 32, by omega⟩ k : I3 8 16384 512)
      = ix3 b n k := fun k =>
    funext fun a => Fin.ext (by
      match a with
      | ⟨0, _⟩ => rfl
      | ⟨1, _⟩ => show (n.val / 1024 * 32 + n.val / 32 % 32) * 32 + n.val % 32 = n.val; omega
      | ⟨2, _⟩ => rfl)
  refine congrArg₂ (fun u v : EReal => u + v) (Finset.sum_congr rfl fun k _ => ?_) (congrArg x10 eb)
  rw [el k, er k, ref_img]
  exact congrArg (fun z => img (flat x0) x1 x2 x3 x4 z * x9 (ix2 k d)) (en k)

end Cert.RefG

end
-- ==== Proof.RefB.lean ====
import proofs.«122752_j42167988912599_1_alg».proof.Proof.Gen.ReferenceIdeal.Read
import proofs.«122752_j42167988912599_1_alg».proof.Proof.Spec
import proofs.«122752_j42167988912599_1_alg».proof.Proof.Softmax

/-!
The reference program's Gram matrix, softmax, attention product and output stage, read at an index:
the batched dot_general over positions is gram, the softmax chain is SM, the batched dot_general over the
score axis is attn, and the reshape to 5-D, the dot_general with the output weight, the bias and the second
normalisation are outp of the row-major relabelling.
-/

noncomputable section

namespace Cert.RefG

open Cert.ReferenceIdeal Cert.ReferenceIdeal.Gen Cert.ReferenceIdeal.Read Idealize.ShloMosaic Idealize.ShloMosaic.ValueIdx Cert.Spec
open scoped BigOperators

theorem ref_gram (x0 : I5 8 16 32 32 512 → EReal) (x1 x2 x3 x4 : I1 512 → EReal) (x5 : I2 512 64 → EReal) (x6 : I1 64 → EReal) (x7 : I2 512 64 → EReal) (x8 : I1 64 → EReal) (b : Fin 8) (i j : Fin 64) :
    val_main_v30 (F := Ideal) x0 x1 x2 x3 x4 x5 x6 x7 x8 (ix3 b i j)
      = gram (val_main_v19 (F := Ideal) x0 x1 x2 x3 x4 x5 x6) (val_main_v24 (F := Ideal) x0 x1 x2 x3 x4 x7 x8) (ix3 b i j) := by
  rw [val_main_v30_apply, gram_apply]
  refine Finset.sum_congr rfl fun n _ => ?_
  have el : lidx_main_v30 (ix3 b i j) n = ix3 b n i :=
    funext fun a => Fin.ext (by match a with | ⟨0, _⟩ => rfl | ⟨1, _⟩ => rfl | ⟨2, _⟩ => rfl)
  have er : ridx_main_v30 (ix3 b i j) n = ix3 b n j :=
    funext fun a => Fin.ext (by match a with | ⟨0, _⟩ => rfl | ⟨1, _⟩ => rfl | ⟨2, _⟩ => rfl)
  rw [el, er]

theorem ref_attn (x0 : I5 8 16 32 32 512 → EReal) (x1 x2 x3 x4 : I1 512 → EReal) (x5 : I2 512 64 → EReal) (x6 : I1 64 → EReal) (x7 : I2 512 64 → EReal) (x8 : I1 64 → EReal) (x9 : I2 512 64 → EReal) (x10 : I1 64 → EReal) (b : Fin 8) (i : Fin 64) (j : Fin 16384) :
    val_main_v42 (F := Ideal) x0 x1 x2 x3 x4 x5 x6 x7 x8 x9 x10 (ix3 b i j)
      = attn (val_main_v41 (F := Ideal) x0 x1 x2 x3 x4 x5 x6 x7 x8) (val_main_v29 (F := Ideal) x0 x1 x2 x3 x4 x9 x10) (ix3 b i j) := by
  rw [val_main_v42_apply, attn_apply]
  refine Finset.sum_congr rfl fun m _ => ?_
  have el : lidx_main_v42 (ix3 b i j) m = ix3 b m i :=
    funext fun a => Fin.ext (by match a with | ⟨0, _⟩ => rfl | ⟨1, _⟩ => rfl | ⟨2, _⟩ => rfl)
  have er : ridx_main_v42 (ix3 b i j) m = ix3 b j m :=
    funext fun a => Fin.ext (by match a with | ⟨0, _⟩ => rfl | ⟨1, _⟩ => rfl | ⟨2, _⟩ => rfl)
  rw [el, er]

/-- The reference's softmax chain is the shared chain SM of its score array: the same operations in the same order. -/
theorem ref_sm (x0 : I5 8 16 32 32 512 → EReal) (x1 x2 x3 x4 : I1 512 → EReal) (x5 : I2 512 64 → EReal) (x6 : I1 64 → EReal) (x7 : I2 512 64 → EReal) (x8 : I1 64 → EReal) :
    val_main_v41 (F := Ideal) x0 x1 x2 x3 x4 x5 x6 x7 x8 = SM (val_main_v30 (F := Ideal) x0 x1 x2 x3 x4 x5 x6 x7 x8) := rfl

theorem ref_out (x0 : I5 8 16 32 32 512 → EReal) (x1 x2 x3 x4 : I1 512 → EReal) (x5 : I2 512 64 → EReal) (x6 : I1 64 → EReal) (x7 : I2 512 64 → EReal) (x8 : I1 64 → EReal) (x9 : I2 512 64 → EReal) (x10 : I1 64 → EReal) (x11 : I2 64 512 → EReal) (x12 x13 x14 x15 x16 : I1 512 → EReal) (b : Fin 8) (d1 : Fin 16) (d2 d3 : Fin 32) (c : Fin 512) :
    val_main_v62 (F := Ideal) x0 x1 x2 x3 x4 x5 x6 x7 x8 x9 x10 x11 x12 x13 x14 x15 x16 (ix5 b d1 d2 d3 c)
      = outp (relabel (val_main_v42 (F := Ideal) x0 x1 x2 x3 x4 x5 x6 x7 x8 x9 x10)) x11 x12 x13 x14 x15 x16
          (ix3 b ⟨(d1.val * 32 + d2.val) * 32 + d3.val, by omega⟩ c) := by
  rw [val_main_v62_apply, val_main_v59_apply, val_main_v56_apply, val_main_v50_apply, val_main_v47_apply, val_main_v44_apply,
    val_main_v46_apply, val_main_v45_apply, val_main_v49_apply, val_main_v48_apply, val_main_v55_apply, val_main_v54_apply,
    val_main_v53_apply, val_main_v52_apply, val_main_v51_apply, val_main_cst_3_apply, val_main_v58_apply, val_main_v57_apply,
    val_main_v61_apply, val_main_v60_apply, outp_apply]
  have e45 : idx_main_v45 (idx_main_v46 (ix5 b d1 d2 d3 c)) = ix1 c :=
    funext fun a => Fin.ext (by match a with | ⟨0, _⟩ => rfl)
  have e48 : idx_main_v48 (idx_main_v49 (ix5 b d1 d2 d3 c)) = ix1 c :=
    funext fun a => Fin.ext (by match a with | ⟨0, _⟩ => rfl)
  have e54 : idx_main_v54 (idx_main_v55 (ix5 b d1 d2 d3 c)) = ix1 c :=
    funext fun a => Fin.ext (by match a with | ⟨0, _⟩ => rfl)
  have e57 : idx_main_v57 (idx_main_v58 (ix5 b d1 d2 d3 c)) = ix1 c :=
    funext fun a => Fin.ext (by match a with | ⟨0, _⟩ => rfl)
  have e60 : idx_main_v60 (idx_main_v61 (ix5 b d1 d2 d3 c)) = ix1 c :=
    funext fun a => Fin.ext (by match a with | ⟨0, _⟩ => rfl)
  rw [e45, e48, e54, e57, e60]
  refine congrArg (fun S : EReal => (S + x12 (ix1 c) - x15 (ix1 c)) * Ideal.rsqrt (x16 (ix1 c) + eps) * x13 (ix1 c) + x14 (ix1 c))
    (Finset.sum_congr rfl fun k _ => ?_)
  have e1 : idx_main_v43 (lidx_main_v44 (ix5 b d1 d2 d3 c) k)
      = ix3 b ⟨(((d1.val * 32 + d2.val) * 32 + d3.val) * 64 + k.val) / 16384, by omega⟩
          ⟨(((d1.val * 32 + d2.val) * 32 + d3.val) * 64 + k.val) % 16384, by omega⟩ :=
    funext fun a => Fin.ext (by
      match a with
      | ⟨0, _⟩ =>
        show ((((b.val * 16 + d1.val) * 32 + d2.val) * 32 + d3.val) * 64 + k.val) / 1048576 = b.val; omega
      | ⟨1, _⟩ =>
        show ((((b.val * 16 + d1.val) * 32 + d2.val) * 32 + d3.val) * 64 + k.val) / 16384 % 64
          = (((d1.val * 32 + d2.val) * 32 + d3.val) * 64 + k.val) / 16384; omega
      | ⟨2, _⟩ =>
        show ((((b.val * 16 + d1.val) * 32 + d2.val) * 32 + d3.val) * 64 + k.val) % 16384
          = (((d1.val * 32 + d2.val) * 32 + d3.val) * 64 + k.val) % 16384; omega)
  have e2 : ridx_main_v44 (ix5 b d1 d2 d3 c) k = ix2 k c :=
    funext fun a => Fin.ext (by match a with | ⟨0, _⟩ => rfl | ⟨1, _⟩ => rfl)
  rw [val_main_v43_apply, relabel_apply, e1, e2]

end Cert.RefG

end
-- ==== Proof.RefG.lean ====
import proofs.«122752_j42167988912599_1_alg».proof.Proof.Gen.ReferenceIdeal.Read
import proofs.«122752_j42167988912599_1_alg».proof.Proof.Spec
import proofs.«122752_j42167988912599_1_alg».proof.Proof.Softmax
import proofs.«122752_j42167988912599_1_alg».proof.Proof.Model
import proofs.«122752_j42167988912599_1_alg».proof.Proof.RefA
import proofs.«122752_j42167988912599_1_alg».proof.Proof.RefB
/-!
The reference program's result is the specification's G of its seventeen arguments: the stage lemmas of
RefA and RefB as equalities of arrays, composed.
-/

noncomputable section

namespace Cert.RefG

open Cert.ReferenceIdeal Cert.ReferenceIdeal.Gen Cert.ReferenceIdeal.Read Idealize.ShloMosaic Idealize.ShloMosaic.ValueIdx Cert.Spec
open scoped BigOperators

theorem ref_q_fun (x0 : I5 8 16 32 32 512 → EReal) (x1 x2 x3 x4 : I1 512 → EReal) (x5 : I2 512 64 → EReal) (x6 : I1 64 → EReal) :
    val_main_v19 (F := Ideal) x0 x1 x2 x3 x4 x5 x6 = proj (img (flat x0) x1 x2 x3 x4) x5 x6 := by
  funext j
  obtain ⟨b, n, d, rfl⟩ : ∃ (b : Fin 8) (n : Fin 16384) (d : Fin 64), j = ix3 b n d := ⟨j 0, j 1, j 2, eq_ix3 j⟩
  exact ref_q x0 x1 x2 x3 x4 x5 x6 b n d

theorem ref_k_fun (x0 : I5 8 16 32 32 512 → EReal) (x1 x2 x3 x4 : I1 512 → EReal) (x7 : I2 512 64 → EReal) (x8 : I1 64 → EReal) :
    val_main_v24 (F := Ideal) x0 x1 x2 x3 x4 x7 x8 = proj (img (flat x0) x1 x2 x3 x4) x7 x8 := by
  funext j
  obtain ⟨b, n, d, rfl⟩ : ∃ (b : Fin 8) (n : Fin 16384) (d : Fin 64), j = ix3 b n d := ⟨j 0, j 1, j 2, eq_ix3 j⟩
  exact ref_k x0 x1 x2 x3 x4 x7 x8 b n d

theorem ref_v_fun (x0 : I5 8 16 32 32 512 → EReal) (x1 x2 x3 x4 : I1 512 → EReal) (x9 : I2 512 64 → EReal) (x10 : I1 64 → EReal) :
    val_main_v29 (F := Ideal) x0 x1 x2 x3 x4 x9 x10 = proj (img (flat x0) x1 x2 x3 x4) x9 x10 := by
  funext j
  obtain ⟨b, n, d, rfl⟩ : ∃ (b : Fin 8) (n : Fin 16384) (d : Fin 64), j = ix3 b n d := ⟨j 0, j 1, j 2, eq_ix3 j⟩
  exact ref_v x0 x1 x2 x3 x4 x9 x10 b n d

theorem ref_gram_fun (x0 : I5 8 16 32 32 512 → EReal) (x1 x2 x3 x4 : I1 512 → EReal) (x5 : I2 512 64 → EReal) (x6 : I1 64 → EReal) (x7 : I2 512 64 → EReal) (x8 : I1 64 → EReal) :
    val_main_v30 (F := Ideal) x0 x1 x2 x3 x4 x5 x6 x7 x8
      = gram (val_main_v19 (F := Ideal) x0 x1 x2 x3 x4 x5 x6) (val_main_v24 (F := Ideal) x0 x1 x2 x3 x4 x7 x8) := by
  funext j
  obtain ⟨b, i, k, rfl⟩ : ∃ (b : Fin 8) (i k : Fin 64), j = ix3 b i k := ⟨j 0, j 1, j 2, eq_ix3 j⟩
  exact ref_gram x0 x1 x2 x3 x4 x5 x6 x7 x8 b i k

theorem ref_attn_fun (x0 : I5 8 16 32 32 512 → EReal) (x1 x2 x3 x4 : I1 512 → EReal) (x5 : I2 512 64 → EReal) (x6 : I1 64 → EReal) (x7 : I2 512 64 → EReal) (x8 : I1 64 → EReal) (x9 : I2 512 64 → EReal) (x10 : I1 64 → EReal) :
    val_main_v42 (F := Ideal) x0 x1 x2 x3 x4 x5 x6 x7 x8 x9 x10
      = attn (val_main_v41 (F := Ideal) x0 x1 x2 x3 x4 x5 x6 x7 x8) (val_main_v29 (F := Ideal) x0 x1 x2 x3 x4 x9 x10) := by
  funext j
  obtain ⟨b, i, k, rfl⟩ : ∃ (b : Fin 8) (i : Fin 64) (k : Fin 16384), j = ix3 b i k := ⟨j 0, j 1, j 2, eq_ix3 j⟩
  exact ref_attn x0 x1 x2 x3 x4 x5 x6 x7 x8 x9 x10 b i k

theorem ref_out_fun (x0 : I5 8 16 32 32 512 → EReal) (x1 x2 x3 x4 : I1 512 → EReal) (x5 : I2 512 64 → EReal) (x6 : I1 64 → EReal) (x7 : I2 512 64 → EReal) (x8 : I1 64 → EReal) (x9 : I2 512 64 → EReal) (x10 : I1 64 → EReal) (x11 : I2 64 512 → EReal) (x12 x13 x14 x15 x16 : I1 512 → EReal) :
    val_main_v62 (F := Ideal) x0 x1 x2 x3 x4 x5 x6 x7 x8 x9 x10 x11 x12 x13 x14 x15 x16
      = unflat (outp (relabel (val_main_v42 (F := Ideal) x0 x1 x2 x3 x4 x5 x6 x7 x8 x9 x10)) x11 x12 x13 x14 x15 x16) := by
  funext j
  obtain ⟨b, d1, d2, d3, c, rfl⟩ : ∃ (b : Fin 8) (d1 : Fin 16) (d2 d3 : Fin 32) (c : Fin 512), j = ix5 b d1 d2 d3 c :=
    ⟨j 0, j 1, j 2, j 3, j 4, eq_ix5 j⟩
  rw [unflat_apply]
  exact ref_out x0 x1 x2 x3 x4 x5 x6 x7 x8 x9 x10 x11 x12 x13 x14 x15 x16 b d1 d2 d3 c

/-- THE REFERENCE IS G: the last stage of the reference program, at the ideal instance, is the specification's result
    array of the same seventeen arguments. -/
theorem ref_result (x0 : I5 8 16 32 32 512 → EReal) (x1 x2 x3 x4 : I1 512 → EReal) (x5 : I2 512 64 → EReal) (x6 : I1 64 → EReal) (x7 : I2 512 64 → EReal) (x8 : I1 64 → EReal) (x9 : I2 512 64 → EReal) (x10 : I1 64 → EReal) (x11 : I2 64 512 → EReal) (x12 x13 x14 x15 x16 : I1 512 → EReal) :
    val_main_v62 (F := Ideal) x0 x1 x2 x3 x4 x5 x6 x7 x8 x9 x10 x11 x12 x13 x14 x15 x16
      = G x0 x1 x2 x3 x4 x5 x6 x7 x8 x9 x10 x11 x12 x13 x14 x15 x16 := by
  rw [ref_out_fun, ref_attn_fun, ref_sm, ref_gram_fun, ref_q_fun, ref_k_fun, ref_v_fun]
  rfl

end Cert.RefG

end
-- ==== Proof.RefRun.lean ====
import proofs.«122752_j42167988912599_1_alg».proof.Proof.RefG

/-!
The reference program's run: the buffer it returns holds, at the ideal instance, the specification's result array G
of the seventeen argument buffers' launch contents.
-/

noncomputable section

namespace Cert.RefG

open Cert.ReferenceIdeal Cert.ReferenceIdeal.Gen Cert.ReferenceIdeal.Read Idealize.ShloMosaic Idealize.ShloMosaic.TcCoe Idealize.SL.Sem Idealize.ShloMosaic.StableHlo Cert.Spec

/-- The run's named result term is G of the arguments' launch contents. -/
theorem ref_res (m : (ℓ : Loc nD τ sig) → Buf (Elt Ideal) ℓ) (c : Dev nD) :
    Cert.ReferenceIdeal.Value.res_main_v62 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (val_main_v62_eq (F := Ideal) m c).trans (ref_result _ _ _ _ _ _ _ _ _ _ _ _ _ _ _ _ _)

end Cert.RefG

end
-- ==== Proof.lean ====
/- The claim of this certificate, assembled.

   The kernel program runs three pallas_calls among four stretches of host operations. Each of its two frames (the
   word-level program and the idealized one: the same text at two instances) is the run of @main as seven segments
   over the several-regions launch theorem, with one record per region: region 0 keeps a 64×64 accumulator in a scratch
   buffer across the second grid axis, regions 1 and 2 keep nothing between points. The reference's frame is its
   run with the result dropped. The idealization rewrote nothing, so `preserves` is trivial.
   For `algebraic`: the same run names every unscoped buffer's final contents, so the kernel program's result is read
   off it and shown to be the specification's function `Cert.Spec.G` of the arguments (region by region: the three
   projections of the normalised activations and the Gram matrix summed over all 16384 positions, block by block of
   2048 in the kernel and in one sum in the reference — extended-real addition is commutative and associative, so no
   finiteness is used —, the shared softmax chain kept as one function, the attention product, the row-major
   relabelling, the output projection and second normalisation); the reference's run ends at the same function of
   arguments that agree. -/
import proofs.«122752_j42167988912599_1_alg».proof.Defs
import proofs.«122752_j42167988912599_1_alg».proof.Proof.Gen.Kernel
import proofs.«122752_j42167988912599_1_alg».proof.Proof.Gen.KernelIdeal
import proofs.«122752_j42167988912599_1_alg».proof.Proof.Gen.ReferenceIdeal
import proofs.«122752_j42167988912599_1_alg».proof.Proof.Gen.ReferenceIdeal.Run
import proofs.«122752_j42167988912599_1_alg».proof.Proof.Gen.ReferenceIdeal.Read
import proofs.«122752_j42167988912599_1_alg».proof.Proof.Gen.Pre_finite_inputs
import proofs.«122752_j42167988912599_1_alg».proof.Proof.K.Run
import proofs.«122752_j42167988912599_1_alg».proof.Proof.KI.Run
import proofs.«122752_j42167988912599_1_alg».proof.Proof.KI.Result
import proofs.«122752_j42167988912599_1_alg».proof.Proof.Model
import proofs.«122752_j42167988912599_1_alg».proof.Proof.RefG
import proofs.«122752_j42167988912599_1_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W7 (F := Ideal) m ρ c (Proc.devRef .tc Cert.KernelIdeal.main_v16), ?_, ?_⟩
  · refine (θ_run Cert.KernelIdeal.defs _ _).mono (fun r h c => ⟨h c _ (Cert.KernelIdeal.Hand.mem_uc Cert.KernelIdeal.main_v16 (by decide)),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c),
      (h c _ (Cert.KernelIdeal.Hand.mem_uc Cert.KernelIdeal.main_arg10 (by decide))).trans (Cert.KernelIdeal.Hand.W7_main_arg10 m ρ c),
      (h c _ (Cert.KernelIdeal.Hand.mem_uc Cert.KernelIdeal.main_arg11 (by decide))).trans (Cert.KernelIdeal.Hand.W7_main_arg11 m ρ c),
      (h c _ (Cert.KernelIdeal.Hand.mem_uc Cert.KernelIdeal.main_arg12 (by decide))).trans (Cert.KernelIdeal.Hand.W7_main_arg12 m ρ c),
      (h c _ (Cert.KernelIdeal.Hand.mem_uc Cert.KernelIdeal.main_arg13 (by decide))).trans (Cert.KernelIdeal.Hand.W7_main_arg13 m ρ c),
      (h c _ (Cert.KernelIdeal.Hand.mem_uc Cert.KernelIdeal.main_arg14 (by decide))).trans (Cert.KernelIdeal.Hand.W7_main_arg14 m ρ c),
      (h c _ (Cert.KernelIdeal.Hand.mem_uc Cert.KernelIdeal.main_arg15 (by decide))).trans (Cert.KernelIdeal.Hand.W7_main_arg15 m ρ c),
      (h c _ (Cert.KernelIdeal.Hand.mem_uc Cert.KernelIdeal.main_arg16 (by decide))).trans (Cert.KernelIdeal.Hand.W7_main_arg16 m ρ c)⟩) (Cert.KernelIdeal.Hand.run_all (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11, e12, e13, e14, e15, e16⟩ := hagree c
    refine (Cert.RefG.ref_res m' c).trans ?_
    rw [e0, e1, e2, e3, e4, e5, e6, e7, e8, e9, e10, e11, e12, e13, e14, e15, e16]
    exact (Cert.KernelIdeal.HandV.kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
